-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16x64x1024 : Shape := ⟨3, ![16, 64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_

variable [Facts]

def fn_part1 {F : FTy → Type} [FloatOps F] (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  main_v18

def fn {F : FTy → Type} [FloatOps F] (main_arg0 : FVec F S4x2048x1024 .f32) (main_arg1 : FVec F S16x64x1024 .f32) (main_arg2 : FVec F S16x64x1024 .f32) (main_arg3 : FVec F S16x64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S16x64x1024 .f32 := Host.absf main_arg2
  let main_cst_2 : FVec F S_ .f32 := constant S_ .f32 0x7F800000#32
  let main_v10 : FVec F S16x64x1024 .f32 := broadcastInDim S16x64x1024 ![] bcast_S_S16x64x1024 main_cst_2
  let main_v11 : IVec S16x64x1024 1 := cmpf .olt main_v9 main_v10
  let main_c_3 : IVec S_ 1 := constantI S_ 1 1#1
  let main_v12 : IVec S_ 1 := (fun x v => Host.reduce IntOp.andi x v reducesTo_S16x64x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_v13 main_v16
-- ==== Kernel.lean ====
abbrev S4x2048x1024 : Shape := ⟨3, ![4, 2048, 1024]⟩
abbrev S16x64x1024 : Shape := ⟨3, ![16, 64, 1024]⟩
abbrev S1024x1024 : Shape := ⟨2, ![1024, 1024]⟩
abbrev S1x512x1024 : Shape := ⟨3, ![1, 512, 1024]⟩
abbrev S512x1024 : Shape := ⟨2, ![512, 1024]⟩
abbrev S1x512x128 : Shape := ⟨3, ![1, 512, 128]⟩
abbrev S1x2048x128 : Shape := ⟨3, ![1, 2048, 128]⟩
abbrev S512x1 : Shape := ⟨2, ![512, 1]⟩
abbrev S512x64 : Shape := ⟨2, ![512, 64]⟩
abbrev S1x512x64 : Shape := ⟨3, ![1, 512, 64]⟩
abbrev S512x512 : Shape := ⟨2, ![512, 512]⟩
abbrev S512 : Shape := ⟨1, ![512]⟩
abbrev S512x128 : Shape := ⟨2, ![512, 128]⟩

abbrev nBuf : Space → Nat
  | .hbm => 14
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x512x128, .f32⟩
  | .local _ .vmem, ⟨18, _⟩ => ⟨S1x512x128, .f32⟩
  | .local _ .vmem, ⟨19, _⟩ => ⟨S512x1, .f32⟩
  | .local _ .vmem, ⟨20, _⟩ => ⟨S512x1, .f32⟩
  | .local _ .vmem, ⟨21, _⟩ => ⟨S512x64, .f32⟩
  | .local _ .vmem, ⟨22, _⟩ => ⟨S512x1, .f32⟩
  | .local _ .vmem, ⟨23, _⟩ => ⟨S512x1, .f32⟩
  | .local _ .vmem, ⟨24, _⟩ => ⟨S512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S16x64x1024_S1024x1024 : S16x64x1024.ShapeCasts S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  inb_S1x512x128_S1x512x64_0_0_64 : ∀ a, (![0, 0, 64] : Fin 3 → Nat) a + S1x512x64.size a ≤ S1x512x128.size a
  iota_S512x512_d0_w32 : S512x512.Iotas .tc 32 [0]
  iota_S512x512_d1_w32 : S512x512.Iotas .tc 32 [1]
  inb_S1x2048x128_S1x512x64_0_0_0 : ∀ a, (![0, 0, 0] : Fin 3 → Nat) a + S1x512x64.size a ≤ S1x2048x128.size a
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x2048x128_S1x512x64_0_0_64 : ∀ a, (![0, 0, 64] : Fin 3 → Nat) a + S1x512x64.size a ≤ S1x2048x128.size a
  inb_S1x2048x128_S1x512x64_0_512_0 : ∀ a, (![0, 512, 0] : Fin 3 → Nat) a + S1x512x64.size a ≤ S1x2048x128.size a
  inb_S1x2048x128_S1x512x64_0_512_64 : ∀ a, (![0, 512, 64] : Fin 3 → Nat) a + S1x512x64.size a ≤ S1x2048x128.size a
  inb_S1x2048x128_S1x512x64_0_1024_0 : ∀ a, (![0, 1024, 0] : Fin 3 → Nat) a + S1x512x64.size a ≤ S1x2048x128.size a
  inb_S1x2048x128_S1x512x64_0_1024_64 : ∀ a, (![0, 1024, 64] : Fin 3 → Nat) a + S1x512x64.size a ≤ S1x2048x128.size a
  inb_S1x2048x128_S1x512x64_0_1536_0 : ∀ a, (![0, 1536, 0] : Fin 3 → Nat) a + S1x512x64.size a ≤ S1x2048x128.size a
  inb_S1x2048x128_S1x512x64_0_1536_64 : ∀ a, (![0, 1536, 64] : Fin 3 → Nat) a + S1x512x64.size a ≤ S1x2048x128.size a
  concatenates_S512x64_S512x64_S512x128_d1 : Shape.Concatenates [S512x64, S512x64] S512x128 1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x1024_S1024x1024_S512x1024_1_1_0_0_n_n_wf : DotDims.WF S512x1024 S1024x1024 S512x1024 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .f32 = 32 ∨ (Rect.block (s := S4x2048x1024) S1x512x128.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S16x64x1024 : Shape := ⟨3, ![16, 64, 1024]⟩
abbrev S16x64x4x2048 : Shape := ⟨4, ![16, 64, 4, 2048]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S16x64x1024, .f32⟩
  | .hbm, ⟨2, _⟩ => ⟨S16x64x1024, .f32⟩
  | .hbm, ⟨3, _⟩ => ⟨S16x64x1024, .f32⟩
  | .hbm, ⟨4, _⟩ => ⟨S16x64x4x2048, .f32⟩
  | .hbm, ⟨5, _⟩ => ⟨S4x16x2048x64, .f32⟩
  | .hbm, ⟨6, _⟩ => ⟨S16x64x4x2048, .f32⟩
  | .hbm, ⟨7, _⟩ => ⟨S4x16x2048x64, .f32⟩
  | .hbm, ⟨8, _⟩ => ⟨S16x64x4x2048, .f32⟩
  | .hbm, ⟨9, _⟩ => ⟨S4x16x2048x64, .f32⟩
  | .hbm, ⟨10, _⟩ => ⟨S4x16x2048x2048, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S_, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S_, .i1⟩
  | .hbm, ⟨24, _⟩ => ⟨S2048x2048, .i1⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v11 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]

class Facts₀ : Prop where
  transposes_S16x64x4x2048_S4x16x2048x64_2_0_3_1 : S16x64x4x2048.Transposes [2, 0, 3, 1] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S16x64x1024_S4x2048x1024_S16x64x4x2048_2_2_01_01_n_n_wf : DotDims.WF S16x64x1024 S4x2048x1024 S16x64x4x2048 [2] [2] [0, 1] [0, 1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S16x64x1024_S4x2048x1024_S16x64x4x2048_2_2_01_01_n_n : DotDims S16x64x1024 S4x2048x1024 S16x64x4x2048 where
  lhsContracting := [2]
  rhsContracting := [2]
  lhsNonContracting := [0, 1]
  rhsNonContracting := [0, 1]
  lhsBatch := []
  rhsBatch := []
  wf := dot_S16x64x1024_S4x2048x1024_S16x64x4x2048_2_2_01_01_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnRuns.lean ====
/-
  The attention region (the second kernel of the program): what its four control cases share.

  A grid point is (batch b, head pair p, query tile sq), sq = t mod 4. The body first resets the six
  scratch buffers (running maximum, running sum and accumulator of each of the pair's two heads), then
  visits key tile j = 0, 1, 2, 3 under the condition sq ≥ j, and last stores accumulator / sum of both
  heads side by side into the output block. So the control case of a point is its sq: tiles 0 … sq are
  visited. Here: the four conditions as the body spells them, decided over the grid in closed form; the
  staging and scratch memrefs as the pipeline passes them; and the region's invariant (every scoped buffer
  that is no staging buffer of this region at some contents, and the generator register) with the six
  scratch buffers as memrefs owned at some contents — the body never reads a scratch buffer before it has
  stored into it at the same point, so nothing is carried from point to point.
-/
import proofs.«100367_j74028056313973_2_alg».proof.Proof.Gen.KernelIdeal.Launch
import proofs.«100367_j74028056313973_2_alg».proof.Proof.Gen.KernelIdeal.Skeleton
import proofs.«100367_j74028056313973_2_alg».proof.Proof.Gen.KernelIdeal.Points
import Idealize.ShloMosaic.Lib.Pipeline.FrameBody
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The four conditions: key tile j is visited iff sq ≥ j -/

/-- The body's test "query tile ≥ j" on the third grid coordinate, as it spells it: a signed comparison of
    the coordinate's word with j, widened to a word and compared with zero. -/
abbrev visits (j : BitVec 32) (i : grid1.Coords) : Prop :=
  (Scalar.cmpi .ne (Scalar.extui (Scalar.cmpi .sge (BitVec.ofNat 32 (i 2).val) j)) 0#32) = 1#1

/-- Key tile 0 is visited at every point. -/
theorem visits0 : ∀ t : Fin cfg1.N, visits 0#32 (grid1.coords t) :=
  (by decide +kernel : ∀ t : Fin grid1.N, visits 0#32 (grid1.coords t))
/-- Key tile 1 is visited exactly at the points whose query tile is at least 1. -/
theorem visits1 : ∀ t : Fin cfg1.N, visits 1#32 (grid1.coords t) ↔ 1 ≤ t.val % 4 :=
  (by decide +kernel : ∀ t : Fin grid1.N, visits 1#32 (grid1.coords t) ↔ 1 ≤ t.val % 4)
/-- Key tile 2 is visited exactly at the points whose query tile is at least 2. -/
theorem visits2 : ∀ t : Fin cfg1.N, visits 2#32 (grid1.coords t) ↔ 2 ≤ t.val % 4 :=
  (by decide +kernel : ∀ t : Fin grid1.N, visits 2#32 (grid1.coords t) ↔ 2 ≤ t.val % 4)
/-- Key tile 3 is visited exactly at the points whose query tile is 3. -/
theorem visits3 : ∀ t : Fin cfg1.N, visits 3#32 (grid1.coords t) ↔ 3 ≤ t.val % 4 :=
  (by decide +kernel : ∀ t : Fin grid1.N, visits 3#32 (grid1.coords t) ↔ 3 ≤ t.val % 4)

/-- No window of the region is ever idle: every point reads its three inputs and stores its output block. -/
theorem live (w : Fin cfg1.W) : ∀ t : Fin cfg1.N, cfg1.idle w (grid1.coords t) = false := by
  revert w; decide +kernel

/-! ## The memrefs the pipeline passes at a point -/

abbrev msQ (t : Fin cfg1.N) : Memref sig .tc .vmem S1x512x128 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x2048x128 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x2048x128 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x512x128 .f32 := win1_3.stage (cfg1.slots t 3)
abbrev hsO (t : Fin cfg1.N) : (msO t).IsWhole := hstage1_3 ((cfg1.slots t 3).cast nbuf1_3)

/-- One staging buffer of the output window, through which its contents are stated (the choice does not matter). -/
abbrev VO : View sig .tc .vmem S1x512x128 .f32 := (Memref.whole cc1_stg3_0 : Memref sig .tc .vmem S1x512x128 .f32).view

/-- Scratch 0: head 0's running maximum. -/
abbrev sc0 : Memref sig .tc .vmem S512x1 .f32 := Memref.whole cc1_scratch0
/-- Scratch 1: head 0's running sum. -/
abbrev sc1 : Memref sig .tc .vmem S512x1 .f32 := Memref.whole cc1_scratch1
/-- Scratch 2: head 0's accumulator. -/
abbrev sc2 : Memref sig .tc .vmem S512x64 .f32 := Memref.whole cc1_scratch2
/-- Scratch 3: head 1's running maximum. -/
abbrev sc3 : Memref sig .tc .vmem S512x1 .f32 := Memref.whole cc1_scratch3
/-- Scratch 4: head 1's running sum. -/
abbrev sc4 : Memref sig .tc .vmem S512x1 .f32 := Memref.whole cc1_scratch4
/-- Scratch 5: head 1's accumulator. -/
abbrev sc5 : Memref sig .tc .vmem S512x64 .f32 := Memref.whole cc1_scratch5

/-! ## The region's invariant -/

/-- The class's invariant for this region — every scoped buffer that is no staging buffer of it at some contents,
    and the generator register at some state — with the six scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest1_eq]; simp only [sc0, sc1, sc2, sc3, sc4, sc5, owns_whole]; try rfl

end Cert.KernelIdeal.Attn

end
-- ==== Proof.AttnRunA.lean ====
/-
  The attention kernel's whole body run once, on any whole staging and scratch memrefs, in the control case of
  query tile 0: key tile 0 alone is visited (the points t ≡ 0 (mod 4)). The three inputs are handed back as
  they were found, the six scratch buffers at whatever the body left in them, and the output block with the
  pieces the body's one store wrote: those pieces are the witness the run finds.
-/
import proofs.«100367_j74028056313973_2_alg».proof.Proof.AttnRuns

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.AttnRunB.lean ====
/-
  The attention kernel's whole body run once, on any whole staging and scratch memrefs, in the control case of
  query tile 1: key tiles 0 and 1 are visited (the points t ≡ 1 (mod 4)). The three inputs are handed back as
  they were found, the six scratch buffers at whatever the body left in them, and the output block with the
  pieces the body's one store wrote: those pieces are the witness the run finds.
-/
import proofs.«100367_j74028056313973_2_alg».proof.Proof.AttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.AttnRunC.lean ====
/-
  The attention kernel's whole body run once, on any whole staging and scratch memrefs, in the control case of
  query tile 2: key tiles 0, 1 and 2 are visited (the points t ≡ 2 (mod 4)). The three inputs are handed back as
  they were found, the six scratch buffers at whatever the body left in them, and the output block with the
  pieces the body's one store wrote: those pieces are the witness the run finds.
-/
import proofs.«100367_j74028056313973_2_alg».proof.Proof.AttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.AttnRunD.lean ====
/-
  The attention kernel's whole body run once, on any whole staging and scratch memrefs, in the control case of
  query tile 3: all four key tiles are visited (the points t ≡ 3 (mod 4)). The three inputs are handed back as
  they were found, the six scratch buffers at whatever the body left in them, and the output block with the
  pieces the body's one store wrote: those pieces are the witness the run finds.
-/
import proofs.«100367_j74028056313973_2_alg».proof.Proof.AttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.AttnFrame.lean ====
/-
  The attention region's proof data and body obligation.

  At a grid point t = (batch, head pair, query tile sq) the pipeline hands the body the query block of the
  point, and the key and value blocks of the point's batch and head pair (all 2048 keys: fetched when the
  head pair changes, every fourth point, and found in place at the three points after). The body leaves the
  three inputs as they were and the output block at what the point's control case (its query tile) computes
  from those three blocks. The six scratch buffers are reset by every point before it reads them, so the
  invariant between points says only that they, and the other scoped buffers, hold something.
-/
import proofs.«100367_j74028056313973_2_alg».proof.Proof.AttnRunD
import proofs.«100367_j74028056313973_2_alg».proof.Proof.Gen.KernelIdeal.Regions
import Idealize.ShloMosaic.Lib.Ring

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-! ## The windows' blocks -/

/-- Window `w`'s block at point `t`, read off its array as this region finds it: what the projection region
    left in the query, key and value arrays. -/
def iblk (c : Dev nD) (w : Fin cfg1.W) (t : Fin cfg1.N) : ((cfg1.win w).xblock (cfg1.grid.coords t)).Idx → Elt F (cfg1.win w).elt :=
  ((cfg1.win w).blk t).view.read (Elt F) (V2 m outs c (Pipeline.arrRef spec1 w))

/-- The pieces of case A tile the output block (one whole-block store), so they cover it. -/
theorem coverA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunA c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunA c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case A leaves in the output's staging buffer: its pieces read back. -/
def outA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunA c i arg3 harg3 arg4 harg4 arg5 harg5 arg6 harg6 arg7 harg7 arg8 harg8 arg9 harg9 arg10 harg10 arg11 harg11 arg12 harg12 hc0 hc1 hc2 hc3 x0 x1 x2).1)

/-- The pieces of case B tile the output block (one whole-block store), so they cover it. -/
theorem coverB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunB c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunB c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case B leaves in the output's staging buffer: its pieces read back. -/
def outB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunB c i arg3 harg3 arg4 harg4 arg5 harg5 arg6 harg6 arg7 harg7 arg8 harg8 arg9 harg9 arg10 harg10 arg11 harg11 arg12 harg12 hc0 hc1 hc2 hc3 x0 x1 x2).1)

/-- The pieces of case C tile the output block (one whole-block store), so they cover it. -/
theorem coverC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunC c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunC c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case C leaves in the output's staging buffer: its pieces read back. -/
def outC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunC c i arg3 harg3 arg4 harg4 arg5 harg5 arg6 harg6 arg7 harg7 arg8 harg8 arg9 harg9 arg10 harg10 arg11 harg11 arg12 harg12 hc0 hc1 hc2 hc3 x0 x1 x2).1)

/-- The pieces of case D tile the output block (one whole-block store), so they cover it. -/
theorem coverD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) (y : S1x512x128.Idx) :
    ∃ pc ∈ (kernelRunD c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunD c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case D leaves in the output's staging buffer: its pieces read back. -/
def outD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunD c i arg3 harg3 arg4 harg4 arg5 harg5 arg6 harg6 arg7 harg7 arg8 harg8 arg9 harg9 arg10 harg10 arg11 harg11 arg12 harg12 hc0 hc1 hc2 hc3 x0 x1 x2).1)

/-! ## What the output block holds after each point -/

/-- The output's staging buffer after the body at point `t`: the case of the point's query tile, run at the
    point's memrefs and blocks. -/
def outAt (c : Dev nD) (t : Fin cfg1.N) : Vec F S1x512x128 .f32 :=
  if h0 : t.val % 4 = 0 then outA c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) (fun h => absurd ((visits1 t).mp h) (by omega)) (fun h => absurd ((visits2 t).mp h) (by omega)) (fun h => absurd ((visits3 t).mp h) (by omega)) (iblk m outs c 0 t) (iblk m outs c 1 t) (iblk m outs c 2 t)
  else if h1 : t.val % 4 = 1 then outB c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) (fun h => absurd ((visits2 t).mp h) (by omega)) (fun h => absurd ((visits3 t).mp h) (by omega)) (iblk m outs c 0 t) (iblk m outs c 1 t) (iblk m outs c 2 t)
  else if h2 : t.val % 4 = 2 then outC c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) (fun h => absurd ((visits3 t).mp h) (by omega)) (iblk m outs c 0 t) (iblk m outs c 1 t) (iblk m outs c 2 t)
  else outD c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) ((visits3 t).mpr (by omega)) (iblk m outs c 0 t) (iblk m outs c 1 t) (iblk m outs c 2 t)

theorem outAt_A (c : Dev nD) (t : Fin cfg1.N) (h0 : t.val % 4 = 0) :
    outAt m outs c t = outA c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) (fun h => absurd ((visits1 t).mp h) (by omega)) (fun h => absurd ((visits2 t).mp h) (by omega)) (fun h => absurd ((visits3 t).mp h) (by omega)) (iblk m outs c 0 t) (iblk m outs c 1 t) (iblk m outs c 2 t) := by
  unfold outAt; rw [dif_pos h0]
theorem outAt_B (c : Dev nD) (t : Fin cfg1.N) (h1 : t.val % 4 = 1) :
    outAt m outs c t = outB c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) (fun h => absurd ((visits2 t).mp h) (by omega)) (fun h => absurd ((visits3 t).mp h) (by omega)) (iblk m outs c 0 t) (iblk m outs c 1 t) (iblk m outs c 2 t) := by
  unfold outAt; rw [dif_neg (by omega), dif_pos h1]
theorem outAt_C (c : Dev nD) (t : Fin cfg1.N) (h2 : t.val % 4 = 2) :
    outAt m outs c t = outC c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) (fun h => absurd ((visits3 t).mp h) (by omega)) (iblk m outs c 0 t) (iblk m outs c 1 t) (iblk m outs c 2 t) := by
  unfold outAt; rw [dif_neg (by omega), dif_neg (by omega), dif_pos h2]
theorem outAt_D (c : Dev nD) (t : Fin cfg1.N) (h3 : t.val % 4 = 3) :
    outAt m outs c t = outD c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) ((visits3 t).mpr (by omega)) (iblk m outs c 0 t) (iblk m outs c 1 t) (iblk m outs c 2 t) := by
  unfold outAt; rw [dif_neg (by omega), dif_neg (by omega), dif_neg (by omega)]

/-! ## The proof data -/

/-- The region's proof data on core `c`: the arrays as the region finds them; after the body each input's
    buffer at its block and the output's at `outAt`; the invariant the class's; nothing owed; full shares. -/
def dat (c : Dev nD) : Dat τ (Elt F) Unit ℕ (UR sig nD τ) ℕ cfg1 c where
  A w := V2 m outs c (Pipeline.arrRef spec1 w)
  after w t := match w with
    | ⟨0, _⟩ => iblk m outs c 0 t
    | ⟨1, _⟩ => iblk m outs c 1 t
    | ⟨2, _⟩ => iblk m outs c 2 t
    | ⟨3, _⟩ => outAt m outs c t
  Φ _ := Pipeline.ΦA spec1 c
  q _ := fullShare
  owed _ := 0

theorem A_eq (c : Dev nD) (w : Fin cfg1.W) : (dat m outs c).A w = V2 m outs c (Pipeline.arrRef spec1 w) := by
  dsimp only [dat]
theorem after_0 (c : Dev nD) (t : Fin cfg1.N) : (dat m outs c).after 0 t = iblk m outs c 0 t := by dsimp only [dat]
theorem after_1 (c : Dev nD) (t : Fin cfg1.N) : (dat m outs c).after 1 t = iblk m outs c 1 t := by dsimp only [dat]
theorem after_2 (c : Dev nD) (t : Fin cfg1.N) : (dat m outs c).after 2 t = iblk m outs c 2 t := by dsimp only [dat]
theorem after_3 (c : Dev nD) (t : Fin cfg1.N) : (dat m outs c).after 3 t = outAt m outs c t := by dsimp only [dat]

/-- Each input's current staging buffer holds its block at every point, fetched there or not: where the key or
    value window is not fetched its block index has not moved, and the body left the block in place. -/
theorem before_0 (c : Dev nD) (t : Fin cfg1.N) (d) : (dat m outs c).before 0 t d = iblk m outs c 0 t :=
  ((dat m outs c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat m outs c).before 1 t d = iblk m outs c 1 t :=
  ((dat m outs c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat m outs c).before 2 t d = iblk m outs c 2 t :=
  ((dat m outs c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat m outs c).Φ t.castSucc ∗ (dat m outs c).owesAt () t.castSucc
    ∗ (∃ d, owns (c : Thread nD τ) (msQ t) fullShare ((dat m outs c).before 0 t d))
    ∗ (∃ d, owns (c : Thread nD τ) (msK t) fullShare ((dat m outs c).before 1 t d))
    ∗ (∃ d, owns (c : Thread nD τ) (msV t) fullShare ((dat m outs c).before 2 t d))
    ∗ (∃ d, owns (c : Thread nD τ) (msO t) fullShare ((dat m outs c).before 3 t d)))

/-- and what it returns. -/
def bodyPost (c : Dev nD) (t : Fin cfg1.N) : sProp 𝕄 :=
  iprop((dat m outs c).Φ t.succ ∗ (dat m outs c).owesAt () t.succ
    ∗ owns (c : Thread nD τ) (msQ t) fullShare ((dat m outs c).after 0 t)
    ∗ owns (c : Thread nD τ) (msK t) fullShare ((dat m outs c).after 1 t)
    ∗ owns (c : Thread nD τ) (msV t) fullShare ((dat m outs c).after 2 t)
    ∗ owns (c : Thread nD τ) (msO t) fullShare ((dat m outs c).after 3 t))

set_option maxHeartbeats 4800000 in
/-- The body at any point: the inputs' memrefs hold their blocks; the point's query tile says which case it is in;
    that case's run applies; the invariant hands the body the scratch buffers at anything and takes them back at
    anything; the core owes nothing throughout. -/
theorem sound_body (c : Dev nD) (t : Fin cfg1.N) :
    bodyPre m outs c t ⊢ wp frame (wpE (defs₀ (F := F)) Variants.none c none) Set.univ (bodyAt1 t) (fun _ => bodyPost m outs c t) := by
  unfold bodyPre bodyPost bodyAt1
  simp only [before_0, before_1, before_2, after_0, after_1, after_2, after_3]
  rw [show (dat m outs c).owesAt () t.succ = (dat m outs c).owesAt () t.castSucc from rfl]
  rw [show (dat m outs c).Φ t.succ = Pipeline.ΦA spec1 c from rfl, show (dat m outs c).Φ t.castSucc = Pipeline.ΦA spec1 c from rfl, PhiA_eq]
  have hN : t.val < 128 := lt_of_lt_of_eq t.isLt (show cfg1.N = 128 from N_1)
  rcases (show t.val % 4 = 0 ∨ t.val % 4 = 1 ∨ t.val % 4 = 2 ∨ t.val % 4 = 3 by omega) with h0 | h1 | h2 | h3
  · -- query tile 0
    rw [outAt_A m outs c t h0]
    unfold outA; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunA c (grid1.coords t) _ _ _ _ _ _ _ _ _ _ _ _ _ _ _ _ _ _ _ _ (visits0 t) (fun h => absurd ((visits1 t).mp h) (by omega)) (fun h => absurd ((visits2 t).mp h) (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _ _ _ _ _ _ _ _ _ _ _ _ _)
  · -- query tile 1
    rw [outAt_B m outs c t h1]
    unfold outB; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunB c (grid1.coords t) _ _ _ _ _ _ _ _ _ _ _ _ _ _ _ _ _ _ _ _ (visits0 t) ((visits1 t).mpr (by omega)) (fun h => absurd ((visits2 t).mp h) (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _ _ _ _ _ _ _ _ _ _ _ _ _)
  · -- query tile 2
    rw [outAt_C m outs c t h2]
    unfold outC; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunC c (grid1.coords t) _ _ _ _ _ _ _ _ _ _ _ _ _ _ _ _ _ _ _ _ (visits0 t) ((visits1 t).mpr (by omega)) ((visits2 t).mpr (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverC c _ _ _ _ _ _ _ _ _ _ _ _ _ _ _ _ _ _ _ _ _ _ _ _ _ _ _ _)
  · -- query tile 3
    rw [outAt_D m outs c t h3]
    unfold outD; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunD c (grid1.coords t) _ _ _ _ _ _ _ _ _ _ _ _ _ _ _ _ _ _ _ _ (visits0 t) ((visits1 t).mpr (by omega)) ((visits2 t).mpr (by omega)) ((visits3 t).mpr (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD c _ _ _ _ _ _ _ _ _ _ _ _ _ _ _ _ _ _ _ _ _ _ _ _ _ _ _ _)

/-- The library's body obligation, at every point. -/
theorem body_obligation (c : Dev nD) : BodyObligation (dat (F := F) m outs c) (defs₀ (F := F)) Variants.none () Set.univ := fun t => by
  rw [bigSep_W1, bigSep_W1]
  exact sound_body m outs c t

/-- What the launch hands the region is the invariant before the first point, and after the last point it is handed back. -/
theorem hin (c : Dev nD) : Pipeline.ΦA spec1 c ⊢ (dat m outs c).Φ 0 := Idealize.SL.BI.Entails.refl _
theorem hout (c : Dev nD) : (dat m outs c).Φ (Fin.last cfg1.N) ⊢ Pipeline.ΦA spec1 c := Idealize.SL.BI.Entails.refl _

end Cert.KernelIdeal.Attn

end
-- ==== Proof.QkvRun.lean ====
/- The projection kernel's body as a separation-logic triple, on any whole staging memrefs.

   The body loads the x block and the three weight blocks, forms three products and stores each, whole,
   into its output's staging memref (after a load of that memref whose value nothing reads). The triple
   hands the four inputs back at the contents they came with and each output's memref with the pieces the
   stores wrote; the pieces are found when the run is carried out, not written down here. -/
import proofs.«100367_j74028056313973_2_alg».proof.Proof.Gen.KernelIdeal.Launch
import proofs.«100367_j74028056313973_2_alg».proof.Proof.Gen.KernelIdeal.Skeleton
import proofs.«100367_j74028056313973_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple. On whole memrefs — the x block at `x0`, the three weight blocks at `x1`, `x2`, `x3`,
    the three outputs' memrefs at anything — the body runs to a continuation that is given the four inputs
    as they were and each output's memref with its list of stored pieces (last store first) written over
    whatever it held. The three lists are the first components; the statement about them is the last. -/
noncomputable def kernelRun (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) :
    Σ' (L4 : List (View.Piece (Elt F) S1x512x1024 .bf16)) (L5 : List (View.Piece (Elt F) S1x512x1024 .bf16)),
      { L6 : List (View.Piece (Elt F) S1x512x1024 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E
              (cc0__qkv_kernel i arg2 harg2 arg3 harg3 arg4 harg4 arg5 harg5 arg6 harg6 arg7 harg7 arg8 harg8) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1
    obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Qkv

end
-- ==== Proof.QkvFrame.lean ====
/- The projection kernel's region: what its body leaves in the three outputs' staging memrefs, the proof
   data of its pipeline, and the body obligation at every grid point.

   At a point the body is handed the x block and the three whole weight matrices (each input's staging
   memref holds its block at every point, fetched there or not, because a block that was not fetched has
   not moved); it stores into each output's memref ONE piece covering it, whose payload is the product of
   the x block with that output's weight matrix. So each output's memref ends at a function of two input
   blocks only, and nothing is carried from point to point. -/
import proofs.«100367_j74028056313973_2_alg».proof.Proof.QkvRun
import proofs.«100367_j74028056313973_2_alg».proof.Proof.Gen.KernelIdeal.Regions
import Idealize.ShloMosaic.Lib.Pipeline.Frame
import Idealize.ShloMosaic.Lib.Pipeline.Value

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves in the outputs -/

/-- One staging memref of the outputs' shape, through which their contents are stated: a list of pieces
    that covers the shape reads back the same through any view and over any prior contents. -/
abbrev VO : View sig .tc .vmem S1x512x1024 .bf16 := (Memref.whole cc0_stg4_0 : Memref sig .tc .vmem S1x512x1024 .bf16).view

/-- The zero offsets of a whole-block load or store, as a function. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pieces stored into the first output tile its block: every index lies in one of them. -/
theorem cover4 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).1, y ∈ pc.1.set :=
  View.cover_of_tiledL (kernelRun c i arg2 harg2 arg3 harg3 arg4 harg4 arg5 harg5 arg6 harg6 arg7 harg7 arg8 harg8 x0 x1 x2 x3).1 S1x512x1024.size (by sl_kernel_rfl) y

/-- The same for the second output, -/
theorem cover5 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).2.1, y ∈ pc.1.set :=
  View.cover_of_tiledL (kernelRun c i arg2 harg2 arg3 harg3 arg4 harg4 arg5 harg5 arg6 harg6 arg7 harg7 arg8 harg8 x0 x1 x2 x3).2.1 S1x512x1024.size (by sl_kernel_rfl) y

/-- and for the third. -/
theorem cover6 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).2.2.1, y ∈ pc.1.set :=
  View.cover_of_tiledL (kernelRun c i arg2 harg2 arg3 harg3 arg4 harg4 arg5 harg5 arg6 harg6 arg7 harg7 arg8 harg8 x0 x1 x2 x3).2.2.1 S1x512x1024.size (by sl_kernel_rfl) y

/-- What the body leaves in the first output's staging memref: its pieces read back. -/
def out4 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).1)

/-- What it leaves in the second output's, -/
def out5 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).2.1)

/-- and in the third's. -/
def out6 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).2.2.1)

/-- The first output is the payload of its one store at the blocks loaded: covering pieces read back as
    their canonical form, one whole-shape piece's canonical form is its payload, and a whole-shape load of a
    whole memref reads its contents. -/
theorem out4_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out4 c i arg2 harg2 arg3 harg3 arg4 harg4 arg5 harg5 arg6 harg6 arg7 harg7 arg8 harg8 x0 x1 x2 x3 = Gen.k0_pay2 x0 x1 := by
  unfold out4
  rw [View.read_writes_eq_canon _ _ _ (cover4 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg3.read_unread, View.ld_unit_zero (S := S1x512x1024) hz3, View.ld_unit_zero (S := S1024x1024) hz2]

/-- The second output likewise, from the x block and the second weight block, -/
theorem out5_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out5 c i arg2 harg2 arg3 harg3 arg4 harg4 arg5 harg5 arg6 harg6 arg7 harg7 arg8 harg8 x0 x1 x2 x3 = Gen.k0_pay3 x0 x2 := by
  unfold out5
  rw [View.read_writes_eq_canon _ _ _ (cover5 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg4.read_unread, View.ld_unit_zero (S := S1x512x1024) hz3, View.ld_unit_zero (S := S1024x1024) hz2]

/-- and the third from the x block and the third weight block. -/
theorem out6_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out6 c i arg2 harg2 arg3 harg3 arg4 harg4 arg5 harg5 arg6 harg6 arg7 harg7 arg8 harg8 x0 x1 x2 x3 = Gen.k0_pay4 x0 x3 := by
  unfold out6
  rw [View.read_writes_eq_canon _ _ _ (cover6 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg5.read_unread, View.ld_unit_zero (S := S1x512x1024) hz3, View.ld_unit_zero (S := S1024x1024) hz2]

/-! ## The windows' blocks and staging memrefs -/

variable (m : (ℓ : Loc nD τ sig) → Buf (Elt F) ℓ)

/-- Window `w`'s block at point `t`, read off its array as the region finds it: the core's unscoped
    buffers after the host operations that precede the region (which make the three weight matrices). -/
def iblk (c : Dev nD) (w : Fin cfg0.W) (t : Fin cfg0.N) : ((cfg0.win w).xblock (cfg0.grid.coords t)).Idx → Elt F (cfg0.win w).elt :=
  ((cfg0.win w).blk t).view.read (Elt F) (Gen.V1 m c (Pipeline.arrRef spec0 w))

/-- Each window's current staging memref at point `t`, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x1024 .bf16 := win0_6.stage (cfg0.slots t 6)
abbrev hs6 (t : Fin cfg0.N) : (ms6 t).IsWhole := hstage0_6 ((cfg0.slots t 6).cast nbuf0_6)

/-! ## The pipeline's proof data -/

/-- The proof data of the projection kernel's pipeline on core `c`: the arrays as the region finds them;
    after the body at point `t` each input's memref at its block (the body stores into no input) and each
    output's at what the body leaves from the point's blocks; the invariant is the scoped buffers the kernel
    does not use together with the generator register; nothing owed; full shares. -/
def dat0 (c : Dev nD) : Dat τ (Elt F) Unit ℕ (UR sig nD τ) ℕ cfg0 c where
  A w := Gen.V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
    | ⟨5, _⟩ => out5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
    | ⟨6, _⟩ => out6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
  Φ _ := Pipeline.ΦA spec0 c
  q _ := fullShare
  owed _ := 0

/-- The proof data's arrays are the region-entry contents (the definition projected, the valuation left folded). -/
theorem A_eq (c : Dev nD) (w : Fin cfg0.W) : (dat0 m c).A w = Gen.V1 m c (Pipeline.arrRef spec0 w) := by
  dsimp only [dat0]

/-- The invariant is the same at every position. -/
theorem Phi_eq (c : Dev nD) (t : Fin (cfg0.N + 1)) : (dat0 m c).Φ t = Pipeline.ΦA spec0 c := by
  dsimp only [dat0]

/-- What the body leaves, window by window. -/
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = out4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]
theorem after0_5 (c : Dev nD) (t : Fin cfg0.N) : (dat0 m c).after 5 t = out5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]
theorem after0_6 (c : Dev nD) (t : Fin cfg0.N) : (dat0 m c).after 6 t = out6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]

/-! ## What the body finds in the inputs' memrefs -/

/-- An input window's current staging memref holds the window's block at every point, fetched there or
    not, for ANY proof data whose array is the region-entry one and whose body leaves the block in place:
    a point that does not fetch the window has the block index of the point before, so what was left there
    is this point's block. For the x window (fetched at every point) and for the three weight windows
    (fetched at the first point only, the whole matrix their one block) alike. -/
theorem before0_0_of {c : Dev nD} (dat : Dat τ (Elt F) Unit ℕ (UR sig nD τ) ℕ cfg0 c) (hA : dat.A 0 = Gen.V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = Gen.V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = Gen.V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = Gen.V1 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for this region's proof data. -/
theorem before0_0 (c : Dev nD) (t : Fin cfg0.N) (d) : (dat0 m c).before 0 t d = iblk m c 0 t :=
  before0_0_of m (dat0 m c) (A_eq m c 0) (after0_0 m c) t d
theorem before0_1 (c : Dev nD) (t : Fin cfg0.N) (d) : (dat0 m c).before 1 t d = iblk m c 1 t :=
  before0_1_of m (dat0 m c) (A_eq m c 1) (after0_1 m c) t d
theorem before0_2 (c : Dev nD) (t : Fin cfg0.N) (d) : (dat0 m c).before 2 t d = iblk m c 2 t :=
  before0_2_of m (dat0 m c) (A_eq m c 2) (after0_2 m c) t d
theorem before0_3 (c : Dev nD) (t : Fin cfg0.N) (d) : (dat0 m c).before 3 t d = iblk m c 3 t :=
  before0_3_of m (dat0 m c) (A_eq m c 3) (after0_3 m c) t d

/-! ## The body obligation -/

/-- The body on any whole memrefs, in the form the obligation takes: beside two assertions it does not
    touch, from the inputs' memrefs at `x0 … x3` and the outputs' at anything, the body runs to the inputs'
    memrefs as they were and each output's at what the body leaves (`out4`, `out5`, `out6`): the run's
    pieces cover each output, so what is read back through the memref's own view over its prior contents is
    what is read back through the reference view over anything. -/
theorem body_at (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (P Q : sProp 𝕄) :
    iprop(P ∗ Q ∗ owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d))
      ⊢ wp frame (wpE (defs₀ (F := F)) Variants.none c none) Set.univ
          (cc0__qkv_kernel i arg2 harg2 arg3 harg3 arg4 harg4 arg5 harg5 arg6 harg6 arg7 harg7 arg8 harg8) (fun _ =>
            iprop(P ∗ Q ∗ owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare (out4 c i arg2 harg2 arg3 harg3 arg4 harg4 arg5 harg5 arg6 harg6 arg7 harg7 arg8 harg8 x0 x1 x2 x3)
              ∗ owns (c : Thread nD τ) arg7 fullShare (out5 c i arg2 harg2 arg3 harg3 arg4 harg4 arg5 harg5 arg6 harg6 arg7 harg7 arg8 harg8 x0 x1 x2 x3)
              ∗ owns (c : Thread nD τ) arg8 fullShare (out6 c i arg2 harg2 arg3 harg3 arg4 harg4 arg5 harg5 arg6 harg6 arg7 harg7 arg8 harg8 x0 x1 x2 x3))) := by
  unfold out4 out5 out6
  iintro ⟨HP, HQ, H0, H1, H2, H3, H4, H5, H6⟩
  iapply ((kernelRun c i arg2 harg2 arg3 harg3 arg4 harg4 arg5 harg5 arg6 harg6 arg7 harg7 arg8 harg8 x0 x1 x2 x3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, ⟨%e4, H4⟩, ⟨%e5, H5⟩, ⟨%e6, H6⟩⟩
  isplitl [HP]; · iexact HP
  isplitl [HQ]; · iexact HQ
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c i arg2 harg2 arg3 harg3 arg4 harg4 arg5 harg5 arg6 harg6 arg7 harg7 arg8 harg8 x0 x1 x2 x3)
  isplitl [H5]
  · unfold owns; iexists _; isplitr
    swap; · iexact H5
    ipureintro; exact View.read_writes_of_cover _ _ _ _ _ (cover5 c i arg2 harg2 arg3 harg3 arg4 harg4 arg5 harg5 arg6 harg6 arg7 harg7 arg8 harg8 x0 x1 x2 x3)
  unfold owns; iexists _; isplitr
  swap; · iexact H6
  ipureintro; exact View.read_writes_of_cover _ _ _ _ _ (cover6 c i arg2 harg2 arg3 harg3 arg4 harg4 arg5 harg5 arg6 harg6 arg7 harg7 arg8 harg8 x0 x1 x2 x3)

/-- What the body is called with at point `t` (the obligation's precondition, the windows one by one), -/
def bodyPre (c : Dev nD) (t : Fin cfg0.N) : sProp 𝕄 :=
  iprop((dat0 m c).Φ t.castSucc ∗ (dat0 m c).owesAt () t.castSucc
    ∗ (∃ d, owns (c : Thread nD τ) (ms0 t) fullShare ((dat0 m c).before 0 t d))
    ∗ (∃ d, owns (c : Thread nD τ) (ms1 t) fullShare ((dat0 m c).before 1 t d))
    ∗ (∃ d, owns (c : Thread nD τ) (ms2 t) fullShare ((dat0 m c).before 2 t d))
    ∗ (∃ d, owns (c : Thread nD τ) (ms3 t) fullShare ((dat0 m c).before 3 t d))
    ∗ (∃ d, owns (c : Thread nD τ) (ms4 t) fullShare ((dat0 m c).before 4 t d))
    ∗ (∃ d, owns (c : Thread nD τ) (ms5 t) fullShare ((dat0 m c).before 5 t d))
    ∗ (∃ d, owns (c : Thread nD τ) (ms6 t) fullShare ((dat0 m c).before 6 t d)))

/-- and what it returns. -/
def bodyPost (c : Dev nD) (t : Fin cfg0.N) : sProp 𝕄 :=
  iprop((dat0 m c).Φ t.succ ∗ (dat0 m c).owesAt () t.succ
    ∗ (dat0 m c).leavesExact 0 t
    ∗ (dat0 m c).leavesExact 1 t
    ∗ (dat0 m c).leavesExact 2 t
    ∗ (dat0 m c).leavesExact 3 t
    ∗ (dat0 m c).leavesExact 4 t
    ∗ (dat0 m c).leavesExact 5 t
    ∗ (dat0 m c).leavesExact 6 t)

/-- The body at any point: the inputs' memrefs hold their blocks, the outputs' hold anything, so the body's
    triple applies at the point's memrefs and blocks; the invariant and what the core owes ride along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat0 m c).owesAt () t.succ = (dat0 m c).owesAt () t.castSucc from rfl]
  rw [Phi_eq m c t.succ, Phi_eq m c t.castSucc]
  rw [show (dat0 m c).leavesExact 0 t = owns (c : Thread nD τ) (ms0 t) fullShare ((dat0 m c).after 0 t) from rfl, after0_0,
    show (dat0 m c).leavesExact 1 t = owns (c : Thread nD τ) (ms1 t) fullShare ((dat0 m c).after 1 t) from rfl, after0_1,
    show (dat0 m c).leavesExact 2 t = owns (c : Thread nD τ) (ms2 t) fullShare ((dat0 m c).after 2 t) from rfl, after0_2,
    show (dat0 m c).leavesExact 3 t = owns (c : Thread nD τ) (ms3 t) fullShare ((dat0 m c).after 3 t) from rfl, after0_3,
    show (dat0 m c).leavesExact 4 t = owns (c : Thread nD τ) (ms4 t) fullShare ((dat0 m c).after 4 t) from rfl, after0_4,
    show (dat0 m c).leavesExact 5 t = owns (c : Thread nD τ) (ms5 t) fullShare ((dat0 m c).after 5 t) from rfl, after0_5,
    show (dat0 m c).leavesExact 6 t = owns (c : Thread nD τ) (ms6 t) fullShare ((dat0 m c).after 6 t) from rfl, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_at c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (Pipeline.ΦA spec0 c) ((dat0 m c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- The library's body obligation, at every point. -/
theorem body_obligation0 (c : Dev nD) : BodyObligation (dat0 (F := F) m c) (defs₀ (F := F)) Variants.none () Set.univ := fun t => by
  rw [bigSep_W0, bigSep_W0]
  exact sound_body m c t

/-- What the launch hands the region is the invariant before the first point, -/
theorem hin0 (c : Dev nD) : Pipeline.ΦA spec0 c ⊢ (dat0 m c).Φ 0 := by
  rw [Phi_eq m c 0]

/-- and the invariant after the last point gives it back. -/
theorem hout0 (c : Dev nD) : (dat0 m c).Φ (Fin.last cfg0.N) ⊢ Pipeline.ΦA spec0 c := by
  rw [Phi_eq m c (Fin.last cfg0.N)]

/-! ## The outputs through the payload names -/

/-- Each output's memref after the body at point `t` is the payload of its store at the point's x block and
    that output's weight block. -/
theorem after0_4_pay (c : Dev nD) (t : Fin cfg0.N) : (dat0 m c).after 4 t = Gen.k0_pay2 (iblk m c 0 t) (iblk m c 1 t) :=
  (after0_4 m c t).trans (out4_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))
theorem after0_5_pay (c : Dev nD) (t : Fin cfg0.N) : (dat0 m c).after 5 t = Gen.k0_pay3 (iblk m c 0 t) (iblk m c 2 t) :=
  (after0_5 m c t).trans (out5_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))
theorem after0_6_pay (c : Dev nD) (t : Fin cfg0.N) : (dat0 m c).after 6 t = Gen.k0_pay4 (iblk m c 0 t) (iblk m c 3 t) :=
  (after0_6 m c t).trans (out6_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))

end Cert.KernelIdeal.Qkv

end
-- ==== Proof.Whole.lean ====
/-
  The whole program's run: the host stretch (three weight matrices reshaped and cast), the projection region,
  the attention region — composed by the library's rule for a program that is a list of host segments and kernel
  regions. Between two items a core holds every unscoped buffer at a valuation: the launch contents, then the host
  stretch's results, then the three projected arrays at what the projection region's proof data says its
  write-backs leave, then the result array at what the attention region's proof data says; beside them ride the
  core's (empty) debts and the generator register, which each region borrows for its invariant and returns.
  The run's post names the result array and says the four arguments end as launched.
-/
import proofs.«100367_j74028056313973_2_alg».proof.Proof.AttnFrame
import proofs.«100367_j74028056313973_2_alg».proof.Proof.QkvFrame
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- The projected queries, keys and values: the three output arrays of the projection region after its last
    write-back, as the pipeline library computes them from that region's proof data. -/
def qArr (c : Dev nD) : Buf (Elt F) ((c : Thread nD τ).loc main_v6_0) := (Qkv.dat0 m c).arrAt 4 cfg0.N
def kArr (c : Dev nD) : Buf (Elt F) ((c : Thread nD τ).loc main_v6_1) := (Qkv.dat0 m c).arrAt 5 cfg0.N
def vArr (c : Dev nD) : Buf (Elt F) ((c : Thread nD τ).loc main_v6_2) := (Qkv.dat0 m c).arrAt 6 cfg0.N

/-- The contents the regions leave, as the table the program's valuations are written over: the projection
    region's three arrays (the attention region's result is added below). -/
def outsQ : Outs (F := F) := fun _ =>
  Function.update (Function.update (Function.update (fun r c => m ((c : Thread nD τ).loc r)) main_v6_0 (qArr m)) main_v6_1 (kArr m)) main_v6_2 (vArr m)

/-- The attention's result array after its region's last write-back. -/
def oArr (c : Dev nD) : Buf (Elt F) ((c : Thread nD τ).loc main_v7) := (Attn.dat m (outsQ m) c).arrAt 3 cfg1.N

/-- The same table with the attention region's result. -/
def outs : Outs (F := F) := fun n =>
  if n = 3 then Function.update (outsQ m 3) main_v7 (oArr m) else outsQ m n

/-- Before the attention region the table is the projection region's. -/
theorem outs_two : outs m 2 = outsQ m 2 := if_neg (by decide)
theorem outs_three : outs m 3 = Function.update (outsQ m 3) main_v7 (oArr m) := if_pos rfl

theorem outs_q (c : Dev nD) : outs m 2 main_v6_0 c = qArr m c := by
  rw [outs_two]; simp only [outsQ]
  rw [Function.update_of_ne (by decide), Function.update_of_ne (by decide), Function.update_self]
theorem outs_k (c : Dev nD) : outs m 2 main_v6_1 c = kArr m c := by
  rw [outs_two]; simp only [outsQ]
  rw [Function.update_of_ne (by decide), Function.update_self]
theorem outs_v (c : Dev nD) : outs m 2 main_v6_2 c = vArr m c := by
  rw [outs_two]; simp only [outsQ]
  rw [Function.update_self]
theorem outs_o (c : Dev nD) : outs m 3 main_v7 c = oArr m c := by
  rw [outs_three, Function.update_self]

/-- The buffers as the attention region finds them do not depend on the attention region's own result. -/
theorem V2_outs (c : Dev nD) : V2 m (outs m) c = V2 m (outsQ m) c := by
  show Function.update (Function.update (Function.update (V1 m c) main_v6_0 (outs m 2 main_v6_0 c)) main_v6_1 (outs m 2 main_v6_1 c)) main_v6_2 (outs m 2 main_v6_2 c) = _
  rw [outs_two]

/-! ## The proof data of the two pipelines -/

/-- The proof data, pipeline by pipeline. -/
def pdats : (p : Fin 2) → (c : Dev nD) → Dat τ (Elt F) Unit ℕ (UR sig nD τ) ℕ (cfgs p) c
  | ⟨0, _⟩ => Qkv.dat0 m
  | ⟨1, _⟩ => Attn.dat m (outsQ m)
  | ⟨n + 2, h⟩ => absurd h (by omega)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between items: the core owing nothing, and the generator register. -/
abbrev E (_ : Fin 3) (c : Dev nD) : sProp 𝕄 :=
  iprop((∃ W, owes (c : Thread nD τ) (0 : CellTallies nD τ sig Unit) W) ∗ (∃ r, prngReg c r))

/-- The prefetched tables' admissible contents: no pallas_call has a table. -/
abbrev adm : (p : Fin 2) → (pcfgs (F := F) p).Adm := fun p => (cfgs p).toPCfg_adm

/-! ## The arrays after each region, against the valuations -/

/-- After the projection region its windows' arrays hold what the valuation after it says: the x block's array and
    the three weight arrays are inputs, unchanged; the three projected arrays hold the region's final contents. -/
theorem arrays0_final (c : Dev nD) (w : Fin cfg0.W) :
    (pdats m 0 c).arrAt w cfg0.N = V2 m (outs m) c (Pipeline.arrRef spec0 w) := by
  have hin : ∀ w : Fin cfg0.W, (cfg0.win w).isOut = false → (pdats m 0 c).arrAt w cfg0.N = V1 m c (Pipeline.arrRef spec0 w) :=
    fun w hw => ((pdats m 0 c).arrAt_in w hw _).trans (Qkv.A_eq m c w)
  fin_cases w
  · exact (hin 0 rfl).trans (V2_of m (outs m) c main_arg0 (by decide)).symm
  · exact (hin 1 rfl).trans (V2_of m (outs m) c main_v1 (by decide)).symm
  · exact (hin 2 rfl).trans (V2_of m (outs m) c main_v3 (by decide)).symm
  · exact (hin 3 rfl).trans (V2_of m (outs m) c main_v5 (by decide)).symm
  · show qArr m c = _
    simp only [V2]; rw [Function.update_of_ne (by decide), Function.update_of_ne (by decide), Function.update_self, outs_q]
  · show kArr m c = _
    simp only [V2]; rw [Function.update_of_ne (by decide), Function.update_self, outs_k]
  · show vArr m c = _
    simp only [V2]; rw [Function.update_self, outs_v]

/-- Off the projection region's arrays the valuation after it is the one before it. -/
theorem rest0 (c : Dev nD) (b : Ref sig .tc) (hb : b ∉ Finset.univ.image (Pipeline.arrRef spec0)) :
    V2 m (outs m) c b = V1 m c b :=
  V2_of m (outs m) c b (by
    intro h
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-- After the attention region: the three projected arrays are inputs, unchanged; the result array holds the
    region's final contents. -/
theorem arrays1_final (c : Dev nD) (w : Fin cfg1.W) :
    (pdats m 1 c).arrAt w cfg1.N = V3 m (outs m) c (Pipeline.arrRef spec1 w) := by
  have hin : ∀ w : Fin cfg1.W, (cfg1.win w).isOut = false → (pdats m 1 c).arrAt w cfg1.N = V2 m (outs m) c (Pipeline.arrRef spec1 w) :=
    fun w hw => ((pdats m 1 c).arrAt_in w hw _).trans ((Attn.A_eq m (outsQ m) c w).trans (by rw [V2_outs]))
  fin_cases w
  · exact (hin 0 rfl).trans (V3_of m (outs m) c main_v6_0 (by decide)).symm
  · exact (hin 1 rfl).trans (V3_of m (outs m) c main_v6_1 (by decide)).symm
  · exact (hin 2 rfl).trans (V3_of m (outs m) c main_v6_2 (by decide)).symm
  · show oArr m c = _
    simp only [V3]; rw [Function.update_self, outs_o]

/-- Off the attention region's arrays the valuation after it is the one before it. -/
theorem rest1 (c : Dev nD) (b : Ref sig .tc) (hb : b ∉ Finset.univ.image (Pipeline.arrRef spec1)) :
    V3 m (outs m) c b = V2 m (outs m) c b :=
  V3_of m (outs m) c b (by
    intro h
    simp only [List.mem_cons, List.mem_nil_iff, or_false] at h
    rcases h with rfl
    exact hb (Finset.mem_image.mpr ⟨3, Finset.mem_univ _, rfl⟩))

/-! ## The regions as segments -/

-- a library lemma stated over `cfgs p` at the pinned configuration unifies only when unification may unfold plain
-- definitions in a metavariable's type
set_option maxHeartbeats 1600000 in
set_option backward.isDefEq.respectTransparency.types false in
/-- The projection region as a segment: entered from every unscoped buffer held at the valuation before it, its
    windows' arrays split off into the pipeline and the other unscoped buffers bypassing it; the generator register
    lent to the region's invariant; left with the arrays put back at the valuation after it. -/
def R0 : RegionSeg (pcfgs (F := F)) adm (pdats m) () defs₀ 𝒱₀ L lv 0 where
  win := launch0.win.to₀
  block_pos := launch0.block_pos
  stage_whole := launch0.stage_whole
  K := PEmpty
  osem := fun k => k.elim
  ho := Pipeline.OwnSemFacts.none _
  hbody c := (Qkv.body_obligation0 m c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [show StableHlo.held (c : Thread nD τ) (Pipeline.ucRefs τ sig) (V1 m c) = unscopedBufs c (fun b => V1 m c b) from (Pipeline.unscopedBufs_held c _).symm]
    have hsplit := Pipeline.arrays_of_unscopedBufs (p := 0) (pcfgs (F := F)) adm (pdats m) launch0.win launch0.arr_whole c
      ((pdats m 0 c).share_full fun _ => rfl) (fun b => V1 m c b) (fun w => Qkv.A_eq m c w)
    iintro ⟨⟨Hub, ⟨HO, Hp⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec0 c; unfold Pipeline.ΦA
    iintro ⟨Hp, -, Hr⟩
    isplitl [Hr]; · iexact Hr
    iexact Hp
  hout c := by
    rw [Pipeline.ownSems0_none]; show Pipeline.ΦA spec0 c ⊢ _; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm launch0.win launch0.arr_whole c (pdats m)
      ((pdats m 0 c).share_full fun _ => rfl) (fun b => V1 m c b) (fun b => V2 m (outs m) c b)
      (fun w => (pdats m 0 c).arrAt w cfg0.N) (arrays0_final m c) (rest0 m c)
    rw [show StableHlo.held (c : Thread nD τ) (Pipeline.ucRefs τ sig) (V2 m (outs m) c) = unscopedBufs c (fun b => V2 m (outs m) c b) from (Pipeline.unscopedBufs_held c _).symm]
    iintro ⟨Ha, HO, Hp, Hz⟩
    imodintro
    isplitl [Ha Hz]
    · iapply hjoin
      isplitl [Ha]; · iexact Ha
      iexact Hz
    isplitl [HO]
    · unfold Pipeline.Dat.owesAt Pipeline.owesWithin
      icases HO with ⟨%W, -, HO⟩; iexists W; iexact HO
    iexact Hp

set_option maxHeartbeats 1600000 in
set_option backward.isDefEq.respectTransparency.types false in
/-- The attention region as a segment: entered from every unscoped buffer held at the valuation before it, its
    windows' arrays split off into the pipeline and the other unscoped buffers bypassing it; the generator register
    lent to the region's invariant; left with the arrays put back at the valuation after it. -/
def R1 : RegionSeg (pcfgs (F := F)) adm (pdats m) () defs₀ 𝒱₀ L lv 1 where
  win := launch1.win.to₀
  block_pos := launch1.block_pos
  stage_whole := launch1.stage_whole
  K := PEmpty
  osem := fun k => k.elim
  ho := Pipeline.OwnSemFacts.none _
  hbody c := (Attn.body_obligation m (outsQ m) c).loose
  hwaits := Pipeline.hwaits_of_owed_zero _ _ _ _ L lv 1 fun _ _ => rfl
  pre c := iprop(StableHlo.held (c : Thread nD τ) (Pipeline.ucRefs τ sig) (V2 m (outs m) c) ∗ E 1 c)
  post c := iprop(StableHlo.held (c : Thread nD τ) (Pipeline.ucRefs τ sig) (V3 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [show StableHlo.held (c : Thread nD τ) (Pipeline.ucRefs τ sig) (V2 m (outs m) c) = unscopedBufs c (fun b => V2 m (outs m) c b) from (Pipeline.unscopedBufs_held c _).symm]
    have hsplit := Pipeline.arrays_of_unscopedBufs (p := 1) (pcfgs (F := F)) adm (pdats m) launch1.win launch1.arr_whole c
      ((pdats m 1 c).share_full fun _ => rfl) (fun b => V2 m (outs m) c b) (fun w => (Attn.A_eq m (outsQ m) c w).trans (by rw [V2_outs]; rfl))
    iintro ⟨⟨Hub, ⟨HO, Hp⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec1 c; unfold Pipeline.ΦA
    iintro ⟨Hp, -, Hr⟩
    isplitl [Hr]; · iexact Hr
    iexact Hp
  hout c := by
    rw [Pipeline.ownSems0_none]; show Pipeline.ΦA spec1 c ⊢ _; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm launch1.win launch1.arr_whole c (pdats m)
      ((pdats m 1 c).share_full fun _ => rfl) (fun b => V2 m (outs m) c b) (fun b => V3 m (outs m) c b)
      (fun w => (pdats m 1 c).arrAt w cfg1.N) (arrays1_final m c) (rest1 m c)
    rw [show StableHlo.held (c : Thread nD τ) (Pipeline.ucRefs τ sig) (V3 m (outs m) c) = unscopedBufs c (fun b => V3 m (outs m) c b) from (Pipeline.unscopedBufs_held c _).symm]
    iintro ⟨Ha, HO, Hp, Hz⟩
    imodintro
    isplitl [Ha Hz]
    · iapply hjoin
      isplitl [Ha]; · iexact Ha
      iexact Hz
    isplitl [HO]
    · unfold Pipeline.Dat.owesAt Pipeline.owesWithin
      icases HO with ⟨%W, -, HO⟩; iexists W; iexact HO
    iexact Hp

/-! ## The run -/

/-- What rides beside the buffers ends with the core owing nothing. -/
theorem rest_owes (c : Dev nD) : E (F := F) 2 c ⊢ (iprop(∃ W, owes (c : Thread nD τ) (0 : CellTallies nD τ sig Unit) W) : sProp 𝕄) := by
  iintro ⟨HO, -⟩; iexact HO

set_option backward.isDefEq.respectTransparency.types false in
/-- At the compiled mesh, for any float values, from any memory with zero counters: every weakly fair execution of
    the program terminates, nothing faulting, and every final memory holds the result array at what the attention
    region's proof data computes and each of the four arguments as launched. -/
theorem run_main :
    θ_run defs (onTc (τ := τ) (main (F := F))) ⟨m, fun _ => 0, ρ⟩ (fun r => ∀ c : Dev nD,
      r.2.mem ((c.tc : Thread nD τ).loc main_v7) = oArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m 𝒱₀ L lv E () (pdats m) (R0 m) (R1 m))
    (fun c Q => by
      rewrite [main_chain c, Seg.run_eq_chain,
        show (segs m 𝒱₀ L lv E () (pdats m) (R0 m) (R1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨.rfl, .rfl, .rfl, sep_mono .rfl (rest_owes c)⟩)
    (hinit := ?_)
    (QY := fun c s => s.mem ((c.tc : Thread nD τ).loc main_v7) = oArr m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the debts and the register ride along
    refine Pipeline.initEach L lv fun c => ?_
    rw [show unscopedBufs c (fun b => m ((c.tc : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    iexists _; iexact Hp
  · -- the end: the result's and each argument's buffer read off the last valuation
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans
          (by simp only [V3]; rw [Function.update_self, outs_o]),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c)⟩
    · iexact HSI

end Cert.KernelIdeal.Whole

end
-- ==== Proof.WordAttnRuns.lean ====
/-
  For the program as printed, read at any float instance (the idealized program's module of the same name
  says the same of the idealized program).

  The attention region (the second kernel of the program): what its four control cases share.

  A grid point is (batch b, head pair p, query tile sq), sq = t mod 4. The body first resets the six
  scratch buffers (running maximum, running sum and accumulator of each of the pair's two heads), then
  visits key tile j = 0, 1, 2, 3 under the condition sq ≥ j, and last stores accumulator / sum of both
  heads side by side into the output block. So the control case of a point is its sq: tiles 0 … sq are
  visited. Here: the four conditions as the body spells them, decided over the grid in closed form; the
  staging and scratch memrefs as the pipeline passes them; and the region's invariant (every scoped buffer
  that is no staging buffer of this region at some contents, and the generator register) with the six
  scratch buffers as memrefs owned at some contents — the body never reads a scratch buffer before it has
  stored into it at the same point, so nothing is carried from point to point.
-/
import proofs.«100367_j74028056313973_2_alg».proof.Proof.Gen.Kernel.Launch
import proofs.«100367_j74028056313973_2_alg».proof.Proof.Gen.Kernel.Skeleton
import proofs.«100367_j74028056313973_2_alg».proof.Proof.Gen.Kernel.Points
import Idealize.ShloMosaic.Lib.Pipeline.FrameBody
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions: key tile j is visited iff sq ≥ j -/

/-- The body's test "query tile ≥ j" on the third grid coordinate, as it spells it: a signed comparison of
    the coordinate's word with j, widened to a word and compared with zero. -/
abbrev visits (j : BitVec 32) (i : grid1.Coords) : Prop :=
  (Scalar.cmpi .ne (Scalar.extui (Scalar.cmpi .sge (BitVec.ofNat 32 (i 2).val) j)) 0#32) = 1#1

/-- Key tile 0 is visited at every point. -/
theorem visits0 : ∀ t : Fin cfg1.N, visits 0#32 (grid1.coords t) :=
  (by decide +kernel : ∀ t : Fin grid1.N, visits 0#32 (grid1.coords t))
/-- Key tile 1 is visited exactly at the points whose query tile is at least 1. -/
theorem visits1 : ∀ t : Fin cfg1.N, visits 1#32 (grid1.coords t) ↔ 1 ≤ t.val % 4 :=
  (by decide +kernel : ∀ t : Fin grid1.N, visits 1#32 (grid1.coords t) ↔ 1 ≤ t.val % 4)
/-- Key tile 2 is visited exactly at the points whose query tile is at least 2. -/
theorem visits2 : ∀ t : Fin cfg1.N, visits 2#32 (grid1.coords t) ↔ 2 ≤ t.val % 4 :=
  (by decide +kernel : ∀ t : Fin grid1.N, visits 2#32 (grid1.coords t) ↔ 2 ≤ t.val % 4)
/-- Key tile 3 is visited exactly at the points whose query tile is 3. -/
theorem visits3 : ∀ t : Fin cfg1.N, visits 3#32 (grid1.coords t) ↔ 3 ≤ t.val % 4 :=
  (by decide +kernel : ∀ t : Fin grid1.N, visits 3#32 (grid1.coords t) ↔ 3 ≤ t.val % 4)

/-- No window of the region is ever idle: every point reads its three inputs and stores its output block. -/
theorem live (w : Fin cfg1.W) : ∀ t : Fin cfg1.N, cfg1.idle w (grid1.coords t) = false := by
  revert w; decide +kernel

/-! ## The memrefs the pipeline passes at a point -/

abbrev msQ (t : Fin cfg1.N) : Memref sig .tc .vmem S1x512x128 .bf16 := win1_0.stage (cfg1.slots t 0)
abbrev hsQ (t : Fin cfg1.N) : (msQ t).IsWhole := hstage1_0 ((cfg1.slots t 0).cast nbuf1_0)
abbrev msK (t : Fin cfg1.N) : Memref sig .tc .vmem S1x2048x128 .bf16 := win1_1.stage (cfg1.slots t 1)
abbrev hsK (t : Fin cfg1.N) : (msK t).IsWhole := hstage1_1 ((cfg1.slots t 1).cast nbuf1_1)
abbrev msV (t : Fin cfg1.N) : Memref sig .tc .vmem S1x2048x128 .bf16 := win1_2.stage (cfg1.slots t 2)
abbrev hsV (t : Fin cfg1.N) : (msV t).IsWhole := hstage1_2 ((cfg1.slots t 2).cast nbuf1_2)
abbrev msO (t : Fin cfg1.N) : Memref sig .tc .vmem S1x512x128 .f32 := win1_3.stage (cfg1.slots t 3)
abbrev hsO (t : Fin cfg1.N) : (msO t).IsWhole := hstage1_3 ((cfg1.slots t 3).cast nbuf1_3)

/-- One staging buffer of the output window, through which its contents are stated (the choice does not matter). -/
abbrev VO : View sig .tc .vmem S1x512x128 .f32 := (Memref.whole cc1_stg3_0 : Memref sig .tc .vmem S1x512x128 .f32).view

/-- Scratch 0: head 0's running maximum. -/
abbrev sc0 : Memref sig .tc .vmem S512x1 .f32 := Memref.whole cc1_scratch0
/-- Scratch 1: head 0's running sum. -/
abbrev sc1 : Memref sig .tc .vmem S512x1 .f32 := Memref.whole cc1_scratch1
/-- Scratch 2: head 0's accumulator. -/
abbrev sc2 : Memref sig .tc .vmem S512x64 .f32 := Memref.whole cc1_scratch2
/-- Scratch 3: head 1's running maximum. -/
abbrev sc3 : Memref sig .tc .vmem S512x1 .f32 := Memref.whole cc1_scratch3
/-- Scratch 4: head 1's running sum. -/
abbrev sc4 : Memref sig .tc .vmem S512x1 .f32 := Memref.whole cc1_scratch4
/-- Scratch 5: head 1's accumulator. -/
abbrev sc5 : Memref sig .tc .vmem S512x64 .f32 := Memref.whole cc1_scratch5

/-! ## The region's invariant -/

/-- The class's invariant for this region — every scoped buffer that is no staging buffer of it at some contents,
    and the generator register at some state — with the six scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest1_eq]; simp only [sc0, sc1, sc2, sc3, sc4, sc5, owns_whole]; try rfl

end Cert.Kernel.Attn

end
-- ==== Proof.WordAttnRunA.lean ====
/-
  For the program as printed, read at any float instance (the idealized program's module of the same name
  says the same of the idealized program).

  The attention kernel's whole body run once, on any whole staging and scratch memrefs, in the control case of
  query tile 0: key tile 0 alone is visited (the points t ≡ 0 (mod 4)). The three inputs are handed back as
  they were found, the six scratch buffers at whatever the body left in them, and the output block with the
  pieces the body's one store wrote: those pieces are the witness the run finds.
-/
import proofs.«100367_j74028056313973_2_alg».proof.Proof.WordAttnRuns

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Attn

end
-- ==== Proof.WordAttnRunB.lean ====
/-
  For the program as printed, read at any float instance (the idealized program's module of the same name
  says the same of the idealized program).

  The attention kernel's whole body run once, on any whole staging and scratch memrefs, in the control case of
  query tile 1: key tiles 0 and 1 are visited (the points t ≡ 1 (mod 4)). The three inputs are handed back as
  they were found, the six scratch buffers at whatever the body left in them, and the output block with the
  pieces the body's one store wrote: those pieces are the witness the run finds.
-/
import proofs.«100367_j74028056313973_2_alg».proof.Proof.WordAttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Attn

end
-- ==== Proof.WordAttnRunC.lean ====
/-
  For the program as printed, read at any float instance (the idealized program's module of the same name
  says the same of the idealized program).

  The attention kernel's whole body run once, on any whole staging and scratch memrefs, in the control case of
  query tile 2: key tiles 0, 1 and 2 are visited (the points t ≡ 2 (mod 4)). The three inputs are handed back as
  they were found, the six scratch buffers at whatever the body left in them, and the output block with the
  pieces the body's one store wrote: those pieces are the witness the run finds.
-/
import proofs.«100367_j74028056313973_2_alg».proof.Proof.WordAttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Attn

end
-- ==== Proof.WordAttnRunD.lean ====
/-
  For the program as printed, read at any float instance (the idealized program's module of the same name
  says the same of the idealized program).

  The attention kernel's whole body run once, on any whole staging and scratch memrefs, in the control case of
  query tile 3: all four key tiles are visited (the points t ≡ 3 (mod 4)). The three inputs are handed back as
  they were found, the six scratch buffers at whatever the body left in them, and the output block with the
  pieces the body's one store wrote: those pieces are the witness the run finds.
-/
import proofs.«100367_j74028056313973_2_alg».proof.Proof.WordAttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the output block ends with in this case, WITH the proof that from the query block `x0`, the key
    block `x1` and the value block `x2` in their staging memrefs, the output's and the six scratch memrefs at
    anything, the body runs to its return holding the inputs as they were, the output's memref with those
    pieces written, and the scratch memrefs' buffers at something. Each of the four tests "query tile ≥ j" is decided by
    the case's hypotheses. -/
noncomputable def kernelRunD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) :
    { L : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)
                ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Attn

end
-- ==== Proof.WordAttnFrame.lean ====
/-
  For the program as printed, read at any float instance (the idealized program's module of the same name
  says the same of the idealized program).

  The attention region's proof data and body obligation.

  At a grid point t = (batch, head pair, query tile sq) the pipeline hands the body the query block of the
  point, and the key and value blocks of the point's batch and head pair (all 2048 keys: fetched when the
  head pair changes, every fourth point, and found in place at the three points after). The body leaves the
  three inputs as they were and the output block at what the point's control case (its query tile) computes
  from those three blocks. The six scratch buffers are reset by every point before it reads them, so the
  invariant between points says only that they, and the other scoped buffers, hold something.
-/
import proofs.«100367_j74028056313973_2_alg».proof.Proof.WordAttnRunD
import proofs.«100367_j74028056313973_2_alg».proof.Proof.Gen.Kernel.Regions
import Idealize.ShloMosaic.Lib.Ring

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-! ## The windows' blocks -/

/-- Window `w`'s block at point `t`, read off its array as this region finds it: what the projection region
    left in the query, key and value arrays. -/
def iblk (c : Dev nD) (w : Fin cfg1.W) (t : Fin cfg1.N) : ((cfg1.win w).xblock (cfg1.grid.coords t)).Idx → Elt F (cfg1.win w).elt :=
  ((cfg1.win w).blk t).view.read (Elt F) (V2 m outs c (Pipeline.arrRef spec1 w))

/-- The pieces of case A tile the output block (one whole-block store), so they cover it. -/
theorem coverA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunA c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunA c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case A leaves in the output's staging buffer: its pieces read back. -/
def outA (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunA c i arg3 harg3 arg4 harg4 arg5 harg5 arg6 harg6 arg7 harg7 arg8 harg8 arg9 harg9 arg10 harg10 arg11 harg11 arg12 harg12 hc0 hc1 hc2 hc3 x0 x1 x2).1)

/-- The pieces of case B tile the output block (one whole-block store), so they cover it. -/
theorem coverB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunB c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunB c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case B leaves in the output's staging buffer: its pieces read back. -/
def outB (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunB c i arg3 harg3 arg4 harg4 arg5 harg5 arg6 harg6 arg7 harg7 arg8 harg8 arg9 harg9 arg10 harg10 arg11 harg11 arg12 harg12 hc0 hc1 hc2 hc3 x0 x1 x2).1)

/-- The pieces of case C tile the output block (one whole-block store), so they cover it. -/
theorem coverC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) (y : S1x512x128.Idx) :
    ∃ pc ∈ (kernelRunC c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunC c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case C leaves in the output's staging buffer: its pieces read back. -/
def outC (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunC c i arg3 harg3 arg4 harg4 arg5 harg5 arg6 harg6 arg7 harg7 arg8 harg8 arg9 harg9 arg10 harg10 arg11 harg11 arg12 harg12 hc0 hc1 hc2 hc3 x0 x1 x2).1)

/-- The pieces of case D tile the output block (one whole-block store), so they cover it. -/
theorem coverD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) (y : S1x512x128.Idx) :
    ∃ pc ∈ (kernelRunD c i arg3 harg3 arg4 harg4 arg5 harg5 arg6 harg6 arg7 harg7 arg8 harg8 arg9 harg9 arg10 harg10 arg11 harg11 arg12 harg12 hc0 hc1 hc2 hc3 x0 x1 x2).1, y ∈ pc.1.set :=
  View.cover_of_tiledL (kernelRunD c i arg3 harg3 arg4 harg4 arg5 harg5 arg6 harg6 arg7 harg7 arg8 harg8 arg9 harg9 arg10 harg10 arg11 harg11 arg12 harg12 hc0 hc1 hc2 hc3 x0 x1 x2).1 S1x512x128.size (by sl_kernel_rfl) y

/-- What case D leaves in the output's staging buffer: its pieces read back. -/
def outD (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) : Vec F S1x512x128 .f32 :=
  VO.read (Elt F) (VO.writes (Elt F) VO.junk (kernelRunD c i arg3 harg3 arg4 harg4 arg5 harg5 arg6 harg6 arg7 harg7 arg8 harg8 arg9 harg9 arg10 harg10 arg11 harg11 arg12 harg12 hc0 hc1 hc2 hc3 x0 x1 x2).1)

/-! ## What the output block holds after each point -/

/-- The output's staging buffer after the body at point `t`: the case of the point's query tile, run at the
    point's memrefs and blocks. -/
def outAt (c : Dev nD) (t : Fin cfg1.N) : Vec F S1x512x128 .f32 :=
  if h0 : t.val % 4 = 0 then outA c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) (fun h => absurd ((visits1 t).mp h) (by omega)) (fun h => absurd ((visits2 t).mp h) (by omega)) (fun h => absurd ((visits3 t).mp h) (by omega)) (iblk m outs c 0 t) (iblk m outs c 1 t) (iblk m outs c 2 t)
  else if h1 : t.val % 4 = 1 then outB c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) (fun h => absurd ((visits2 t).mp h) (by omega)) (fun h => absurd ((visits3 t).mp h) (by omega)) (iblk m outs c 0 t) (iblk m outs c 1 t) (iblk m outs c 2 t)
  else if h2 : t.val % 4 = 2 then outC c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) (fun h => absurd ((visits3 t).mp h) (by omega)) (iblk m outs c 0 t) (iblk m outs c 1 t) (iblk m outs c 2 t)
  else outD c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) ((visits3 t).mpr (by omega)) (iblk m outs c 0 t) (iblk m outs c 1 t) (iblk m outs c 2 t)

theorem outAt_A (c : Dev nD) (t : Fin cfg1.N) (h0 : t.val % 4 = 0) :
    outAt m outs c t = outA c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) (fun h => absurd ((visits1 t).mp h) (by omega)) (fun h => absurd ((visits2 t).mp h) (by omega)) (fun h => absurd ((visits3 t).mp h) (by omega)) (iblk m outs c 0 t) (iblk m outs c 1 t) (iblk m outs c 2 t) := by
  unfold outAt; rw [dif_pos h0]
theorem outAt_B (c : Dev nD) (t : Fin cfg1.N) (h1 : t.val % 4 = 1) :
    outAt m outs c t = outB c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) (fun h => absurd ((visits2 t).mp h) (by omega)) (fun h => absurd ((visits3 t).mp h) (by omega)) (iblk m outs c 0 t) (iblk m outs c 1 t) (iblk m outs c 2 t) := by
  unfold outAt; rw [dif_neg (by omega), dif_pos h1]
theorem outAt_C (c : Dev nD) (t : Fin cfg1.N) (h2 : t.val % 4 = 2) :
    outAt m outs c t = outC c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) (fun h => absurd ((visits3 t).mp h) (by omega)) (iblk m outs c 0 t) (iblk m outs c 1 t) (iblk m outs c 2 t) := by
  unfold outAt; rw [dif_neg (by omega), dif_neg (by omega), dif_pos h2]
theorem outAt_D (c : Dev nD) (t : Fin cfg1.N) (h3 : t.val % 4 = 3) :
    outAt m outs c t = outD c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) ((visits3 t).mpr (by omega)) (iblk m outs c 0 t) (iblk m outs c 1 t) (iblk m outs c 2 t) := by
  unfold outAt; rw [dif_neg (by omega), dif_neg (by omega), dif_neg (by omega)]

/-! ## The proof data -/

/-- The region's proof data on core `c`: the arrays as the region finds them; after the body each input's
    buffer at its block and the output's at `outAt`; the invariant the class's; nothing owed; full shares. -/
def dat (c : Dev nD) : Dat τ (Elt F) Unit ℕ (UR sig nD τ) ℕ cfg1 c where
  A w := V2 m outs c (Pipeline.arrRef spec1 w)
  after w t := match w with
    | ⟨0, _⟩ => iblk m outs c 0 t
    | ⟨1, _⟩ => iblk m outs c 1 t
    | ⟨2, _⟩ => iblk m outs c 2 t
    | ⟨3, _⟩ => outAt m outs c t
  Φ _ := Pipeline.ΦA spec1 c
  q _ := fullShare
  owed _ := 0

theorem A_eq (c : Dev nD) (w : Fin cfg1.W) : (dat m outs c).A w = V2 m outs c (Pipeline.arrRef spec1 w) := by
  dsimp only [dat]
theorem after_0 (c : Dev nD) (t : Fin cfg1.N) : (dat m outs c).after 0 t = iblk m outs c 0 t := by dsimp only [dat]
theorem after_1 (c : Dev nD) (t : Fin cfg1.N) : (dat m outs c).after 1 t = iblk m outs c 1 t := by dsimp only [dat]
theorem after_2 (c : Dev nD) (t : Fin cfg1.N) : (dat m outs c).after 2 t = iblk m outs c 2 t := by dsimp only [dat]
theorem after_3 (c : Dev nD) (t : Fin cfg1.N) : (dat m outs c).after 3 t = outAt m outs c t := by dsimp only [dat]

/-- Each input's current staging buffer holds its block at every point, fetched there or not: where the key or
    value window is not fetched its block index has not moved, and the body left the block in place. -/
theorem before_0 (c : Dev nD) (t : Fin cfg1.N) (d) : (dat m outs c).before 0 t d = iblk m outs c 0 t :=
  ((dat m outs c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat m outs c).before 1 t d = iblk m outs c 1 t :=
  ((dat m outs c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat m outs c).before 2 t d = iblk m outs c 2 t :=
  ((dat m outs c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat m outs c).Φ t.castSucc ∗ (dat m outs c).owesAt () t.castSucc
    ∗ (∃ d, owns (c : Thread nD τ) (msQ t) fullShare ((dat m outs c).before 0 t d))
    ∗ (∃ d, owns (c : Thread nD τ) (msK t) fullShare ((dat m outs c).before 1 t d))
    ∗ (∃ d, owns (c : Thread nD τ) (msV t) fullShare ((dat m outs c).before 2 t d))
    ∗ (∃ d, owns (c : Thread nD τ) (msO t) fullShare ((dat m outs c).before 3 t d)))

/-- and what it returns. -/
def bodyPost (c : Dev nD) (t : Fin cfg1.N) : sProp 𝕄 :=
  iprop((dat m outs c).Φ t.succ ∗ (dat m outs c).owesAt () t.succ
    ∗ owns (c : Thread nD τ) (msQ t) fullShare ((dat m outs c).after 0 t)
    ∗ owns (c : Thread nD τ) (msK t) fullShare ((dat m outs c).after 1 t)
    ∗ owns (c : Thread nD τ) (msV t) fullShare ((dat m outs c).after 2 t)
    ∗ owns (c : Thread nD τ) (msO t) fullShare ((dat m outs c).after 3 t))

set_option maxHeartbeats 4800000 in
/-- The body at any point: the inputs' memrefs hold their blocks; the point's query tile says which case it is in;
    that case's run applies; the invariant hands the body the scratch buffers at anything and takes them back at
    anything; the core owes nothing throughout. -/
theorem sound_body (c : Dev nD) (t : Fin cfg1.N) :
    bodyPre m outs c t ⊢ wp frame (wpE (defs₀ (F := F)) Variants.none c none) Set.univ (bodyAt1 t) (fun _ => bodyPost m outs c t) := by
  unfold bodyPre bodyPost bodyAt1
  simp only [before_0, before_1, before_2, after_0, after_1, after_2, after_3]
  rw [show (dat m outs c).owesAt () t.succ = (dat m outs c).owesAt () t.castSucc from rfl]
  rw [show (dat m outs c).Φ t.succ = Pipeline.ΦA spec1 c from rfl, show (dat m outs c).Φ t.castSucc = Pipeline.ΦA spec1 c from rfl, PhiA_eq]
  have hN : t.val < 128 := lt_of_lt_of_eq t.isLt (show cfg1.N = 128 from N_1)
  rcases (show t.val % 4 = 0 ∨ t.val % 4 = 1 ∨ t.val % 4 = 2 ∨ t.val % 4 = 3 by omega) with h0 | h1 | h2 | h3
  · -- query tile 0
    rw [outAt_A m outs c t h0]
    unfold outA; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunA c (grid1.coords t) _ _ _ _ _ _ _ _ _ _ _ _ _ _ _ _ _ _ _ _ (visits0 t) (fun h => absurd ((visits1 t).mp h) (by omega)) (fun h => absurd ((visits2 t).mp h) (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _ _ _ _ _ _ _ _ _ _ _ _ _)
  · -- query tile 1
    rw [outAt_B m outs c t h1]
    unfold outB; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunB c (grid1.coords t) _ _ _ _ _ _ _ _ _ _ _ _ _ _ _ _ _ _ _ _ (visits0 t) ((visits1 t).mpr (by omega)) (fun h => absurd ((visits2 t).mp h) (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _ _ _ _ _ _ _ _ _ _ _ _ _)
  · -- query tile 2
    rw [outAt_C m outs c t h2]
    unfold outC; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunC c (grid1.coords t) _ _ _ _ _ _ _ _ _ _ _ _ _ _ _ _ _ _ _ _ (visits0 t) ((visits1 t).mpr (by omega)) ((visits2 t).mpr (by omega)) (fun h => absurd ((visits3 t).mp h) (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverC c _ _ _ _ _ _ _ _ _ _ _ _ _ _ _ _ _ _ _ _ _ _ _ _ _ _ _ _)
  · -- query tile 3
    rw [outAt_D m outs c t h3]
    unfold outD; (try dsimp only)
    iintro ⟨⟨⟨G0, G1, G2, G3, G4, G5, G6, G7, G8, G9, G10, HS0, HS1, HS2, HS3, HS4, HS5⟩, Hg⟩, Ho, ⟨%d0, H0⟩, ⟨%d1, H1⟩, ⟨%d2, H2⟩, ⟨%d3, H3⟩⟩
    iapply ((kernelRunD c (grid1.coords t) _ _ _ _ _ _ _ _ _ _ _ _ _ _ _ _ _ _ _ _ (visits0 t) ((visits1 t).mpr (by omega)) ((visits2 t).mpr (by omega)) ((visits3 t).mpr (by omega)) (iblk m outs c 0 t) (iblk m outs c 1 t) (iblk m outs c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, ⟨%e3, H3⟩, ⟨%g0, HS0⟩, ⟨%g1, HS1⟩, ⟨%g2, HS2⟩, ⟨%g3, HS3⟩, ⟨%g4, HS4⟩, ⟨%g5, HS5⟩⟩
    isplitl [G0 G1 G2 G3 G4 G5 G6 G7 G8 G9 G10 HS0 HS1 HS2 HS3 HS4 HS5 Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [HS0]
        · unfold owns; iexists _; iexists _; isplitr; swap; · iexact HS0
          ipureintro; rfl
        isplitl [HS1]
        · unfold owns; iexists _; iexists _; isplitr; swap; · iexact HS1
          ipureintro; rfl
        isplitl [HS2]
        · unfold owns; iexists _; iexists _; isplitr; swap; · iexact HS2
          ipureintro; rfl
        isplitl [HS3]
        · unfold owns; iexists _; iexists _; isplitr; swap; · iexact HS3
          ipureintro; rfl
        isplitl [HS4]
        · unfold owns; iexists _; iexists _; isplitr; swap; · iexact HS4
          ipureintro; rfl
        unfold owns; iexists _; iexists _; isplitr; swap; · iexact HS5
        ipureintro; rfl
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverD c _ _ _ _ _ _ _ _ _ _ _ _ _ _ _ _ _ _ _ _ _ _ _ _ _ _ _ _)

/-- The library's body obligation, at every point. -/
theorem body_obligation (c : Dev nD) : BodyObligation (dat (F := F) m outs c) (defs₀ (F := F)) Variants.none () Set.univ := fun t => by
  rw [bigSep_W1, bigSep_W1]
  exact sound_body m outs c t

/-- What the launch hands the region is the invariant before the first point, and after the last point it is handed back. -/
theorem hin (c : Dev nD) : Pipeline.ΦA spec1 c ⊢ (dat m outs c).Φ 0 := Idealize.SL.BI.Entails.refl _
theorem hout (c : Dev nD) : (dat m outs c).Φ (Fin.last cfg1.N) ⊢ Pipeline.ΦA spec1 c := Idealize.SL.BI.Entails.refl _

end Cert.Kernel.Attn

end
-- ==== Proof.WordQkvRun.lean ====
/- For the program as printed, read at any float instance (the idealized program's module of the same name
   says the same of the idealized program).

   The projection kernel's body as a separation-logic triple, on any whole staging memrefs.

   The body loads the x block and the three weight blocks, forms three products and stores each, whole,
   into its output's staging memref (after a load of that memref whose value nothing reads). The triple
   hands the four inputs back at the contents they came with and each output's memref with the pieces the
   stores wrote; the pieces are found when the run is carried out, not written down here. -/
import proofs.«100367_j74028056313973_2_alg».proof.Proof.Gen.Kernel.Launch
import proofs.«100367_j74028056313973_2_alg».proof.Proof.Gen.Kernel.Skeleton
import proofs.«100367_j74028056313973_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple. On whole memrefs — the x block at `x0`, the three weight blocks at `x1`, `x2`, `x3`,
    the three outputs' memrefs at anything — the body runs to a continuation that is given the four inputs
    as they were and each output's memref with its list of stored pieces (last store first) written over
    whatever it held. The three lists are the first components; the statement about them is the last. -/
noncomputable def kernelRun (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) :
    Σ' (L4 : List (View.Piece (Elt F) S1x512x1024 .bf16)) (L5 : List (View.Piece (Elt F) S1x512x1024 .bf16)),
      { L6 : List (View.Piece (Elt F) S1x512x1024 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E
              (cc0__qkv_kernel i arg2 harg2 arg3 harg3 arg4 harg4 arg5 harg5 arg6 harg6 arg7 harg7 arg8 harg8) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1
    obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Qkv

end
-- ==== Proof.WordQkvFrame.lean ====
/- For the program as printed, read at any float instance (the idealized program's module of the same name
   says the same of the idealized program).

   The projection kernel's region: what its body leaves in the three outputs' staging memrefs, the proof
   data of its pipeline, and the body obligation at every grid point.

   At a point the body is handed the x block and the three whole weight matrices (each input's staging
   memref holds its block at every point, fetched there or not, because a block that was not fetched has
   not moved); it stores into each output's memref ONE piece covering it, whose payload is the product of
   the x block with that output's weight matrix. So each output's memref ends at a function of two input
   blocks only, and nothing is carried from point to point. -/
import proofs.«100367_j74028056313973_2_alg».proof.Proof.WordQkvRun
import proofs.«100367_j74028056313973_2_alg».proof.Proof.Gen.Kernel.Regions
import Idealize.ShloMosaic.Lib.Pipeline.Frame
import Idealize.ShloMosaic.Lib.Pipeline.Value

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the outputs -/

/-- One staging memref of the outputs' shape, through which their contents are stated: a list of pieces
    that covers the shape reads back the same through any view and over any prior contents. -/
abbrev VO : View sig .tc .vmem S1x512x1024 .bf16 := (Memref.whole cc0_stg4_0 : Memref sig .tc .vmem S1x512x1024 .bf16).view

/-- The zero offsets of a whole-block load or store, as a function. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pieces stored into the first output tile its block: every index lies in one of them. -/
theorem cover4 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).1, y ∈ pc.1.set :=
  View.cover_of_tiledL (kernelRun c i arg2 harg2 arg3 harg3 arg4 harg4 arg5 harg5 arg6 harg6 arg7 harg7 arg8 harg8 x0 x1 x2 x3).1 S1x512x1024.size (by sl_kernel_rfl) y

/-- The same for the second output, -/
theorem cover5 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).2.1, y ∈ pc.1.set :=
  View.cover_of_tiledL (kernelRun c i arg2 harg2 arg3 harg3 arg4 harg4 arg5 harg5 arg6 harg6 arg7 harg7 arg8 harg8 x0 x1 x2 x3).2.1 S1x512x1024.size (by sl_kernel_rfl) y

/-- and for the third. -/
theorem cover6 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (y : S1x512x1024.Idx) :
    ∃ pc ∈ (kernelRun c i arg2 harg2 arg3 harg3 arg4 harg4 arg5 harg5 arg6 harg6 arg7 harg7 arg8 harg8 x0 x1 x2 x3).2.2.1, y ∈ pc.1.set :=
  View.cover_of_tiledL (kernelRun c i arg2 harg2 arg3 harg3 arg4 harg4 arg5 harg5 arg6 harg6 arg7 harg7 arg8 harg8 x0 x1 x2 x3).2.2.1 S1x512x1024.size (by sl_kernel_rfl) y

/-- What the body leaves in the first output's staging memref: its pieces read back. -/
def out4 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).1)

/-- What it leaves in the second output's, -/
def out5 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).2.1)

/-- and in the third's. -/
def out6 (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : Vec F S1x512x1024 .bf16 :=
  VO.read (Elt F) (VO.writes (Elt F) VO.junk (kernelRun c i arg2 harg2 arg3 harg3 arg4 harg4 arg5 harg5 arg6 harg6 arg7 harg7 arg8 harg8 x0 x1 x2 x3).2.2.1)

/-- The first output is the payload of its one store at the blocks loaded: covering pieces read back as
    their canonical form, one whole-shape piece's canonical form is its payload, and a whole-shape load of a
    whole memref reads its contents. -/
theorem out4_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out4 c i arg2 harg2 arg3 harg3 arg4 harg4 arg5 harg5 arg6 harg6 arg7 harg7 arg8 harg8 x0 x1 x2 x3 = Gen.k0_pay2 x0 x1 := by
  unfold out4
  rw [View.read_writes_eq_canon _ _ _ (cover4 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg3.read_unread, View.ld_unit_zero (S := S1x512x1024) hz3, View.ld_unit_zero (S := S1024x1024) hz2]

/-- The second output likewise, from the x block and the second weight block, -/
theorem out5_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out5 c i arg2 harg2 arg3 harg3 arg4 harg4 arg5 harg5 arg6 harg6 arg7 harg7 arg8 harg8 x0 x1 x2 x3 = Gen.k0_pay3 x0 x2 := by
  unfold out5
  rw [View.read_writes_eq_canon _ _ _ (cover5 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg4.read_unread, View.ld_unit_zero (S := S1x512x1024) hz3, View.ld_unit_zero (S := S1024x1024) hz2]

/-- and the third from the x block and the third weight block. -/
theorem out6_eq (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) : out6 c i arg2 harg2 arg3 harg3 arg4 harg4 arg5 harg5 arg6 harg6 arg7 harg7 arg8 harg8 x0 x1 x2 x3 = Gen.k0_pay4 x0 x3 := by
  unfold out6
  rw [View.read_writes_eq_canon _ _ _ (cover6 c i arg2 harg2 arg3 harg3 arg4 harg4 arg5 harg5 arg6 harg6 arg7 harg7 arg8 harg8 x0 x1 x2 x3)]
  unfold kernelRun
  dsimp only
  sl_unfold_words
  rw [View.canon_unit_zero hz3]
  simp only [View.readAt_eq_ld, harg2.read_unread, harg5.read_unread, View.ld_unit_zero (S := S1x512x1024) hz3, View.ld_unit_zero (S := S1024x1024) hz2]

/-! ## The windows' blocks and staging memrefs -/

variable (m : (ℓ : Loc nD τ sig) → Buf (Elt F) ℓ)

/-- Window `w`'s block at point `t`, read off its array as the region finds it: the core's unscoped
    buffers after the host operations that precede the region (which make the three weight matrices). -/
def iblk (c : Dev nD) (w : Fin cfg0.W) (t : Fin cfg0.N) : ((cfg0.win w).xblock (cfg0.grid.coords t)).Idx → Elt F (cfg0.win w).elt :=
  ((cfg0.win w).blk t).view.read (Elt F) (Gen.V1 m c (Pipeline.arrRef spec0 w))

/-- Each window's current staging memref at point `t`, as the pipeline passes it to the body, and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x1024 .bf16 := win0_6.stage (cfg0.slots t 6)
abbrev hs6 (t : Fin cfg0.N) : (ms6 t).IsWhole := hstage0_6 ((cfg0.slots t 6).cast nbuf0_6)

/-! ## The pipeline's proof data -/

/-- The proof data of the projection kernel's pipeline on core `c`: the arrays as the region finds them;
    after the body at point `t` each input's memref at its block (the body stores into no input) and each
    output's at what the body leaves from the point's blocks; the invariant is the scoped buffers the kernel
    does not use together with the generator register; nothing owed; full shares. -/
def dat0 (c : Dev nD) : Dat τ (Elt F) Unit ℕ (UR sig nD τ) ℕ cfg0 c where
  A w := Gen.V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
    | ⟨5, _⟩ => out5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
    | ⟨6, _⟩ => out6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t)
  Φ _ := Pipeline.ΦA spec0 c
  q _ := fullShare
  owed _ := 0

/-- The proof data's arrays are the region-entry contents (the definition projected, the valuation left folded). -/
theorem A_eq (c : Dev nD) (w : Fin cfg0.W) : (dat0 m c).A w = Gen.V1 m c (Pipeline.arrRef spec0 w) := by
  dsimp only [dat0]

/-- The invariant is the same at every position. -/
theorem Phi_eq (c : Dev nD) (t : Fin (cfg0.N + 1)) : (dat0 m c).Φ t = Pipeline.ΦA spec0 c := by
  dsimp only [dat0]

/-- What the body leaves, window by window. -/
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = out4 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]
theorem after0_5 (c : Dev nD) (t : Fin cfg0.N) : (dat0 m c).after 5 t = out5 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]
theorem after0_6 (c : Dev nD) (t : Fin cfg0.N) : (dat0 m c).after 6 t = out6 c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) := by dsimp only [dat0]

/-! ## What the body finds in the inputs' memrefs -/

/-- An input window's current staging memref holds the window's block at every point, fetched there or
    not, for ANY proof data whose array is the region-entry one and whose body leaves the block in place:
    a point that does not fetch the window has the block index of the point before, so what was left there
    is this point's block. For the x window (fetched at every point) and for the three weight windows
    (fetched at the first point only, the whole matrix their one block) alike. -/
theorem before0_0_of {c : Dev nD} (dat : Dat τ (Elt F) Unit ℕ (UR sig nD τ) ℕ cfg0 c) (hA : dat.A 0 = Gen.V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = Gen.V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = Gen.V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = Gen.V1 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for this region's proof data. -/
theorem before0_0 (c : Dev nD) (t : Fin cfg0.N) (d) : (dat0 m c).before 0 t d = iblk m c 0 t :=
  before0_0_of m (dat0 m c) (A_eq m c 0) (after0_0 m c) t d
theorem before0_1 (c : Dev nD) (t : Fin cfg0.N) (d) : (dat0 m c).before 1 t d = iblk m c 1 t :=
  before0_1_of m (dat0 m c) (A_eq m c 1) (after0_1 m c) t d
theorem before0_2 (c : Dev nD) (t : Fin cfg0.N) (d) : (dat0 m c).before 2 t d = iblk m c 2 t :=
  before0_2_of m (dat0 m c) (A_eq m c 2) (after0_2 m c) t d
theorem before0_3 (c : Dev nD) (t : Fin cfg0.N) (d) : (dat0 m c).before 3 t d = iblk m c 3 t :=
  before0_3_of m (dat0 m c) (A_eq m c 3) (after0_3 m c) t d

/-! ## The body obligation -/

/-- The body on any whole memrefs, in the form the obligation takes: beside two assertions it does not
    touch, from the inputs' memrefs at `x0 … x3` and the outputs' at anything, the body runs to the inputs'
    memrefs as they were and each output's at what the body leaves (`out4`, `out5`, `out6`): the run's
    pieces cover each output, so what is read back through the memref's own view over its prior contents is
    what is read back through the reference view over anything. -/
theorem body_at (c : Dev nD) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (P Q : sProp 𝕄) :
    iprop(P ∗ Q ∗ owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d))
      ⊢ wp frame (wpE (defs₀ (F := F)) Variants.none c none) Set.univ
          (cc0__qkv_kernel i arg2 harg2 arg3 harg3 arg4 harg4 arg5 harg5 arg6 harg6 arg7 harg7 arg8 harg8) (fun _ =>
            iprop(P ∗ Q ∗ owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare (out4 c i arg2 harg2 arg3 harg3 arg4 harg4 arg5 harg5 arg6 harg6 arg7 harg7 arg8 harg8 x0 x1 x2 x3)
              ∗ owns (c : Thread nD τ) arg7 fullShare (out5 c i arg2 harg2 arg3 harg3 arg4 harg4 arg5 harg5 arg6 harg6 arg7 harg7 arg8 harg8 x0 x1 x2 x3)
              ∗ owns (c : Thread nD τ) arg8 fullShare (out6 c i arg2 harg2 arg3 harg3 arg4 harg4 arg5 harg5 arg6 harg6 arg7 harg7 arg8 harg8 x0 x1 x2 x3))) := by
  unfold out4 out5 out6
  iintro ⟨HP, HQ, H0, H1, H2, H3, H4, H5, H6⟩
  iapply ((kernelRun c i arg2 harg2 arg3 harg3 arg4 harg4 arg5 harg5 arg6 harg6 arg7 harg7 arg8 harg8 x0 x1 x2 x3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, ⟨%e4, H4⟩, ⟨%e5, H5⟩, ⟨%e6, H6⟩⟩
  isplitl [HP]; · iexact HP
  isplitl [HQ]; · iexact HQ
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c i arg2 harg2 arg3 harg3 arg4 harg4 arg5 harg5 arg6 harg6 arg7 harg7 arg8 harg8 x0 x1 x2 x3)
  isplitl [H5]
  · unfold owns; iexists _; isplitr
    swap; · iexact H5
    ipureintro; exact View.read_writes_of_cover _ _ _ _ _ (cover5 c i arg2 harg2 arg3 harg3 arg4 harg4 arg5 harg5 arg6 harg6 arg7 harg7 arg8 harg8 x0 x1 x2 x3)
  unfold owns; iexists _; isplitr
  swap; · iexact H6
  ipureintro; exact View.read_writes_of_cover _ _ _ _ _ (cover6 c i arg2 harg2 arg3 harg3 arg4 harg4 arg5 harg5 arg6 harg6 arg7 harg7 arg8 harg8 x0 x1 x2 x3)

/-- What the body is called with at point `t` (the obligation's precondition, the windows one by one), -/
def bodyPre (c : Dev nD) (t : Fin cfg0.N) : sProp 𝕄 :=
  iprop((dat0 m c).Φ t.castSucc ∗ (dat0 m c).owesAt () t.castSucc
    ∗ (∃ d, owns (c : Thread nD τ) (ms0 t) fullShare ((dat0 m c).before 0 t d))
    ∗ (∃ d, owns (c : Thread nD τ) (ms1 t) fullShare ((dat0 m c).before 1 t d))
    ∗ (∃ d, owns (c : Thread nD τ) (ms2 t) fullShare ((dat0 m c).before 2 t d))
    ∗ (∃ d, owns (c : Thread nD τ) (ms3 t) fullShare ((dat0 m c).before 3 t d))
    ∗ (∃ d, owns (c : Thread nD τ) (ms4 t) fullShare ((dat0 m c).before 4 t d))
    ∗ (∃ d, owns (c : Thread nD τ) (ms5 t) fullShare ((dat0 m c).before 5 t d))
    ∗ (∃ d, owns (c : Thread nD τ) (ms6 t) fullShare ((dat0 m c).before 6 t d)))

/-- and what it returns. -/
def bodyPost (c : Dev nD) (t : Fin cfg0.N) : sProp 𝕄 :=
  iprop((dat0 m c).Φ t.succ ∗ (dat0 m c).owesAt () t.succ
    ∗ (dat0 m c).leavesExact 0 t
    ∗ (dat0 m c).leavesExact 1 t
    ∗ (dat0 m c).leavesExact 2 t
    ∗ (dat0 m c).leavesExact 3 t
    ∗ (dat0 m c).leavesExact 4 t
    ∗ (dat0 m c).leavesExact 5 t
    ∗ (dat0 m c).leavesExact 6 t)

/-- The body at any point: the inputs' memrefs hold their blocks, the outputs' hold anything, so the body's
    triple applies at the point's memrefs and blocks; the invariant and what the core owes ride along. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat0 m c).owesAt () t.succ = (dat0 m c).owesAt () t.castSucc from rfl]
  rw [Phi_eq m c t.succ, Phi_eq m c t.castSucc]
  rw [show (dat0 m c).leavesExact 0 t = owns (c : Thread nD τ) (ms0 t) fullShare ((dat0 m c).after 0 t) from rfl, after0_0,
    show (dat0 m c).leavesExact 1 t = owns (c : Thread nD τ) (ms1 t) fullShare ((dat0 m c).after 1 t) from rfl, after0_1,
    show (dat0 m c).leavesExact 2 t = owns (c : Thread nD τ) (ms2 t) fullShare ((dat0 m c).after 2 t) from rfl, after0_2,
    show (dat0 m c).leavesExact 3 t = owns (c : Thread nD τ) (ms3 t) fullShare ((dat0 m c).after 3 t) from rfl, after0_3,
    show (dat0 m c).leavesExact 4 t = owns (c : Thread nD τ) (ms4 t) fullShare ((dat0 m c).after 4 t) from rfl, after0_4,
    show (dat0 m c).leavesExact 5 t = owns (c : Thread nD τ) (ms5 t) fullShare ((dat0 m c).after 5 t) from rfl, after0_5,
    show (dat0 m c).leavesExact 6 t = owns (c : Thread nD τ) (ms6 t) fullShare ((dat0 m c).after 6 t) from rfl, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_at c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (Pipeline.ΦA spec0 c) ((dat0 m c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

/-- The library's body obligation, at every point. -/
theorem body_obligation0 (c : Dev nD) : BodyObligation (dat0 (F := F) m c) (defs₀ (F := F)) Variants.none () Set.univ := fun t => by
  rw [bigSep_W0, bigSep_W0]
  exact sound_body m c t

/-- What the launch hands the region is the invariant before the first point, -/
theorem hin0 (c : Dev nD) : Pipeline.ΦA spec0 c ⊢ (dat0 m c).Φ 0 := by
  rw [Phi_eq m c 0]

/-- and the invariant after the last point gives it back. -/
theorem hout0 (c : Dev nD) : (dat0 m c).Φ (Fin.last cfg0.N) ⊢ Pipeline.ΦA spec0 c := by
  rw [Phi_eq m c (Fin.last cfg0.N)]

/-! ## The outputs through the payload names -/

/-- Each output's memref after the body at point `t` is the payload of its store at the point's x block and
    that output's weight block. -/
theorem after0_4_pay (c : Dev nD) (t : Fin cfg0.N) : (dat0 m c).after 4 t = Gen.k0_pay2 (iblk m c 0 t) (iblk m c 1 t) :=
  (after0_4 m c t).trans (out4_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))
theorem after0_5_pay (c : Dev nD) (t : Fin cfg0.N) : (dat0 m c).after 5 t = Gen.k0_pay3 (iblk m c 0 t) (iblk m c 2 t) :=
  (after0_5 m c t).trans (out5_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))
theorem after0_6_pay (c : Dev nD) (t : Fin cfg0.N) : (dat0 m c).after 6 t = Gen.k0_pay4 (iblk m c 0 t) (iblk m c 3 t) :=
  (after0_6 m c t).trans (out6_eq c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t))

end Cert.Kernel.Qkv

end
-- ==== Proof.WordWhole.lean ====
/-
  For the program as printed, read at any float instance (the idealized program's module of the same name
  says the same of the idealized program).

  The whole program's run: the host stretch (three weight matrices reshaped and cast), the projection region,
  the attention region — composed by the library's rule for a program that is a list of host segments and kernel
  regions. Between two items a core holds every unscoped buffer at a valuation: the launch contents, then the host
  stretch's results, then the three projected arrays at what the projection region's proof data says its
  write-backs leave, then the result array at what the attention region's proof data says; beside them ride the
  core's (empty) debts and the generator register, which each region borrows for its invariant and returns.
  The run's post names the result array and says the four arguments end as launched.
-/
import proofs.«100367_j74028056313973_2_alg».proof.Proof.WordAttnFrame
import proofs.«100367_j74028056313973_2_alg».proof.Proof.WordQkvFrame
import Idealize.ShloMosaic.Lib.Pipeline.RegionsLoop

set_option maxRecDepth 16384

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The projected queries, keys and values: the three output arrays of the projection region after its last
    write-back, as the pipeline library computes them from that region's proof data. -/
def qArr (c : Dev nD) : Buf (Elt F) ((c : Thread nD τ).loc main_v6_0) := (Qkv.dat0 m c).arrAt 4 cfg0.N
def kArr (c : Dev nD) : Buf (Elt F) ((c : Thread nD τ).loc main_v6_1) := (Qkv.dat0 m c).arrAt 5 cfg0.N
def vArr (c : Dev nD) : Buf (Elt F) ((c : Thread nD τ).loc main_v6_2) := (Qkv.dat0 m c).arrAt 6 cfg0.N

/-- The contents the regions leave, as the table the program's valuations are written over: the projection
    region's three arrays (the attention region's result is added below). -/
def outsQ : Outs (F := F) := fun _ =>
  Function.update (Function.update (Function.update (fun r c => m ((c : Thread nD τ).loc r)) main_v6_0 (qArr m)) main_v6_1 (kArr m)) main_v6_2 (vArr m)

/-- The attention's result array after its region's last write-back. -/
def oArr (c : Dev nD) : Buf (Elt F) ((c : Thread nD τ).loc main_v7) := (Attn.dat m (outsQ m) c).arrAt 3 cfg1.N

/-- The same table with the attention region's result. -/
def outs : Outs (F := F) := fun n =>
  if n = 3 then Function.update (outsQ m 3) main_v7 (oArr m) else outsQ m n

/-- Before the attention region the table is the projection region's. -/
theorem outs_two : outs m 2 = outsQ m 2 := if_neg (by decide)
theorem outs_three : outs m 3 = Function.update (outsQ m 3) main_v7 (oArr m) := if_pos rfl

theorem outs_q (c : Dev nD) : outs m 2 main_v6_0 c = qArr m c := by
  rw [outs_two]; simp only [outsQ]
  rw [Function.update_of_ne (by decide), Function.update_of_ne (by decide), Function.update_self]
theorem outs_k (c : Dev nD) : outs m 2 main_v6_1 c = kArr m c := by
  rw [outs_two]; simp only [outsQ]
  rw [Function.update_of_ne (by decide), Function.update_self]
theorem outs_v (c : Dev nD) : outs m 2 main_v6_2 c = vArr m c := by
  rw [outs_two]; simp only [outsQ]
  rw [Function.update_self]
theorem outs_o (c : Dev nD) : outs m 3 main_v7 c = oArr m c := by
  rw [outs_three, Function.update_self]

/-- The buffers as the attention region finds them do not depend on the attention region's own result. -/
theorem V2_outs (c : Dev nD) : V2 m (outs m) c = V2 m (outsQ m) c := by
  show Function.update (Function.update (Function.update (V1 m c) main_v6_0 (outs m 2 main_v6_0 c)) main_v6_1 (outs m 2 main_v6_1 c)) main_v6_2 (outs m 2 main_v6_2 c) = _
  rw [outs_two]

/-! ## The proof data of the two pipelines -/

/-- The proof data, pipeline by pipeline. -/
def pdats : (p : Fin 2) → (c : Dev nD) → Dat τ (Elt F) Unit ℕ (UR sig nD τ) ℕ (cfgs p) c
  | ⟨0, _⟩ => Qkv.dat0 m
  | ⟨1, _⟩ => Attn.dat m (outsQ m)
  | ⟨n + 2, h⟩ => absurd h (by omega)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between items: the core owing nothing, and the generator register. -/
abbrev E (_ : Fin 3) (c : Dev nD) : sProp 𝕄 :=
  iprop((∃ W, owes (c : Thread nD τ) (0 : CellTallies nD τ sig Unit) W) ∗ (∃ r, prngReg c r))

/-- The prefetched tables' admissible contents: no pallas_call has a table. -/
abbrev adm : (p : Fin 2) → (pcfgs (F := F) p).Adm := fun p => (cfgs p).toPCfg_adm

/-! ## The arrays after each region, against the valuations -/

/-- After the projection region its windows' arrays hold what the valuation after it says: the x block's array and
    the three weight arrays are inputs, unchanged; the three projected arrays hold the region's final contents. -/
theorem arrays0_final (c : Dev nD) (w : Fin cfg0.W) :
    (pdats m 0 c).arrAt w cfg0.N = V2 m (outs m) c (Pipeline.arrRef spec0 w) := by
  have hin : ∀ w : Fin cfg0.W, (cfg0.win w).isOut = false → (pdats m 0 c).arrAt w cfg0.N = V1 m c (Pipeline.arrRef spec0 w) :=
    fun w hw => ((pdats m 0 c).arrAt_in w hw _).trans (Qkv.A_eq m c w)
  fin_cases w
  · exact (hin 0 rfl).trans (V2_of m (outs m) c main_arg0 (by decide)).symm
  · exact (hin 1 rfl).trans (V2_of m (outs m) c main_v1 (by decide)).symm
  · exact (hin 2 rfl).trans (V2_of m (outs m) c main_v3 (by decide)).symm
  · exact (hin 3 rfl).trans (V2_of m (outs m) c main_v5 (by decide)).symm
  · show qArr m c = _
    simp only [V2]; rw [Function.update_of_ne (by decide), Function.update_of_ne (by decide), Function.update_self, outs_q]
  · show kArr m c = _
    simp only [V2]; rw [Function.update_of_ne (by decide), Function.update_self, outs_k]
  · show vArr m c = _
    simp only [V2]; rw [Function.update_self, outs_v]

/-- Off the projection region's arrays the valuation after it is the one before it. -/
theorem rest0 (c : Dev nD) (b : Ref sig .tc) (hb : b ∉ Finset.univ.image (Pipeline.arrRef spec0)) :
    V2 m (outs m) c b = V1 m c b :=
  V2_of m (outs m) c b (by
    intro h
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

/-- After the attention region: the three projected arrays are inputs, unchanged; the result array holds the
    region's final contents. -/
theorem arrays1_final (c : Dev nD) (w : Fin cfg1.W) :
    (pdats m 1 c).arrAt w cfg1.N = V3 m (outs m) c (Pipeline.arrRef spec1 w) := by
  have hin : ∀ w : Fin cfg1.W, (cfg1.win w).isOut = false → (pdats m 1 c).arrAt w cfg1.N = V2 m (outs m) c (Pipeline.arrRef spec1 w) :=
    fun w hw => ((pdats m 1 c).arrAt_in w hw _).trans ((Attn.A_eq m (outsQ m) c w).trans (by rw [V2_outs]))
  fin_cases w
  · exact (hin 0 rfl).trans (V3_of m (outs m) c main_v6_0 (by decide)).symm
  · exact (hin 1 rfl).trans (V3_of m (outs m) c main_v6_1 (by decide)).symm
  · exact (hin 2 rfl).trans (V3_of m (outs m) c main_v6_2 (by decide)).symm
  · show oArr m c = _
    simp only [V3]; rw [Function.update_self, outs_o]

/-- Off the attention region's arrays the valuation after it is the one before it. -/
theorem rest1 (c : Dev nD) (b : Ref sig .tc) (hb : b ∉ Finset.univ.image (Pipeline.arrRef spec1)) :
    V3 m (outs m) c b = V2 m (outs m) c b :=
  V3_of m (outs m) c b (by
    intro h
    simp only [List.mem_cons, List.mem_nil_iff, or_false] at h
    rcases h with rfl
    exact hb (Finset.mem_image.mpr ⟨3, Finset.mem_univ _, rfl⟩))

/-! ## The regions as segments -/

-- a library lemma stated over `cfgs p` at the pinned configuration unifies only when unification may unfold plain
-- definitions in a metavariable's type
set_option maxHeartbeats 1600000 in
set_option backward.isDefEq.respectTransparency.types false in
/-- The projection region as a segment: entered from every unscoped buffer held at the valuation before it, its
    windows' arrays split off into the pipeline and the other unscoped buffers bypassing it; the generator register
    lent to the region's invariant; left with the arrays put back at the valuation after it. -/
def R0 : RegionSeg (pcfgs (F := F)) adm (pdats m) () defs₀ 𝒱₀ L lv 0 where
  win := launch0.win.to₀
  block_pos := launch0.block_pos
  stage_whole := launch0.stage_whole
  K := PEmpty
  osem := fun k => k.elim
  ho := Pipeline.OwnSemFacts.none _
  hbody c := (Qkv.body_obligation0 m c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [show StableHlo.held (c : Thread nD τ) (Pipeline.ucRefs τ sig) (V1 m c) = unscopedBufs c (fun b => V1 m c b) from (Pipeline.unscopedBufs_held c _).symm]
    have hsplit := Pipeline.arrays_of_unscopedBufs (p := 0) (pcfgs (F := F)) adm (pdats m) launch0.win launch0.arr_whole c
      ((pdats m 0 c).share_full fun _ => rfl) (fun b => V1 m c b) (fun w => Qkv.A_eq m c w)
    iintro ⟨⟨Hub, ⟨HO, Hp⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec0 c; unfold Pipeline.ΦA
    iintro ⟨Hp, -, Hr⟩
    isplitl [Hr]; · iexact Hr
    iexact Hp
  hout c := by
    rw [Pipeline.ownSems0_none]; show Pipeline.ΦA spec0 c ⊢ _; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm launch0.win launch0.arr_whole c (pdats m)
      ((pdats m 0 c).share_full fun _ => rfl) (fun b => V1 m c b) (fun b => V2 m (outs m) c b)
      (fun w => (pdats m 0 c).arrAt w cfg0.N) (arrays0_final m c) (rest0 m c)
    rw [show StableHlo.held (c : Thread nD τ) (Pipeline.ucRefs τ sig) (V2 m (outs m) c) = unscopedBufs c (fun b => V2 m (outs m) c b) from (Pipeline.unscopedBufs_held c _).symm]
    iintro ⟨Ha, HO, Hp, Hz⟩
    imodintro
    isplitl [Ha Hz]
    · iapply hjoin
      isplitl [Ha]; · iexact Ha
      iexact Hz
    isplitl [HO]
    · unfold Pipeline.Dat.owesAt Pipeline.owesWithin
      icases HO with ⟨%W, -, HO⟩; iexists W; iexact HO
    iexact Hp

set_option maxHeartbeats 1600000 in
set_option backward.isDefEq.respectTransparency.types false in
/-- The attention region as a segment: entered from every unscoped buffer held at the valuation before it, its
    windows' arrays split off into the pipeline and the other unscoped buffers bypassing it; the generator register
    lent to the region's invariant; left with the arrays put back at the valuation after it. -/
def R1 : RegionSeg (pcfgs (F := F)) adm (pdats m) () defs₀ 𝒱₀ L lv 1 where
  win := launch1.win.to₀
  block_pos := launch1.block_pos
  stage_whole := launch1.stage_whole
  K := PEmpty
  osem := fun k => k.elim
  ho := Pipeline.OwnSemFacts.none _
  hbody c := (Attn.body_obligation m (outsQ m) c).loose
  hwaits := Pipeline.hwaits_of_owed_zero _ _ _ _ L lv 1 fun _ _ => rfl
  pre c := iprop(StableHlo.held (c : Thread nD τ) (Pipeline.ucRefs τ sig) (V2 m (outs m) c) ∗ E 1 c)
  post c := iprop(StableHlo.held (c : Thread nD τ) (Pipeline.ucRefs τ sig) (V3 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [show StableHlo.held (c : Thread nD τ) (Pipeline.ucRefs τ sig) (V2 m (outs m) c) = unscopedBufs c (fun b => V2 m (outs m) c b) from (Pipeline.unscopedBufs_held c _).symm]
    have hsplit := Pipeline.arrays_of_unscopedBufs (p := 1) (pcfgs (F := F)) adm (pdats m) launch1.win launch1.arr_whole c
      ((pdats m 1 c).share_full fun _ => rfl) (fun b => V2 m (outs m) c b) (fun w => (Attn.A_eq m (outsQ m) c w).trans (by rw [V2_outs]; rfl))
    iintro ⟨⟨Hub, ⟨HO, Hp⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ Pipeline.ΦA spec1 c; unfold Pipeline.ΦA
    iintro ⟨Hp, -, Hr⟩
    isplitl [Hr]; · iexact Hr
    iexact Hp
  hout c := by
    rw [Pipeline.ownSems0_none]; show Pipeline.ΦA spec1 c ⊢ _; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm launch1.win launch1.arr_whole c (pdats m)
      ((pdats m 1 c).share_full fun _ => rfl) (fun b => V2 m (outs m) c b) (fun b => V3 m (outs m) c b)
      (fun w => (pdats m 1 c).arrAt w cfg1.N) (arrays1_final m c) (rest1 m c)
    rw [show StableHlo.held (c : Thread nD τ) (Pipeline.ucRefs τ sig) (V3 m (outs m) c) = unscopedBufs c (fun b => V3 m (outs m) c b) from (Pipeline.unscopedBufs_held c _).symm]
    iintro ⟨Ha, HO, Hp, Hz⟩
    imodintro
    isplitl [Ha Hz]
    · iapply hjoin
      isplitl [Ha]; · iexact Ha
      iexact Hz
    isplitl [HO]
    · unfold Pipeline.Dat.owesAt Pipeline.owesWithin
      icases HO with ⟨%W, -, HO⟩; iexists W; iexact HO
    iexact Hp

/-! ## The run -/

/-- What rides beside the buffers ends with the core owing nothing. -/
theorem rest_owes (c : Dev nD) : E (F := F) 2 c ⊢ (iprop(∃ W, owes (c : Thread nD τ) (0 : CellTallies nD τ sig Unit) W) : sProp 𝕄) := by
  iintro ⟨HO, -⟩; iexact HO

set_option backward.isDefEq.respectTransparency.types false in
/-- At the compiled mesh, for any float values, from any memory with zero counters: every weakly fair execution of
    the program terminates, nothing faulting, and every final memory holds the result array at what the attention
    region's proof data computes and each of the four arguments as launched. -/
theorem run_main :
    θ_run defs (onTc (τ := τ) (main (F := F))) ⟨m, fun _ => 0, ρ⟩ (fun r => ∀ c : Dev nD,
      r.2.mem ((c.tc : Thread nD τ).loc main_v7) = oArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m 𝒱₀ L lv E () (pdats m) (R0 m) (R1 m))
    (fun c Q => by
      rewrite [main_chain c, Seg.run_eq_chain,
        show (segs m 𝒱₀ L lv E () (pdats m) (R0 m) (R1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨.rfl, .rfl, .rfl, sep_mono .rfl (rest_owes c)⟩)
    (hinit := ?_)
    (QY := fun c s => s.mem ((c.tc : Thread nD τ).loc main_v7) = oArr m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the debts and the register ride along
    refine Pipeline.initEach L lv fun c => ?_
    rw [show unscopedBufs c (fun b => m ((c.tc : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    iexists _; iexact Hp
  · -- the end: the result's and each argument's buffer read off the last valuation
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans
          (by simp only [V3]; rw [Function.update_self, outs_o]),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c)⟩
    · iexact HSI

end Cert.Kernel.Whole

end
-- ==== Proof.Spec.lean ====
/-
  Causal multi-head attention as one function of its four argument arrays, over the extended reals.

  Token (b, s) of the input is projected by head h's three weight matrices (a dot product over the 1024 model
  coordinates); query i scores key j by the dot product of their 64-coordinate projections, scaled by 1/8 = 1/√64;
  keys after the query are masked to -∞; each query row is soft-maxed (subtract the row maximum, exponentiate,
  divide by the row's sum); the weights average the value projections; and head h's 64 coordinates land at
  features 64·h … 64·h + 63 of the result.

  The row maximum is `Finset.univ.sup`, which is by definition the fold of `⊔` from `⊥` over the 2048 keys.
-/
import Mathlib
import Idealize.ShloMosaic.PureOps.Ideal
import Idealize.ShloMosaic.Lib.ValueIdx

noncomputable section

open scoped BigOperators

namespace Cert.CausalAttention

open Idealize.ShloMosaic Idealize.ShloMosaic.ValueIdx

/-- The input's shape: 4 batches of 2048 tokens of 1024 coordinates. -/
abbrev SX : Shape := ⟨3, ![4, 2048, 1024]⟩
/-- A weight's shape: 16 heads, each a 64 × 1024 matrix. -/
abbrev SW : Shape := ⟨3, ![16, 64, 1024]⟩

/-- Coordinate `e` of head `h`'s projection of token `(b, s)`. -/
def proj (x : SX.Idx → EReal) (w : SW.Idx → EReal) (b : Fin 4) (h : Fin 16) (s : Fin 2048) (e : Fin 64) : EReal :=
  ∑ d : Fin 1024, x (ix3 b s d) * w (ix3 h e d)

/-- The scaled score of query `i` against key `j` in head `h` of batch `b`. -/
def score (x : SX.Idx → EReal) (wq wk : SW.Idx → EReal) (b : Fin 4) (h : Fin 16) (i j : Fin 2048) : EReal :=
  (∑ e : Fin 64, proj x wq b h i e * proj x wk b h j e) * ((1 / 8 : ℝ) : EReal)

/-- The causal mask: a key after the query scores -∞. -/
def masked (x : SX.Idx → EReal) (wq wk : SW.Idx → EReal) (b : Fin 4) (h : Fin 16) (i j : Fin 2048) : EReal :=
  if j ≤ i then score x wq wk b h i j else ⊥

/-- The largest masked score of query `i`'s row. -/
def rowMax (x : SX.Idx → EReal) (wq wk : SW.Idx → EReal) (b : Fin 4) (h : Fin 16) (i : Fin 2048) : EReal :=
  Finset.univ.sup fun j : Fin 2048 => masked x wq wk b h i j

/-- The unnormalised soft-max weight of key `j` for query `i`. -/
def weight (x : SX.Idx → EReal) (wq wk : SW.Idx → EReal) (b : Fin 4) (h : Fin 16) (i j : Fin 2048) : EReal :=
  Ideal.exp (masked x wq wk b h i j - rowMax x wq wk b h i)

/-- Coordinate `e` of head `h`'s output for query `i`: the soft-max-weighted average of the value projections. -/
def head (x : SX.Idx → EReal) (wq wk wv : SW.Idx → EReal) (b : Fin 4) (h : Fin 16) (i : Fin 2048) (e : Fin 64) : EReal :=
  ∑ j : Fin 2048, Ideal.div (weight x wq wk b h i j) (∑ c : Fin 2048, weight x wq wk b h i c) * proj x wv b h j e

/-- The whole result: feature `f` of token `(b, i)` is coordinate `f % 64` of head `f / 64`. -/
def attention (x : SX.Idx → EReal) (wq wk wv : SW.Idx → EReal) : SX.Idx → EReal := fun idx =>
  head x wq wk wv (idx 0) ⟨(idx 2).val / 64, by have := (idx 2).isLt; change _ < 1024 at this; omega⟩ (idx 1)
    ⟨(idx 2).val % 64, Nat.mod_lt _ (by norm_num)⟩

/-- The result at an index given by its coordinates. -/
theorem attention_ix3 (x : SX.Idx → EReal) (wq wk wv : SW.Idx → EReal) (b : Fin 4) (i : Fin 2048) (f : Fin 1024) :
    attention x wq wk wv (ix3 b i f) =
      head x wq wk wv b ⟨f.val / 64, by have := f.isLt; omega⟩ i ⟨f.val % 64, Nat.mod_lt _ (by norm_num)⟩ := rfl

end Cert.CausalAttention
-- ==== Proof.RefProj.lean ====
/-
  The reference's three projections, read at an index.

  Each is a contraction of a weight with the input over the 1024 model coordinates, laid out [head, coordinate,
  batch, token], followed by a transpose to [batch, head, token, coordinate]. At the entry (b, h, s, e) that is the
  dot product of weight row (h, e) with token (b, s): the specification's `proj`, the two factors in the other
  order (multiplication of extended reals commutes).
-/
import proofs.«100367_j74028056313973_2_alg».proof.Proof.Gen.ReferenceIdeal.Read
import proofs.«100367_j74028056313973_2_alg».proof.Proof.Spec

noncomputable section

open scoped BigOperators

namespace Cert.CausalAttention.Ref

open Cert.ReferenceIdeal Cert.ReferenceIdeal.Gen Cert.ReferenceIdeal.Read Idealize.ShloMosaic Idealize.ShloMosaic.ValueIdx

/-- The input array's type at the ideal instance: a function from the indices of a [4, 2048, 1024] array to extended reals. -/
abbrev XT : Type := (⟨S4x2048x1024, .f32⟩ : BufTy).Contents (Elt Ideal)
/-- A weight array's type at the ideal instance. -/
abbrev WT : Type := (⟨S16x64x1024, .f32⟩ : BufTy).Contents (Elt Ideal)

/-- The query projection at (b, h, s, e). -/
theorem v1_eq_proj (x : XT) (w : WT) (b : Fin 4) (h : Fin 16) (s : Fin 2048) (e : Fin 64) :
    val_main_v1 (F := Ideal) x w (ix4 b h s e) = proj x w b h s e := by
  rw [val_main_v1_apply, val_main_v0_apply]
  unfold proj
  refine Finset.sum_congr rfl fun d _ => ?_
  have el : lidx_main_v0 (idx_main_v1 (ix4 b h s e)) d = ix3 h e d :=
    funext fun a => Fin.ext (by match a with | ⟨0, _⟩ => rfl | ⟨1, _⟩ => rfl | ⟨2, _⟩ => rfl)
  have er : ridx_main_v0 (idx_main_v1 (ix4 b h s e)) d = ix3 b s d :=
    funext fun a => Fin.ext (by match a with | ⟨0, _⟩ => rfl | ⟨1, _⟩ => rfl | ⟨2, _⟩ => rfl)
  rw [el, er]
  exact mul_comm _ _

/-- The key projection at (b, h, s, e). -/
theorem v3_eq_proj (x : XT) (w : WT) (b : Fin 4) (h : Fin 16) (s : Fin 2048) (e : Fin 64) :
    val_main_v3 (F := Ideal) x w (ix4 b h s e) = proj x w b h s e := by
  rw [val_main_v3_apply, val_main_v2_apply]
  unfold proj
  refine Finset.sum_congr rfl fun d _ => ?_
  have el : lidx_main_v2 (idx_main_v3 (ix4 b h s e)) d = ix3 h e d :=
    funext fun a => Fin.ext (by match a with | ⟨0, _⟩ => rfl | ⟨1, _⟩ => rfl | ⟨2, _⟩ => rfl)
  have er : ridx_main_v2 (idx_main_v3 (ix4 b h s e)) d = ix3 b s d :=
    funext fun a => Fin.ext (by match a with | ⟨0, _⟩ => rfl | ⟨1, _⟩ => rfl | ⟨2, _⟩ => rfl)
  rw [el, er]
  exact mul_comm _ _

/-- The value projection at (b, h, s, e). -/
theorem v5_eq_proj (x : XT) (w : WT) (b : Fin 4) (h : Fin 16) (s : Fin 2048) (e : Fin 64) :
    val_main_v5 (F := Ideal) x w (ix4 b h s e) = proj x w b h s e := by
  rw [val_main_v5_apply, val_main_v4_apply]
  unfold proj
  refine Finset.sum_congr rfl fun d _ => ?_
  have el : lidx_main_v4 (idx_main_v5 (ix4 b h s e)) d = ix3 h e d :=
    funext fun a => Fin.ext (by match a with | ⟨0, _⟩ => rfl | ⟨1, _⟩ => rfl | ⟨2, _⟩ => rfl)
  have er : ridx_main_v4 (idx_main_v5 (ix4 b h s e)) d = ix3 b s d :=
    funext fun a => Fin.ext (by match a with | ⟨0, _⟩ => rfl | ⟨1, _⟩ => rfl | ⟨2, _⟩ => rfl)
  rw [el, er]
  exact mul_comm _ _

end Cert.CausalAttention.Ref
-- ==== Proof.RefScore.lean ====
/-
  The reference's scaled scores, read at an index.

  The batched contraction of the query and key projections over their 64 coordinates, divided by the square root of
  the constant 64. That square root is the real 8, and dividing an extended real by the real 8 is multiplying it by
  1/8, so the entry (b, h, i, j) is the specification's `score`.
-/
import proofs.«100367_j74028056313973_2_alg».proof.Proof.RefProj

noncomputable section

open scoped BigOperators

namespace Cert.CausalAttention.Ref

open Cert.ReferenceIdeal Cert.ReferenceIdeal.Gen Cert.ReferenceIdeal.Read Idealize.ShloMosaic Idealize.ShloMosaic.ValueIdx

/-- The single-precision pattern of 64.0 denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Real.sqrt 64 = 8 := by
  have h : (64 : ℝ) = 8 ^ 2 := by norm_num
  rw [h, Real.sqrt_sq (by norm_num)]

/-- The broadcast divisor is the real 8 at every index. -/
theorem v8_eq (i : S4x16x2048x2048.Idx) : val_main_v8 (F := Ideal) i = ((8 : ℝ) : EReal) := by
  rw [val_main_v8_apply, val_main_v7_apply, val_main_cst_apply, Ideal.hostUnary_sqrt_def, Ideal.ofBits_def, ofBits_64,
    Ideal.sqrt_coe, if_neg (by norm_num), sqrt_64]

/-- The unscaled score at (b, h, i, j): the dot product of query i's and key j's projections. -/
theorem v6_eq (x : XT) (wq wk : WT) (b : Fin 4) (h : Fin 16) (i j : Fin 2048) :
    val_main_v6 (F := Ideal) x wq wk (ix4 b h i j) = ∑ e : Fin 64, proj x wq b h i e * proj x wk b h j e := by
  rw [val_main_v6_apply]
  refine Finset.sum_congr rfl fun e _ => ?_
  have el : lidx_main_v6 (ix4 b h i j) e = ix4 b h i e :=
    funext fun a => Fin.ext (by match a with | ⟨0, _⟩ => rfl | ⟨1, _⟩ => rfl | ⟨2, _⟩ => rfl | ⟨3, _⟩ => rfl)
  have er : ridx_main_v6 (ix4 b h i j) e = ix4 b h j e :=
    funext fun a => Fin.ext (by match a with | ⟨0, _⟩ => rfl | ⟨1, _⟩ => rfl | ⟨2, _⟩ => rfl | ⟨3, _⟩ => rfl)
  rw [el, er, v1_eq_proj, v3_eq_proj]

/-- The scaled score at (b, h, i, j). -/
theorem v9_eq_score (x : XT) (wq wk : WT) (b : Fin 4) (h : Fin 16) (i j : Fin 2048) :
    val_main_v9 (F := Ideal) x wq wk (ix4 b h i j) = score x wq wk b h i j := by
  rw [val_main_v9_apply, Ideal.hostDivf_def, v8_eq, v6_eq, Ideal.div_coe (by norm_num : (8 : ℝ) ≠ 0)]
  rfl

end Cert.CausalAttention.Ref
-- ==== Proof.LibCausalMask.lean ====
/-
  The causal mask both a kernel and a jnp reference build from two `iota`s: position words compared signed, `row ≥ col`,
  and a `select` on the result. For positions below 2³¹ the 32-bit words are the positions themselves, read signed or
  not, so the select is an `if col ≤ row`.

  * `toInt_ofNat32`: the signed reading of the word of a number below 2³¹ is the number;
  * `select_sge_ofNat`: `select (cmpi sge (word q) (word k)) a b = if k ≤ q then a else b`;
  * `addi_zero32`: adding the zero word (a `tril` with offset 0) changes nothing.
-/
import Idealize.ShloMosaic.PureOps
import Idealize.ShloMosaic.Lib.Affine

namespace Idealize.ShloMosaic.CausalMask

open Idealize.ShloMosaic

/-- The signed reading of the 32-bit word of a number below 2³¹ is the number. -/
theorem toInt_ofNat32 (k : Nat) (hk : k < 2147483648) : (BitVec.ofNat 32 k).toInt = (k : Int) := by
  rw [BitVec.toInt_eq_toNat_cond, BitVec.toNat_ofNat]
  have h : k % 2 ^ 32 = k := Nat.mod_eq_of_lt (by omega)
  rw [h]
  split
  · rfl
  · omega

/-- A select on `row ≥ col` over position words is an `if col ≤ row`. -/
theorem select_sge_ofNat {α : Type} (q k : Nat) (hq : q < 2147483648) (hk : k < 2147483648) (a b : α) :
    Scalar.select (IntOp.cmpi .sge (BitVec.ofNat 32 q) (BitVec.ofNat 32 k)) a b = if k ≤ q then a else b := by
  unfold Scalar.select
  have key : IntOp.cmpi .sge (BitVec.ofNat 32 q) (BitVec.ofNat 32 k) = 1#1 ↔ k ≤ q := by
    rw [IntOp.cmpi_sge, toInt_ofNat32 q hq, toInt_ofNat32 k hk]
    exact Int.ofNat_le
  by_cases h : k ≤ q
  · rw [if_pos h]; exact if_pos (key.mpr h)
  · rw [if_neg h]; exact if_neg (fun h1 => h (key.mp h1))

/-- Adding the zero word changes nothing. -/
theorem addi_zero32 (x : BitVec 32) : IntOp.addi x 0#32 = x := by
  unfold IntOp.addi
  exact BitVec.add_zero x

end Idealize.ShloMosaic.CausalMask
-- ==== Proof.RefMaskBit.lean ====
/-
  The reference's causal mask, read at an index.

  The mask is built from two position arrays: the row position plus the offset 0, compared signed "greater or
  equal" with the column position, and a select between the constant bits 1 and 0. Positions are below 2048, so the
  32-bit words are the positions themselves and the bit at (i, j) is 1 exactly when j ≤ i. The fill value is the
  single-precision pattern of -∞, which denotes ⊥.
-/
import proofs.«100367_j74028056313973_2_alg».proof.Proof.Gen.ReferenceIdeal.Read
import proofs.«100367_j74028056313973_2_alg».proof.Proof.LibCausalMask

noncomputable section

namespace Cert.CausalAttention.Ref

open Cert.ReferenceIdeal Cert.ReferenceIdeal.Gen Cert.ReferenceIdeal.Read Idealize.ShloMosaic Idealize.ShloMosaic.ValueIdx

/-- The mask bit at (i, j) of the 2048 × 2048 lower triangle. -/
theorem v11_eq (i j : Fin 2048) : val_main_v11 (F := Ideal) (ix2 i j) = if j ≤ i then 1#1 else 0#1 := by
  rw [val_main_v11_apply, val_main_call0_v4_apply, val_main_call0_v2_apply, val_main_call0_v0_apply,
    val_main_call0_v1_apply, val_main_call0_c_apply, val_main_call0_v3_apply, val_main_v10_apply, val_main_c_apply,
    val_main_call0_v5_apply, val_main_call0_c_0_apply, CausalMask.addi_zero32]
  have key := CausalMask.select_sge_ofNat (α := BitVec 1) i.val j.val (by have := i.isLt; omega) (by have := j.isLt; omega)
    1#1 0#1
  by_cases hji : j ≤ i
  · rw [if_pos hji]; rw [if_pos (show j.val ≤ i.val from hji)] at key; exact key
  · rw [if_neg hji]; rw [if_neg (show ¬ j.val ≤ i.val from hji)] at key; exact key

/-- The mask bit broadcast over batches and heads, at (b, h, i, j). -/
theorem call1_v1_eq (b : Fin 4) (h : Fin 16) (i j : Fin 2048) :
    val_main_call1_v1 (F := Ideal) (ix4 b h i j) = if j ≤ i then 1#1 else 0#1 := by
  rw [val_main_call1_v1_apply]
  have e : idx_main_call1_v1 (ix4 b h i j) = ix2 i j :=
    funext fun a => Fin.ext (by match a with | ⟨0, _⟩ => rfl | ⟨1, _⟩ => rfl)
  rw [e, v11_eq]

/-- The single-precision pattern of -∞ denotes ⊥. -/
theorem ofBits_neg_inf : Ideal.ofBits .f32 0xFF800000#32 = (⊥ : EReal) := by
  simp [Ideal.ofBits, Ideal.ieee]

/-- The broadcast fill value is ⊥ at every index. -/
theorem call1_v2_eq (i : S4x16x2048x2048.Idx) : val_main_call1_v2 (F := Ideal) i = (⊥ : EReal) := by
  rw [val_main_call1_v2_apply, val_main_call1_v0_apply, val_main_cst_0_apply, Ideal.ofBits_def, ofBits_neg_inf]

end Cert.CausalAttention.Ref
-- ==== Proof.RefMask.lean ====
/-
  The reference's masked scores, read at an index: a select on the causal bit between the scaled score and ⊥, which at
  (b, h, i, j) is the specification's `masked`.
-/
import proofs.«100367_j74028056313973_2_alg».proof.Proof.RefScore
import proofs.«100367_j74028056313973_2_alg».proof.Proof.RefMaskBit

noncomputable section

namespace Cert.CausalAttention.Ref

open Cert.ReferenceIdeal Cert.ReferenceIdeal.Gen Cert.ReferenceIdeal.Read Idealize.ShloMosaic Idealize.ShloMosaic.ValueIdx

/-- The masked score at (b, h, i, j). -/
theorem v12_eq_masked (x : XT) (wq wk : WT) (b : Fin 4) (h : Fin 16) (i j : Fin 2048) :
    val_main_v12 (F := Ideal) x wq wk (ix4 b h i j) = masked x wq wk b h i j := by
  rw [val_main_v12_apply, call1_v1_eq, call1_v2_eq, v9_eq_score]
  unfold masked
  by_cases hji : j ≤ i
  · rw [if_pos hji, if_pos hji]; exact select_one _ _
  · rw [if_neg hji, if_neg hji]; exact select_zero _ _

end Cert.CausalAttention.Ref
-- ==== Proof.RefMax.lean ====
/-
  The reference's row maximum, read at an index.

  A reduce with a maximum body over the key axis, started from the pattern of -∞, is the fold of the maximum from ⊥
  over the 2048 keys of the row; that fold is the supremum of the row. The reference then takes the maximum of that
  with a broadcast -∞ once more, which changes nothing (the maximum of ⊥ and M is M). So the entry (b, h, i) is the
  specification's `rowMax`.
-/
import proofs.«100367_j74028056313973_2_alg».proof.Proof.RefMask

noncomputable section

namespace Cert.CausalAttention.Ref

open Cert.ReferenceIdeal Cert.ReferenceIdeal.Gen Cert.ReferenceIdeal.Read Idealize.ShloMosaic Idealize.ShloMosaic.ValueIdx

/-- The fold of the maximum from ⊥ over a finite set is the supremum over it. -/
theorem fold_maximumf_eq_sup {ι : Type} [DecidableEq ι] (s : Finset ι) (f : ι → EReal) :
    s.fold (FloatOps.maximumf (F := Ideal) (φ := .f32)) (⊥ : EReal) f = s.sup f := by
  induction s using Finset.induction_on with
  | empty => rw [Finset.fold_empty, Finset.sup_empty]
  | insert a s ha ih => rw [Finset.fold_insert ha, Finset.sup_insert, ih]; rfl

/-- The key axis of the score array, dropped, leaves the [4, 16, 2048] array of rows. -/
theorem reduces_keys : S4x16x2048x2048.Reduces [3] S4x16x2048 := by decide

/-- Row (b, h, i) with key k put back is (b, h, i, k). -/
theorem lift_row (b : Fin 4) (h : Fin 16) (i : Fin 2048) (k : Fin (S4x16x2048x2048.size 3)) :
    reduces_keys.lift (ix3 b h i) k = ix4 b h i (⟨k.val, k.isLt⟩ : Fin 2048) := by
  funext c; apply Fin.ext
  fin_cases c <;> rfl

/-- The reduce's result at (b, h, i): the supremum of the row's masked scores. -/
theorem v13_eq (x : XT) (wq wk : WT) (b : Fin 4) (h : Fin 16) (i : Fin 2048) :
    val_main_v13 (F := Ideal) x wq wk (ix3 b h i) = rowMax x wq wk b h i := by
  unfold val_main_v13
  rw [Host.reduce_eq_fold_single FloatOps.maximumf _ _ reducesTo_S4x16x2048x2048_S4x16x2048_d3 reduces_keys h_S_,
    val_main_cst_1_apply, Ideal.ofBits_def, ofBits_neg_inf]
  have hf : (val_main_v12 (F := Ideal) x wq wk ∘ reduces_keys.lift (ix3 b h i))
      = fun k : Fin 2048 => masked x wq wk b h i k := funext fun k => by
    show val_main_v12 (F := Ideal) x wq wk (reduces_keys.lift (ix3 b h i) k) = _
    rw [lift_row, v12_eq_masked]
    rfl
  rw [hf]
  exact fold_maximumf_eq_sup _ _

/-- The row maximum after the second, idle maximum with -∞. -/
theorem v15_eq_rowMax (x : XT) (wq wk : WT) (b : Fin 4) (h : Fin 16) (i : Fin 2048) :
    val_main_v15 (F := Ideal) x wq wk (ix3 b h i) = rowMax x wq wk b h i := by
  rw [val_main_v15_apply, val_main_v14_apply, val_main_cst_2_apply, Ideal.ofBits_def, ofBits_neg_inf, v13_eq,
    Ideal.maximumf_def]
  exact max_eq_right bot_le

end Cert.CausalAttention.Ref
-- ==== Proof.RefWeight.lean ====
/-
  The reference's soft-max numerators, read at an index: the row maximum broadcast back over the keys, subtracted
  from the masked score, and exponentiated — at (b, h, i, j) the specification's `weight`.
-/
import proofs.«100367_j74028056313973_2_alg».proof.Proof.RefMax

noncomputable section

namespace Cert.CausalAttention.Ref

open Cert.ReferenceIdeal Cert.ReferenceIdeal.Gen Cert.ReferenceIdeal.Read Idealize.ShloMosaic Idealize.ShloMosaic.ValueIdx

/-- The row maximum, broadcast over the key axis, at (b, h, i, j). -/
theorem v17_eq_rowMax (x : XT) (wq wk : WT) (b : Fin 4) (h : Fin 16) (i j : Fin 2048) :
    val_main_v17 (F := Ideal) x wq wk (ix4 b h i j) = rowMax x wq wk b h i := by
  rw [val_main_v17_apply, val_main_v16_apply]
  have e : idx_main_v16 (idx_main_v17 (ix4 b h i j)) = ix3 b h i :=
    funext fun a => Fin.ext (by match a with | ⟨0, _⟩ => rfl | ⟨1, _⟩ => rfl | ⟨2, _⟩ => rfl)
  rw [e, v15_eq_rowMax]

/-- The soft-max numerator at (b, h, i, j). -/
theorem v19_eq_weight (x : XT) (wq wk : WT) (b : Fin 4) (h : Fin 16) (i j : Fin 2048) :
    val_main_v19 (F := Ideal) x wq wk (ix4 b h i j) = weight x wq wk b h i j := by
  rw [val_main_v19_apply, val_main_v18_apply, v12_eq_masked, v17_eq_rowMax, Ideal.hostUnary_exp_def, Ideal.subf_def]
  rfl

end Cert.CausalAttention.Ref
-- ==== Proof.RefHead.lean ====
/-
  The reference's head outputs, read at an index.

  The row's numerators are summed over the keys from the constant 0, the sum is broadcast back, each numerator is
  divided by it, and the quotients are contracted with the value projections over the keys: at (b, h, i, e) the
  specification's `head`.
-/
import proofs.«100367_j74028056313973_2_alg».proof.Proof.RefWeight

noncomputable section

open scoped BigOperators

namespace Cert.CausalAttention.Ref

open Cert.ReferenceIdeal Cert.ReferenceIdeal.Gen Cert.ReferenceIdeal.Read Idealize.ShloMosaic Idealize.ShloMosaic.ValueIdx

/-- The row's normaliser at (b, h, i): the sum of its numerators. -/
theorem v20_eq (x : XT) (wq wk : WT) (b : Fin 4) (h : Fin 16) (i : Fin 2048) :
    val_main_v20 (F := Ideal) x wq wk (ix3 b h i) = ∑ c : Fin 2048, weight x wq wk b h i c := by
  rw [val_main_v20_apply, val_main_cst_3_apply, Ideal.ofBits_def, Ideal.ofBits_zero_f32, zero_add]
  refine Finset.sum_congr rfl fun c _ => ?_
  have e : idx_main_v20 (ix3 b h i) c = ix4 b h i c :=
    funext fun a => Fin.ext (by match a with | ⟨0, _⟩ => rfl | ⟨1, _⟩ => rfl | ⟨2, _⟩ => rfl | ⟨3, _⟩ => rfl)
  rw [e, v19_eq_weight]

/-- The normaliser, broadcast over the key axis, at (b, h, i, j). -/
theorem v22_eq (x : XT) (wq wk : WT) (b : Fin 4) (h : Fin 16) (i j : Fin 2048) :
    val_main_v22 (F := Ideal) x wq wk (ix4 b h i j) = ∑ c : Fin 2048, weight x wq wk b h i c := by
  rw [val_main_v22_apply, val_main_v21_apply]
  have e : idx_main_v21 (idx_main_v22 (ix4 b h i j)) = ix3 b h i :=
    funext fun a => Fin.ext (by match a with | ⟨0, _⟩ => rfl | ⟨1, _⟩ => rfl | ⟨2, _⟩ => rfl)
  rw [e, v20_eq]

/-- The normalised soft-max weight at (b, h, i, j). -/
theorem v23_eq (x : XT) (wq wk : WT) (b : Fin 4) (h : Fin 16) (i j : Fin 2048) :
    val_main_v23 (F := Ideal) x wq wk (ix4 b h i j)
      = Ideal.div (weight x wq wk b h i j) (∑ c : Fin 2048, weight x wq wk b h i c) := by
  rw [val_main_v23_apply, v19_eq_weight, v22_eq, Ideal.hostDivf_def]

/-- The head output at (b, h, i, e). -/
theorem v24_eq_head (x : XT) (wq wk wv : WT) (b : Fin 4) (h : Fin 16) (i : Fin 2048) (e : Fin 64) :
    val_main_v24 (F := Ideal) x wq wk wv (ix4 b h i e) = head x wq wk wv b h i e := by
  rw [val_main_v24_apply]
  unfold head
  refine Finset.sum_congr rfl fun j _ => ?_
  have el : lidx_main_v24 (ix4 b h i e) j = ix4 b h i j :=
    funext fun a => Fin.ext (by match a with | ⟨0, _⟩ => rfl | ⟨1, _⟩ => rfl | ⟨2, _⟩ => rfl | ⟨3, _⟩ => rfl)
  have er : ridx_main_v24 (ix4 b h i e) j = ix4 b h j e :=
    funext fun a => Fin.ext (by match a with | ⟨0, _⟩ => rfl | ⟨1, _⟩ => rfl | ⟨2, _⟩ => rfl | ⟨3, _⟩ => rfl)
  rw [el, er, v23_eq, v5_eq_proj]

end Cert.CausalAttention.Ref
-- ==== Proof.RefSide.lean ====
/-
  The reference computes the specification.

  Its last two operations only move indices: a transpose from [batch, head, token, coordinate] to [batch, token, head,
  coordinate] and a reshape that merges the last two axes, so feature f of token (b, i) is coordinate f % 64 of head
  f / 64. With the head outputs read at an index this makes the reference's result array the specification's
  `attention` of the four argument arrays, and the reference's run ends with that array in its result buffer and
  with its arguments unchanged.
-/
import proofs.«100367_j74028056313973_2_alg».proof.Defs
import proofs.«100367_j74028056313973_2_alg».proof.Proof.Gen.Pre_finite_inputs
import proofs.«100367_j74028056313973_2_alg».proof.Proof.RefHead

noncomputable section

namespace Cert.CausalAttention.Ref

open Cert.ReferenceIdeal Cert.ReferenceIdeal.Gen Cert.ReferenceIdeal.Read Idealize.ShloMosaic Idealize.ShloMosaic.ValueIdx
  Idealize.ShloMosaic.TcCoe Idealize.SL.Sem

/-- The reference's result array is the specification of its four argument arrays. -/
theorem v26_eq_attention (x : XT) (wq wk wv : WT) :
    val_main_v26 (F := Ideal) x wq wk wv = attention x wq wk wv := by
  funext idx
  obtain ⟨b, i, f, rfl⟩ : ∃ (b : Fin 4) (i : Fin 2048) (f : Fin 1024), idx = ix3 b i f :=
    ⟨idx 0, idx 1, idx 2, eq_ix3 idx⟩
  rw [val_main_v26_apply, val_main_v25_apply, attention_ix3]
  have e : idx_main_v25 (idx_main_v26 (ix3 b i f))
      = ix4 b (⟨f.val / 64, by have := f.isLt; omega⟩ : Fin 16) i (⟨f.val % 64, Nat.mod_lt _ (by norm_num)⟩ : Fin 64) :=
    funext fun a => Fin.ext (by
      have hb := b.isLt; have hi := i.isLt; have hf := f.isLt
      match a with
      | ⟨0, _⟩ => show ((b.val * 2048 + i.val) * 1024 + f.val) / 2097152 = b.val; omega
      | ⟨1, _⟩ => show ((b.val * 2048 + i.val) * 1024 + f.val) / 64 % 16 = f.val / 64; omega
      | ⟨2, _⟩ => show ((b.val * 2048 + i.val) * 1024 + f.val) / 1024 % 2048 = i.val; omega
      | ⟨3, _⟩ => show ((b.val * 2048 + i.val) * 1024 + f.val) % 64 = f.val % 64; omega)
  rw [e, v24_eq_head]

/-- The reference terminates, faults nowhere and leaves its arguments unchanged: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

/-- From any memory, the reference's run ends with the specification of its argument arrays in the result buffer and
    with the four arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v26)
          = attention (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono
    (fun _ h c => ⟨(h c).1.trans ((val_main_v26_eq m' c).trans (v26_eq_attention _ _ _ _)), (h c).2⟩)
    (Cert.ReferenceIdeal.Value.run (F := Ideal) m' ρ')

end Cert.CausalAttention.Ref
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.RealInputs.lean ====
/-
  Under the precondition every entry of the four argument arrays is a real number.

  The printed precondition tests each argument in turn — absolute value below +∞ at every entry, reduced by "and" to
  one bit — and conjoins the four bits. Where the conjunction is 1 each of the four bits is 1, and a bit that is 1 says
  its argument has no infinite entry.
-/
import proofs.«100367_j74028056313973_2_alg».proof.Defs
import proofs.«100367_j74028056313973_2_alg».proof.Proof.Gen.Pre_finite_inputs
import proofs.«100367_j74028056313973_2_alg».proof.Proof.LibFiniteEntries

noncomputable section

namespace Cert.CausalAttention

open Idealize.ShloMosaic Idealize.ShloMosaic.ValueIdx Idealize.ShloMosaic.TcCoe Idealize.SL.Sem

/-- If the printed finiteness test of four arrays is 1, every entry of each is a real number. -/
theorem real_of_finite_inputs (a0 : FVec Ideal Cert.Pre_finite_inputs.S4x2048x1024 .f32)
    (a1 a2 a3 : FVec Ideal Cert.Pre_finite_inputs.S16x64x1024 .f32)
    (h : Cert.Pre_finite_inputs.fn (F := Ideal) a0 a1 a2 a3 = fun _ => 1#1) :
    (∀ i, ∃ v : ℝ, a0 i = v) ∧ (∀ i, ∃ v : ℝ, a1 i = v) ∧ (∀ i, ∃ v : ℝ, a2 i = v) ∧ (∀ i, ∃ v : ℝ, a3 i = v) := by
  have h0 := congrFun h ix0
  change IntOp.andi (IntOp.andi (IntOp.andi _ _) _) _ = 1#1 at h0
  obtain ⟨h012, e3⟩ := IntOp.andi_eq_one.1 h0
  obtain ⟨h01, e2⟩ := IntOp.andi_eq_one.1 h012
  obtain ⟨e0, e1⟩ := IntOp.andi_eq_one.1 h01
  exact ⟨Cert.LibFiniteEntries.real_entries_of_all_lt_inf a0 _ _ _ _ e0,
    Cert.LibFiniteEntries.real_entries_of_all_lt_inf a1 _ _ _ _ e1,
    Cert.LibFiniteEntries.real_entries_of_all_lt_inf a2 _ _ _ _ e2,
    Cert.LibFiniteEntries.real_entries_of_all_lt_inf a3 _ _ _ _ e3⟩

/-- Under the idealized kernel's precondition, on every device, each of the four argument buffers holds real numbers. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ v : ℝ, (m ((c.tc : Thread Cert.KernelIdeal.nD Cert.KernelIdeal.τ).loc Cert.KernelIdeal.main_arg0)
        : Cert.Pre_finite_inputs.S4x2048x1024.Idx → EReal) i = ((v : ℝ) : EReal))
    ∧ (∀ i, ∃ v : ℝ, (m ((c.tc : Thread Cert.KernelIdeal.nD Cert.KernelIdeal.τ).loc Cert.KernelIdeal.main_arg1)
        : Cert.Pre_finite_inputs.S16x64x1024.Idx → EReal) i = ((v : ℝ) : EReal))
    ∧ (∀ i, ∃ v : ℝ, (m ((c.tc : Thread Cert.KernelIdeal.nD Cert.KernelIdeal.τ).loc Cert.KernelIdeal.main_arg2)
        : Cert.Pre_finite_inputs.S16x64x1024.Idx → EReal) i = ((v : ℝ) : EReal))
    ∧ (∀ i, ∃ v : ℝ, (m ((c.tc : Thread Cert.KernelIdeal.nD Cert.KernelIdeal.τ).loc Cert.KernelIdeal.main_arg3)
        : Cert.Pre_finite_inputs.S16x64x1024.Idx → EReal) i = ((v : ℝ) : EReal)) :=
  real_of_finite_inputs _ _ _ _ (hpre c)

end Cert.CausalAttention
-- ==== Proof.AttnArray.lean ====
/-
  The attention region: from its blocks to whole arrays.

  A grid point t of the 4 × 8 × 4 grid is (batch b, head pair p, query tile sq), numbered row-major:
  t = 32·b + 4·p + sq. The query and output windows have blocks of 1 × 512 × 128 at block index (b, sq, p); the key
  and value windows have blocks of 1 × 2048 × 128 at block index (b, 0, p). A block's coordinate in its array is, on
  every axis, the block index times the block's size plus the coordinate inside the block. So element (0, r, f) of the
  query block at t is element (b, 512·sq + r, 128·p + f) of the query array, and element (0, j, f) of the key or value
  block is element (b, j, 128·p + f) of its array.

  The output window is written back at every point, and its 128 blocks tile the 4 × 2048 × 1024 result array: the
  element (b, i, g) lies in the block of the point (b, g / 128, i / 512). Hence, if at every point the body leaves in the
  output's staging buffer the restriction of ONE function G of the array's indices to the point's block, the array ends
  holding G.
-/
import proofs.«100367_j74028056313973_2_alg».proof.Proof.AttnFrame
import Idealize.ShloMosaic.Lib.Pipeline.Value
import Idealize.ShloMosaic.Lib.ValueIdx

set_option maxRecDepth 16384

noncomputable section

namespace Cert.KernelIdeal.AttnArray

open Cert.KernelIdeal Cert.KernelIdeal.Gen Cert.KernelIdeal.Attn
open Idealize.ShloMosaic Idealize.ShloMosaic.TcCoe Idealize.ShloMosaic.ValueIdx Idealize.SL.Sem
open Idealize.ShloMosaic.Pipeline (Dat)

variable {F : FTy → Type} [FloatOps F] [Named F]
variable (m : (ℓ : Loc nD τ sig) → Buf (Elt F) ℓ) (outs : Outs (F := F))

/-! ## A point's coordinates -/

theorem pt_lt (t : Fin cfg1.N) : t.val < 128 := lt_of_lt_of_eq t.isLt N_1

/-- The batch of point t. -/
def pB (t : Fin cfg1.N) : Fin 4 := ⟨t.val / 32, by have := pt_lt t; omega⟩
/-- The head pair of point t. -/
def pH (t : Fin cfg1.N) : Fin 8 := ⟨t.val / 4 % 8, by omega⟩
/-- The query tile of point t. -/
def pS (t : Fin cfg1.N) : Fin 4 := ⟨t.val % 4, by omega⟩

theorem pB_val (t : Fin cfg1.N) : (pB t).val = t.val / 32 := rfl
theorem pH_val (t : Fin cfg1.N) : (pH t).val = t.val / 4 % 8 := rfl
theorem pS_val (t : Fin cfg1.N) : (pS t).val = t.val % 4 := rfl

/-- The grid's own coordinates of a point are these (decided over the 128 points). -/
theorem coords_facts : ∀ t : Fin cfg1.N, (grid1.coords t 0).val = t.val / 32 ∧ (grid1.coords t 1).val = t.val / 4 % 8
    ∧ (grid1.coords t 2).val = t.val % 4 :=
  (by decide +kernel : ∀ t : Fin grid1.N, (grid1.coords t 0).val = t.val / 32 ∧ (grid1.coords t 1).val = t.val / 4 % 8
    ∧ (grid1.coords t 2).val = t.val % 4)

/-- The four windows' block indices at a point (decided over the 128 points): query and output at (b, sq, p), keys and
    values at (b, 0, p). -/
theorem index_facts : ∀ t : Fin cfg1.N,
    win1_0.index t (0 : Fin 3) = t.val / 32 ∧ win1_0.index t (1 : Fin 3) = t.val % 4 ∧ win1_0.index t (2 : Fin 3) = t.val / 4 % 8
    ∧ win1_1.index t (0 : Fin 3) = t.val / 32 ∧ win1_1.index t (1 : Fin 3) = 0 ∧ win1_1.index t (2 : Fin 3) = t.val / 4 % 8
    ∧ win1_2.index t (0 : Fin 3) = t.val / 32 ∧ win1_2.index t (1 : Fin 3) = 0 ∧ win1_2.index t (2 : Fin 3) = t.val / 4 % 8
    ∧ win1_3.index t (0 : Fin 3) = t.val / 32 ∧ win1_3.index t (1 : Fin 3) = t.val % 4 ∧ win1_3.index t (2 : Fin 3) = t.val / 4 % 8 :=
  (by decide +kernel : ∀ t : Fin grid1.N, _)

/-! ## The input blocks read at coordinates -/

/-- The query block at a point, at an index of the block, is the query array at the index whose coordinates are the
    block's offsets plus the index's. -/
theorem iblk_q_apply (c : Dev nD) (t : Fin cfg1.N) (y : S1x512x128.Idx) (k : S4x2048x1024.Idx)
    (hk0 : (k 0).val = t.val / 32) (hk1 : (k 1).val = 512 * (t.val % 4) + (y 1).val)
    (hk2 : (k 2).val = 128 * (t.val / 4 % 8) + (y 2).val) :
    (iblk m outs c 0 t : Vec F S1x512x128 .bf16) y = (V2 m outs c main_v6_0 : S4x2048x1024.Idx → Elt F .bf16) k := by
  obtain ⟨e0, e1, e2, -⟩ := index_facts t
  have hy0 : (y 0).val < 1 := (y 0).isLt
  unfold iblk
  rw [View.read_apply]
  show V2 m outs c main_v6_0 _ = V2 m outs c main_v6_0 _
  congr 1
  funext a
  apply Fin.ext
  match a with
  | ⟨0, _⟩ => show win1_0.index t (0 : Fin 3) * 1 + 1 * (y 0).val = (k 0).val; rw [e0, hk0]; omega
  | ⟨1, _⟩ => show win1_0.index t (1 : Fin 3) * 512 + 1 * (y 1).val = (k 1).val; rw [e1, hk1]; omega
  | ⟨2, _⟩ => show win1_0.index t (2 : Fin 3) * 128 + 1 * (y 2).val = (k 2).val; rw [e2, hk2]; omega

/-- The key block at a point, likewise: all 2048 keys of the point's batch, the head pair's 128 features. -/
theorem iblk_k_apply (c : Dev nD) (t : Fin cfg1.N) (y : S1x2048x128.Idx) (k : S4x2048x1024.Idx)
    (hk0 : (k 0).val = t.val / 32) (hk1 : (k 1).val = (y 1).val)
    (hk2 : (k 2).val = 128 * (t.val / 4 % 8) + (y 2).val) :
    (iblk m outs c 1 t : Vec F S1x2048x128 .bf16) y = (V2 m outs c main_v6_1 : S4x2048x1024.Idx → Elt F .bf16) k := by
  obtain ⟨-, -, -, e0, e1, e2, -⟩ := index_facts t
  have hy0 : (y 0).val < 1 := (y 0).isLt
  unfold iblk
  rw [View.read_apply]
  show V2 m outs c main_v6_1 _ = V2 m outs c main_v6_1 _
  congr 1
  funext a
  apply Fin.ext
  match a with
  | ⟨0, _⟩ => show win1_1.index t (0 : Fin 3) * 1 + 1 * (y 0).val = (k 0).val; rw [e0, hk0]; omega
  | ⟨1, _⟩ => show win1_1.index t (1 : Fin 3) * 2048 + 1 * (y 1).val = (k 1).val; rw [e1, hk1]; omega
  | ⟨2, _⟩ => show win1_1.index t (2 : Fin 3) * 128 + 1 * (y 2).val = (k 2).val; rw [e2, hk2]; omega

/-- The value block at a point, likewise. -/
theorem iblk_v_apply (c : Dev nD) (t : Fin cfg1.N) (y : S1x2048x128.Idx) (k : S4x2048x1024.Idx)
    (hk0 : (k 0).val = t.val / 32) (hk1 : (k 1).val = (y 1).val)
    (hk2 : (k 2).val = 128 * (t.val / 4 % 8) + (y 2).val) :
    (iblk m outs c 2 t : Vec F S1x2048x128 .bf16) y = (V2 m outs c main_v6_2 : S4x2048x1024.Idx → Elt F .bf16) k := by
  obtain ⟨-, -, -, -, -, -, e0, e1, e2, -⟩ := index_facts t
  have hy0 : (y 0).val < 1 := (y 0).isLt
  unfold iblk
  rw [View.read_apply]
  show V2 m outs c main_v6_2 _ = V2 m outs c main_v6_2 _
  congr 1
  funext a
  apply Fin.ext
  match a with
  | ⟨0, _⟩ => show win1_2.index t (0 : Fin 3) * 1 + 1 * (y 0).val = (k 0).val; rw [e0, hk0]; omega
  | ⟨1, _⟩ => show win1_2.index t (1 : Fin 3) * 2048 + 1 * (y 1).val = (k 1).val; rw [e1, hk1]; omega
  | ⟨2, _⟩ => show win1_2.index t (2 : Fin 3) * 128 + 1 * (y 2).val = (k 2).val; rw [e2, hk2]; omega

/-- Row 512·sq + r of the sequence, for r inside query tile sq. -/
def qRow (t : Fin cfg1.N) (r : Fin 512) : Fin 2048 := ⟨512 * (t.val % 4) + r.val, by have := r.isLt; omega⟩
/-- Feature 128·p + f of the model, for f inside head pair p. -/
def pFeat (t : Fin cfg1.N) (f : Fin 128) : Fin 1024 := ⟨128 * (t.val / 4 % 8) + f.val, by have := f.isLt; omega⟩

theorem qRow_val (t : Fin cfg1.N) (r : Fin 512) : (qRow t r).val = 512 * (pS t).val + r.val := rfl
theorem pFeat_val (t : Fin cfg1.N) (f : Fin 128) : (pFeat t f).val = 128 * (pH t).val + f.val := rfl

/-- Element (0, r, f) of the query block at point (b, p, sq) is element (b, 512·sq + r, 128·p + f) of the query array. -/
theorem iblk_q (c : Dev nD) (t : Fin cfg1.N) (r : Fin 512) (f : Fin 128) :
    (iblk m outs c 0 t : Vec F S1x512x128 .bf16) (ix3 0 r f)
      = (V2 m outs c main_v6_0 : S4x2048x1024.Idx → Elt F .bf16) (ix3 (pB t) (qRow t r) (pFeat t f)) :=
  iblk_q_apply m outs c t (ix3 0 r f) (ix3 (pB t) (qRow t r) (pFeat t f)) rfl rfl rfl

/-- Element (0, j, f) of the key block at point (b, p, sq) is element (b, j, 128·p + f) of the key array. -/
theorem iblk_k (c : Dev nD) (t : Fin cfg1.N) (j : Fin 2048) (f : Fin 128) :
    (iblk m outs c 1 t : Vec F S1x2048x128 .bf16) (ix3 0 j f)
      = (V2 m outs c main_v6_1 : S4x2048x1024.Idx → Elt F .bf16) (ix3 (pB t) j (pFeat t f)) :=
  iblk_k_apply m outs c t (ix3 0 j f) (ix3 (pB t) j (pFeat t f)) rfl rfl rfl

/-- Element (0, j, f) of the value block at point (b, p, sq) is element (b, j, 128·p + f) of the value array. -/
theorem iblk_v (c : Dev nD) (t : Fin cfg1.N) (j : Fin 2048) (f : Fin 128) :
    (iblk m outs c 2 t : Vec F S1x2048x128 .bf16) (ix3 0 j f)
      = (V2 m outs c main_v6_2 : S4x2048x1024.Idx → Elt F .bf16) (ix3 (pB t) j (pFeat t f)) :=
  iblk_v_apply m outs c t (ix3 0 j f) (ix3 (pB t) j (pFeat t f)) rfl rfl rfl

/-! ## The output blocks tile the result array -/

/-- Where an element of the output block at a point sits in the result array: element (0, r, f) of the block at
    point (b, p, sq) is element (b, 512·sq + r, 128·p + f). -/
theorem out_emb (t : Fin cfg1.N) (y : S1x512x128.Idx) :
    ((cfg1.win 3).blk t).view.emb y = ix3 (pB t) (qRow t (y 1)) (pFeat t (y 2)) := by
  obtain ⟨-, -, -, -, -, -, -, -, -, e0, e1, e2⟩ := index_facts t
  have hy0 : (y 0).val < 1 := (y 0).isLt
  funext a
  apply Fin.ext
  match a with
  | ⟨0, _⟩ => show win1_3.index t (0 : Fin 3) * 1 + 1 * (y 0).val = t.val / 32; rw [e0]; omega
  | ⟨1, _⟩ => show win1_3.index t (1 : Fin 3) * 512 + 1 * (y 1).val = 512 * (t.val % 4) + (y 1).val; rw [e1]; omega
  | ⟨2, _⟩ => show win1_3.index t (2 : Fin 3) * 128 + 1 * (y 2).val = 128 * (t.val / 4 % 8) + (y 2).val; rw [e2]; omega

/-- An index of the block is (0, r, f). -/
theorem blk_idx (y : S1x512x128.Idx) : y = ix3 (0 : Fin 1) (y 1) (y 2) := by
  have hy0 : (y 0).val < 1 := (y 0).isLt
  have h0 : y 0 = (0 : Fin 1) := Fin.ext (Nat.lt_one_iff.mp hy0)
  exact (eq_ix3 y).trans (by rw [h0]; rfl)

/-- What a point writes back is its block of G, when the body leaves that block in the output's staging buffer. -/
theorem flushed_eq (c : Dev nD) (G : S4x2048x1024.Idx → Elt F .f32)
    (hG : ∀ (t : Fin cfg1.N) (y : S1x512x128.Idx), outAt m outs c t y = G (((cfg1.win 3).blk t).view.emb y))
    (t : Fin cfg1.N) :
    (dat m outs c).flushed 3 t = ((cfg1.win 3).blk t).view.read (Elt F) G := by
  show (cfg1.win 3).cut (grid1.coords t) ((dat m outs c).after 3 t) = _
  rw [after_3]
  funext y
  exact hG t y

/-- An index of the result array is in a point's block iff each coordinate is in the block's range on its axis. -/
theorem mem_out_blk (t : Fin cfg1.N) (i : S4x2048x1024.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v7).slice (win1_3.rect t)).set ↔ _
  rw [View.set_slice_whole, Rect.mem_set_unit]
  exact Iff.rfl

/-- Every index of the result array is in the block of a point that writes back: element (b, i, g) in that of the
    point (b, g / 128, i / 512). -/
theorem out_cover (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hN : 32 * (i 0).val + 4 * ((i 2).val / 128) + (i 1).val / 512 < cfg1.N := by
    rw [show cfg1.N = 128 from N_1]; omega
  obtain ⟨t, ht⟩ : ∃ t : Fin cfg1.N, t.val = 32 * (i 0).val + 4 * ((i 2).val / 128) + (i 1).val / 512 := ⟨⟨_, hN⟩, rfl⟩
  obtain ⟨-, -, -, -, -, -, -, -, -, e0, e1, e2⟩ := index_facts t
  refine ⟨t, flush1_3 t, ?_⟩
  rw [mem_out_blk]
  intro a
  match a with
  | ⟨0, _⟩ =>
    show win1_3.index t (0 : Fin 3) * 1 ≤ (i 0).val ∧ (i 0).val < win1_3.index t (0 : Fin 3) * 1 + 1
    rw [e0, ht]; omega
  | ⟨1, _⟩ =>
    show win1_3.index t (1 : Fin 3) * 512 ≤ (i 1).val ∧ (i 1).val < win1_3.index t (1 : Fin 3) * 512 + 512
    rw [e1, ht]; omega
  | ⟨2, _⟩ =>
    show win1_3.index t (2 : Fin 3) * 128 ≤ (i 2).val ∧ (i 2).val < win1_3.index t (2 : Fin 3) * 128 + 128
    rw [e2, ht]; omega

/-- THE RESULT ARRAY after the region: G, when at every point the body leaves in the output's staging buffer the
    restriction of G to the point's block (the block's elements placed by the window's own embedding). -/
theorem arr_of_blocks_emb (c : Dev nD) (G : S4x2048x1024.Idx → Elt F .f32)
    (hG : ∀ (t : Fin cfg1.N) (y : S1x512x128.Idx), outAt m outs c t y = G (((cfg1.win 3).blk t).view.emb y)) :
    (dat m outs c).arrAt 3 cfg1.N = G :=
  (dat m outs c).arrAt_eq_of_cover 3 G (fun t _ => flushed_eq m outs c G hG t) out_cover

/-- The same with the block's elements placed by coordinates: (0, r, f) at point (b, p, sq) is (b, 512·sq + r, 128·p + f). -/
theorem arr_of_blocks (c : Dev nD) (G : S4x2048x1024.Idx → Elt F .f32)
    (hG : ∀ (t : Fin cfg1.N) (r : Fin 512) (f : Fin 128),
      outAt m outs c t (ix3 0 r f) = G (ix3 (pB t) (qRow t r) (pFeat t f))) :
    (dat m outs c).arrAt 3 cfg1.N = G :=
  arr_of_blocks_emb m outs c G fun t y => by
    rw [out_emb]
    exact (congrArg (outAt m outs c t) (blk_idx y)).trans (hG t (y 1) (y 2))

end Cert.KernelIdeal.AttnArray

end
-- ==== Proof.QkvValue2.lean ====
/-
  The arrays the projection kernel's windows are cut from, as the region finds them, at an index.

  Before the region the host reshapes each [16, 64, 1024] weight (16 heads of 64 output coordinates) to a
  1024 × 1024 matrix and changes its float format. A reshape keeps the row-major position, so row f of the matrix is
  output coordinate f % 64 of head f / 64; a change of format is the identity at the ideal values. The input x is
  written by no host operation, so the region finds the launch contents.
-/
import proofs.«100367_j74028056313973_2_alg».proof.Proof.Gen.KernelIdeal.Regions
import Idealize.ShloMosaic.Lib.ValueLayout

noncomputable section

namespace Cert.KernelIdeal.QkvValue

open Cert.KernelIdeal
open Idealize.ShloMosaic Idealize.ShloMosaic.TcCoe Idealize.ShloMosaic.ValueIdx

variable (m : (ℓ : Loc nD τ sig) → Buf (Elt Ideal) ℓ)

/-- Head `f / 64` of a feature `f < 1024`. -/
abbrev headOf (f : Fin 1024) : Fin 16 := ⟨f.val / 64, by have := f.isLt; omega⟩
/-- Coordinate `f % 64` inside that head. -/
abbrev coordOf (f : Fin 1024) : Fin 64 := ⟨f.val % 64, Nat.mod_lt _ (by norm_num)⟩

/-- A [16, 64, 1024] array reshaped to 1024 × 1024, with the format changed, read at (f, d): the operand at
    (f / 64, f % 64, d), the index with the same row-major position. -/
theorem reshaped_apply (w : FVec Ideal S16x64x1024 .f32) (f d : Fin 1024) :
    (truncf .bf16 (shapeCast S1024x1024 w Facts₀.shapeCasts_S16x64x1024_S1024x1024) Facts₀.bitsLt_bf16_f32 : FVec Ideal S1024x1024 .bf16) (ix2 f d)
      = w (ix3 (headOf f) (coordOf f) d) := by
  rw [truncf_apply]
  refine shapeCast_apply w _ (ix2 f d) (ix3 (headOf f) (coordOf f) d) ?_
  rw [Shape.rowMajor_val_three, Shape.rowMajor_val_two]
  show ((f.val / 64) * 64 + f.val % 64) * 1024 + d.val = f.val * 1024 + d.val
  have := Nat.div_add_mod f.val 64
  omega

/-- The first weight matrix as the region finds it: the reshape and format change of the launch's first weight. -/
theorem V1_main_v1 (c : Dev nD) :
    (Gen.V1 (F := Ideal) m c main_v1 : FVec Ideal S1024x1024 .bf16)
      = (truncf (F := Ideal) .bf16 (shapeCast S1024x1024 (m ((c : Thread nD τ).loc main_arg1) : FVec Ideal S16x64x1024 .f32) Facts₀.shapeCasts_S16x64x1024_S1024x1024) Facts₀.bitsLt_bf16_f32 : FVec Ideal S1024x1024 .bf16) := by
  dsimp only [Gen.V1, Gen.hostOps0]
  after_results
  rfl

/-- The second, of the launch's second weight, -/
theorem V1_main_v3 (c : Dev nD) :
    (Gen.V1 (F := Ideal) m c main_v3 : FVec Ideal S1024x1024 .bf16)
      = (truncf (F := Ideal) .bf16 (shapeCast S1024x1024 (m ((c : Thread nD τ).loc main_arg2) : FVec Ideal S16x64x1024 .f32) Facts₀.shapeCasts_S16x64x1024_S1024x1024) Facts₀.bitsLt_bf16_f32 : FVec Ideal S1024x1024 .bf16) := by
  dsimp only [Gen.V1, Gen.hostOps0]
  after_results
  rfl

/-- and the third, of the launch's third weight. -/
theorem V1_main_v5 (c : Dev nD) :
    (Gen.V1 (F := Ideal) m c main_v5 : FVec Ideal S1024x1024 .bf16)
      = (truncf (F := Ideal) .bf16 (shapeCast S1024x1024 (m ((c : Thread nD τ).loc main_arg3) : FVec Ideal S16x64x1024 .f32) Facts₀.shapeCasts_S16x64x1024_S1024x1024) Facts₀.bitsLt_bf16_f32 : FVec Ideal S1024x1024 .bf16) := by
  dsimp only [Gen.V1, Gen.hostOps0]
  after_results
  rfl

/-- Row f of the first weight matrix is coordinate f % 64 of head f / 64 of the launch's first weight. -/
theorem V1_main_v1_apply (c : Dev nD) (f d : Fin 1024) :
    (Gen.V1 (F := Ideal) m c main_v1 : FVec Ideal S1024x1024 .bf16) (ix2 f d)
      = (m ((c : Thread nD τ).loc main_arg1) : FVec Ideal S16x64x1024 .f32) (ix3 (headOf f) (coordOf f) d) := by
  rw [V1_main_v1]
  exact reshaped_apply _ f d

theorem V1_main_v3_apply (c : Dev nD) (f d : Fin 1024) :
    (Gen.V1 (F := Ideal) m c main_v3 : FVec Ideal S1024x1024 .bf16) (ix2 f d)
      = (m ((c : Thread nD τ).loc main_arg2) : FVec Ideal S16x64x1024 .f32) (ix3 (headOf f) (coordOf f) d) := by
  rw [V1_main_v3]
  exact reshaped_apply _ f d

theorem V1_main_v5_apply (c : Dev nD) (f d : Fin 1024) :
    (Gen.V1 (F := Ideal) m c main_v5 : FVec Ideal S1024x1024 .bf16) (ix2 f d)
      = (m ((c : Thread nD τ).loc main_arg3) : FVec Ideal S16x64x1024 .f32) (ix3 (headOf f) (coordOf f) d) := by
  rw [V1_main_v5]
  exact reshaped_apply _ f d

/-- No host operation writes x: the region finds the launch contents. -/
theorem V1_main_arg0 (c : Dev nD) : Gen.V1 (F := Ideal) m c main_arg0 = m ((c : Thread nD τ).loc main_arg0) :=
  Gen.V1_of m c main_arg0 (by decide)

end Cert.KernelIdeal.QkvValue

end
-- ==== Proof.LibOnlineSoftmax.lean ====
/-
  The online softmax of one attention row, on the extended reals.

  A row of scores is met tile by tile. Before tile k the row carries a running maximum m_k, a running normalizer l_k and,
  for one output column, a running weighted sum a_k of that column's values; tile k replaces them by

      m_{k+1} = max m_k (max of the tile's scores),
      l_{k+1} = exp (m_k − m_{k+1}) · l_k + ∑_c exp (s_{k,c} − m_{k+1}),
      a_{k+1} = exp (m_k − m_{k+1}) · a_k + ∑_c exp (s_{k,c} − m_{k+1}) · v_{k,c},

  starting from m_0 = −∞, l_0 = a_0 = 0. When every score and value is a real number, then after n ≥ 1 tiles m_n is a
  real number and

      l_n = (∑_{k<n} ∑_c exp s_{k,c}) / exp m_n ,      a_n = (∑_{k<n} ∑_c exp s_{k,c} · v_{k,c}) / exp m_n :

  by induction, since exp (m − m') · (L / exp m) = L / exp m' and exp (s − m') = exp s / exp m'; the first tile is the same
  computation with exp (−∞ − m') · 0 = 0. So a_n / l_n is the softmax-weighted mean ∑ exp s · v / ∑ exp s, whatever the
  maxima were. The textbook form — subtract the row's maximum M, exponentiate, divide by the sum, then weight the values —
  is the same mean for the same reason (exp (s − M) = exp s / exp M cancels in the quotient). A sum over 4·1024 columns is
  the double sum over 4 tiles of 1024 columns.
-/
import Idealize.ShloMosaic.PureOps.Ideal
import Idealize.ShloMosaic.PureOps.Ideal.Laws

noncomputable section

open scoped BigOperators

namespace Cert.OnlineSoftmax

open Idealize.ShloMosaic

variable {W : Nat}

/-- The greatest score of a tile, folded from the starting value. -/
def tileMax (ninf : EReal) (σ : Fin W → EReal) : EReal := (Finset.univ : Finset (Fin W)).fold max ninf σ

/-- The running maximum before tile k. -/
def mSt (ninf : EReal) (σ : ℕ → Fin W → EReal) : ℕ → EReal
  | 0 => ninf
  | k + 1 => max (mSt ninf σ k) (tileMax ninf (σ k))

/-- The running normalizer before tile k. -/
def lSt (ninf z : EReal) (σ : ℕ → Fin W → EReal) : ℕ → EReal
  | 0 => z
  | k + 1 => Ideal.exp (mSt ninf σ k - mSt ninf σ (k + 1)) * lSt ninf z σ k
      + ∑ c : Fin W, Ideal.exp (σ k c - mSt ninf σ (k + 1))

/-- The running weighted sum of one output column before tile k. -/
def aSt (ninf z : EReal) (σ ν : ℕ → Fin W → EReal) : ℕ → EReal
  | 0 => z
  | k + 1 => Ideal.exp (mSt ninf σ k - mSt ninf σ (k + 1)) * aSt ninf z σ ν k
      + ∑ c : Fin W, Ideal.exp (σ k c - mSt ninf σ (k + 1)) * ν k c

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals, folded from −∞ over a nonempty index type, is a real number. -/
theorem fold_max_real {ι : Type*} [Fintype ι] [Nonempty ι] (f : ι → ℝ) :
    ∃ r : ℝ, (Finset.univ : Finset ι).fold max (⊥ : EReal) (fun k => (f k : EReal)) = r := by
  have hlt : (Finset.univ : Finset ι).fold max (⊥ : EReal) (fun k => (f k : EReal)) < ⊤ := by
    rw [Finset.fold_max_lt]
    exact ⟨bot_lt_top, fun k _ => EReal.coe_lt_top _⟩
  have hgt : (⊥ : EReal) < (Finset.univ : Finset ι).fold max (⊥ : EReal) (fun k => (f k : EReal)) := by
    rw [Finset.lt_fold_max]
    obtain ⟨k⟩ := ‹Nonempty ι›
    exact Or.inr ⟨k, Finset.mem_univ k, EReal.bot_lt_coe _⟩
  exact ⟨_, (EReal.coe_toReal hlt.ne hgt.ne').symm⟩

/-- One tile, for real scores and values: from a row state that is either the start (−∞, 0, 0) or real with
    l = L / exp m and a = A / exp m, the next state is real with the tile's terms added to L and A. -/
theorem step_real [NeZero W] (σr νr : Fin W → ℝ) (m l a : EReal) (L A : ℝ)
    (h : (m = ⊥ ∧ l = 0 ∧ a = 0 ∧ L = 0 ∧ A = 0)
      ∨ ∃ mr : ℝ, m = mr ∧ l = ((L / Real.exp mr : ℝ) : EReal) ∧ a = ((A / Real.exp mr : ℝ) : EReal)) :
    ∃ mr' : ℝ, max m (tileMax ⊥ (fun c => (σr c : EReal))) = mr'
      ∧ Ideal.exp (m - mr') * l + ∑ c : Fin W, Ideal.exp ((σr c : EReal) - mr')
          = (((L + ∑ c : Fin W, Real.exp (σr c)) / Real.exp mr' : ℝ) : EReal)
      ∧ Ideal.exp (m - mr') * a + ∑ c : Fin W, Ideal.exp ((σr c : EReal) - mr') * (νr c : EReal)
          = (((A + ∑ c : Fin W, Real.exp (σr c) * νr c) / Real.exp mr' : ℝ) : EReal) := by
  haveI : Nonempty (Fin W) := ⟨⟨0, Nat.pos_of_ne_zero (NeZero.ne W)⟩⟩
  obtain ⟨tm, htm⟩ := fold_max_real σr
  have hsum1 : ∀ mr' : ℝ, ∑ c : Fin W, Ideal.exp ((σr c : EReal) - mr')
      = ((∑ c : Fin W, Real.exp (σr c) / Real.exp mr' : ℝ) : EReal) := fun mr' => by
    rw [← coe_sum]
    refine Finset.sum_congr rfl fun c _ => ?_
    rw [← EReal.coe_sub, Ideal.exp_coe, Real.exp_sub]
  have hsum2 : ∀ mr' : ℝ, ∑ c : Fin W, Ideal.exp ((σr c : EReal) - mr') * (νr c : EReal)
      = ((∑ c : Fin W, Real.exp (σr c) * νr c / Real.exp mr' : ℝ) : EReal) := fun mr' => by
    rw [← coe_sum]
    refine Finset.sum_congr rfl fun c _ => ?_
    rw [← EReal.coe_sub, Ideal.exp_coe, Real.exp_sub, ← EReal.coe_mul]
    congr 1; ring
  rcases h with ⟨rfl, rfl, rfl, rfl, rfl⟩ | ⟨mr, rfl, rfl, rfl⟩
  · refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · refine ⟨max mr tm, ?_, ?_, ?_⟩
    · unfold tileMax; rw [htm]; exact (EReal.coe_strictMono.monotone.map_max (a := mr) (b := tm)).symm
    · rw [hsum1, ← EReal.coe_sub, Ideal.exp_coe, ← EReal.coe_mul, ← EReal.coe_add, Real.exp_sub, add_div,
        Finset.sum_div]
      congr 2
      field_simp
    · rw [hsum2, ← EReal.coe_sub, Ideal.exp_coe, ← EReal.coe_mul, ← EReal.coe_add, Real.exp_sub, add_div,
        Finset.sum_div]
      congr 2
      field_simp

/-- After n ≥ 1 tiles of real scores and values the running maximum is real, and the normalizer and the weighted sum are
    the plain sums of exponentials divided by its exponential. -/
theorem state_real [NeZero W] (σr νr : ℕ → Fin W → ℝ) (n : ℕ) :
    ∃ mr : ℝ, mSt ⊥ (fun k c => (σr k c : EReal)) (n + 1) = mr
      ∧ lSt ⊥ 0 (fun k c => (σr k c : EReal)) (n + 1)
          = (((∑ k ∈ Finset.range (n + 1), ∑ c : Fin W, Real.exp (σr k c)) / Real.exp mr : ℝ) : EReal)
      ∧ aSt ⊥ 0 (fun k c => (σr k c : EReal)) (fun k c => (νr k c : EReal)) (n + 1)
          = (((∑ k ∈ Finset.range (n + 1), ∑ c : Fin W, Real.exp (σr k c) * νr k c) / Real.exp mr : ℝ) : EReal) := by
  induction n with
  | zero =>
    obtain ⟨mr', h1, h2, h3⟩ := step_real (σr 0) (νr 0) ⊥ 0 0 0 0 (Or.inl ⟨rfl, rfl, rfl, rfl, rfl⟩)
    refine ⟨mr', h1, ?_, ?_⟩
    · show Ideal.exp (⊥ - max ⊥ (tileMax ⊥ fun c => (σr 0 c : EReal))) * 0 + ∑ c : Fin W, Ideal.exp ((σr 0 c : EReal) - max ⊥ (tileMax ⊥ fun c => (σr 0 c : EReal))) = _
      rw [h1, h2, Finset.sum_range_one, zero_add]
    · show Ideal.exp (⊥ - max ⊥ (tileMax ⊥ fun c => (σr 0 c : EReal))) * 0 + ∑ c : Fin W, Ideal.exp ((σr 0 c : EReal) - max ⊥ (tileMax ⊥ fun c => (σr 0 c : EReal))) * (νr 0 c : EReal) = _
      rw [h1, h3, Finset.sum_range_one, zero_add]
  | succ n ih =>
    obtain ⟨mr, hm, hl, ha⟩ := ih
    obtain ⟨mr', h1, h2, h3⟩ := step_real (σr (n + 1)) (νr (n + 1)) _ _ _ _ _ (Or.inr ⟨mr, hm, hl, ha⟩)
    refine ⟨mr', h1, ?_, ?_⟩
    · show Ideal.exp (mSt ⊥ _ (n + 1) - max (mSt ⊥ _ (n + 1)) (tileMax ⊥ fun c => (σr (n + 1) c : EReal))) * lSt ⊥ 0 _ (n + 1) + ∑ c : Fin W, Ideal.exp ((σr (n + 1) c : EReal) - max (mSt ⊥ _ (n + 1)) (tileMax ⊥ fun c => (σr (n + 1) c : EReal))) = _
      rw [h1, h2, Finset.sum_range_succ _ (n + 1)]
    · show Ideal.exp (mSt ⊥ _ (n + 1) - max (mSt ⊥ _ (n + 1)) (tileMax ⊥ fun c => (σr (n + 1) c : EReal))) * aSt ⊥ 0 _ _ (n + 1) + ∑ c : Fin W, Ideal.exp ((σr (n + 1) c : EReal) - max (mSt ⊥ _ (n + 1)) (tileMax ⊥ fun c => (σr (n + 1) c : EReal))) * (νr (n + 1) c : EReal) = _
      rw [h1, h3, Finset.sum_range_succ _ (n + 1)]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The online result: after n ≥ 1 tiles of real scores and values, weighted sum over normalizer is the softmax-weighted mean. -/
theorem online_quotient [NeZero W] (σr νr : ℕ → Fin W → ℝ) (n : ℕ) :
    Ideal.div (aSt ⊥ 0 (fun k c => (σr k c : EReal)) (fun k c => (νr k c : EReal)) (n + 1))
        (lSt ⊥ 0 (fun k c => (σr k c : EReal)) (n + 1))
      = (((∑ k ∈ Finset.range (n + 1), ∑ c : Fin W, Real.exp (σr k c) * νr k c)
          / (∑ k ∈ Finset.range (n + 1), ∑ c : Fin W, Real.exp (σr k c)) : ℝ) : EReal) := by
  obtain ⟨mr, -, hl, ha⟩ := state_real σr νr n
  have hpos : 0 < ∑ k ∈ Finset.range (n + 1), ∑ c : Fin W, Real.exp (σr k c) :=
    Finset.sum_pos (fun k _ => Finset.sum_pos (fun c _ => Real.exp_pos _)
      ⟨⟨0, Nat.pos_of_ne_zero (NeZero.ne W)⟩, Finset.mem_univ _⟩) ⟨0, Finset.mem_range.mpr (Nat.succ_pos n)⟩
  rw [hl, ha, div_coe_coe _ _ (div_ne_zero hpos.ne' (Real.exp_pos mr).ne')]
  congr 1
  field_simp

/-- The textbook form: for a nonempty row of real scores and real values, subtracting the row's maximum (taken once
    more against −∞), exponentiating, dividing by zero plus the sum, and weighting the values gives the same mean. -/
theorem textbook_quotient {ι : Type*} [Fintype ι] [Nonempty ι] (sr vr : ι → ℝ) :
    ∑ j : ι, Ideal.div (Ideal.exp ((sr j : EReal) - max ⊥ ((Finset.univ : Finset ι).fold max ⊥ fun j => (sr j : EReal))))
        (0 + ∑ j' : ι, Ideal.exp ((sr j' : EReal) - max ⊥ ((Finset.univ : Finset ι).fold max ⊥ fun j => (sr j : EReal))))
        * (vr j : EReal)
      = (((∑ j : ι, Real.exp (sr j) * vr j) / (∑ j : ι, Real.exp (sr j)) : ℝ) : EReal) := by
  obtain ⟨M, hM⟩ := fold_max_real sr
  have hpos : 0 < ∑ j : ι, Real.exp (sr j) :=
    Finset.sum_pos (fun j _ => Real.exp_pos _) (Finset.univ_nonempty)
  have hden : (0 : EReal) + ∑ j' : ι, Ideal.exp ((sr j' : EReal) - (M : EReal))
      = (((∑ j : ι, Real.exp (sr j)) / Real.exp M : ℝ) : EReal) := by
    rw [zero_add, Finset.sum_div, ← coe_sum]
    refine Finset.sum_congr rfl fun j _ => ?_
    rw [← EReal.coe_sub, Ideal.exp_coe, Real.exp_sub]
  rw [hM, max_eq_right bot_le, hden]
  refine ((Finset.sum_congr rfl fun j _ => ?_).trans
    (coe_sum Finset.univ (fun j => Real.exp (sr j) * vr j / ∑ j, Real.exp (sr j)))).trans (by rw [Finset.sum_div])
  rw [← EReal.coe_sub, Ideal.exp_coe, div_coe_coe _ _ (div_ne_zero hpos.ne' (Real.exp_pos M).ne'), ← EReal.coe_mul,
    Real.exp_sub]
  congr 1
  field_simp

/-- Column c of tile k among 4 · 1024 columns. -/
abbrev col (k : ℕ) (c : Fin 1024) : Fin 4096 := ⟨(1024 * k + c.val) % 4096, Nat.mod_lt _ (by decide)⟩

/-- A sum over the 4096 columns is the sum over the 4 tiles of the sums over a tile's 1024 columns. -/
theorem sum_cols (g : Fin 4096 → ℝ) :
    ∑ j : Fin 4096, g j = ∑ k ∈ Finset.range 4, ∑ c : Fin 1024, g (col k c) := by
  rw [Finset.sum_range (fun k => ∑ c : Fin 1024, g (col k c)), ← Equiv.sum_comp (finProdFinEquiv (m := 4) (n := 1024)),
    Fintype.sum_prod_type]
  refine Finset.sum_congr rfl fun k _ => Finset.sum_congr rfl fun c _ => congrArg g (Fin.ext ?_)
  have hk := k.isLt; have hc := c.isLt
  show c.val + 1024 * k.val = (1024 * k.val + c.val) % 4096
  omega

end Cert.OnlineSoftmax

end
-- ==== Proof.LibMaskedSoftmax.lean ====
/-
  The online and the textbook softmax of an attention row whose scores may be masked, on the extended reals.

  A masked score is −∞; every other score is a real number. Write E z for the real number exp z, with E (−∞) = 0.
  For a real m, exp (z − m) = E z / exp m for every such z: a masked key weighs nothing. Hence the laws of a row of
  real scores carry over with E in place of exp, as long as the maximum is a real number — which holds from the first
  tile on as soon as the first tile has an unmasked score:

      l_n = (∑_{k<n} ∑_c E s_{k,c}) / exp m_n ,      a_n = (∑_{k<n} ∑_c E s_{k,c} · v_{k,c}) / exp m_n ,

  so a_n / l_n and the textbook form both are ∑ E s · v / ∑ E s.
-/
import proofs.«100367_j74028056313973_2_alg».proof.Proof.LibOnlineSoftmax

noncomputable section

open scoped BigOperators

namespace Cert.MaskedSoftmax

open Idealize.ShloMosaic Cert.OnlineSoftmax

/-- exp z as a real number; 0 at −∞. -/
def E (z : EReal) : ℝ := (Ideal.exp z).toReal

theorem E_bot : E ⊥ = 0 := by unfold E; rw [Ideal.exp_bot]; rfl

theorem E_coe (r : ℝ) : E (r : EReal) = Real.exp r := by unfold E; rw [Ideal.exp_coe]; rfl

/-- A score: masked (−∞) or a real number. -/
def Score (z : EReal) : Prop := z = ⊥ ∨ ∃ r : ℝ, z = (r : EReal)

theorem Score.bot : Score ⊥ := Or.inl rfl
theorem Score.coe (r : ℝ) : Score (r : EReal) := Or.inr ⟨r, rfl⟩

theorem E_nonneg (z : EReal) (hz : Score z) : 0 ≤ E z := by
  rcases hz with rfl | ⟨r, rfl⟩
  · rw [E_bot]
  · rw [E_coe]; exact (Real.exp_pos r).le

theorem E_pos (r : ℝ) : 0 < E (r : EReal) := by rw [E_coe]; exact Real.exp_pos r

/-- Against a real maximum, a score's weight is its E over the maximum's exponential. -/
theorem exp_sub (z : EReal) (hz : Score z) (m : ℝ) :
    Ideal.exp (z - (m : EReal)) = ((E z / Real.exp m : ℝ) : EReal) := by
  rcases hz with rfl | ⟨r, rfl⟩
  · rw [EReal.bot_sub, Ideal.exp_bot, E_bot, zero_div, EReal.coe_zero]
  · rw [← EReal.coe_sub, Ideal.exp_coe, E_coe, Real.exp_sub]

/-- The greatest of finitely many scores, folded from −∞, is a score; -/
theorem fold_max_score {ι : Type*} (s : Finset ι) (f : ι → EReal) (hf : ∀ j, Score (f j)) :
    Score (s.fold max (⊥ : EReal) f) := by
  classical
  induction s using Finset.induction_on with
  | empty => rw [Finset.fold_empty]; exact Score.bot
  | insert a s ha ih =>
    rw [Finset.fold_insert ha]
    rcases le_total (f a) (s.fold max ⊥ f) with h | h
    · rw [max_eq_right h]; exact ih
    · rw [max_eq_left h]; exact hf a

/-- and a real number as soon as one of them is. -/
theorem fold_max_real_of {ι : Type*} [Fintype ι] (f : ι → EReal) (hf : ∀ j, Score (f j)) (j0 : ι) (r0 : ℝ)
    (h0 : f j0 = (r0 : EReal)) : ∃ r : ℝ, (Finset.univ : Finset ι).fold max (⊥ : EReal) f = (r : EReal) := by
  rcases fold_max_score Finset.univ f hf with h | h
  · exfalso
    have : (⊥ : EReal) < (Finset.univ : Finset ι).fold max (⊥ : EReal) f := by
      rw [Finset.lt_fold_max]
      exact Or.inr ⟨j0, Finset.mem_univ _, by rw [h0]; exact EReal.bot_lt_coe _⟩
    rw [h] at this; exact lt_irrefl _ this
  · exact h

variable {W : Nat}

/-- One tile of scores (masked or real) and real values: from a row state that is either the start (−∞, 0, 0) met by a
    tile with an unmasked score, or real with l = L / exp m and a = A / exp m, the next state is real with the tile's
    terms added to L and A. -/
theorem step (σ : Fin W → EReal) (hσ : ∀ c, Score (σ c)) (νr : Fin W → ℝ) (m l a : EReal) (L A : ℝ)
    (h : (m = ⊥ ∧ l = 0 ∧ a = 0 ∧ L = 0 ∧ A = 0 ∧ ∃ (c0 : Fin W) (r0 : ℝ), σ c0 = (r0 : EReal))
      ∨ ∃ mr : ℝ, m = mr ∧ l = ((L / Real.exp mr : ℝ) : EReal) ∧ a = ((A / Real.exp mr : ℝ) : EReal)) :
    ∃ mr' : ℝ, max m (tileMax ⊥ σ) = mr'
      ∧ Ideal.exp (m - mr') * l + ∑ c : Fin W, Ideal.exp (σ c - mr')
          = (((L + ∑ c : Fin W, E (σ c)) / Real.exp mr' : ℝ) : EReal)
      ∧ Ideal.exp (m - mr') * a + ∑ c : Fin W, Ideal.exp (σ c - mr') * (νr c : EReal)
          = (((A + ∑ c : Fin W, E (σ c) * νr c) / Real.exp mr' : ℝ) : EReal) := by
  have hsum1 : ∀ mr' : ℝ, ∑ c : Fin W, Ideal.exp (σ c - mr')
      = ((∑ c : Fin W, E (σ c) / Real.exp mr' : ℝ) : EReal) := fun mr' => by
    rw [← coe_sum]
    exact Finset.sum_congr rfl fun c _ => exp_sub (σ c) (hσ c) mr'
  have hsum2 : ∀ mr' : ℝ, ∑ c : Fin W, Ideal.exp (σ c - mr') * (νr c : EReal)
      = ((∑ c : Fin W, E (σ c) * νr c / Real.exp mr' : ℝ) : EReal) := fun mr' => by
    rw [← coe_sum]
    refine Finset.sum_congr rfl fun c _ => ?_
    rw [exp_sub (σ c) (hσ c) mr', ← EReal.coe_mul]
    congr 1; ring
  rcases h with ⟨rfl, rfl, rfl, rfl, rfl, c0, r0, h0⟩ | ⟨mr, rfl, rfl, rfl⟩
  · obtain ⟨tm, htm⟩ := fold_max_real_of σ hσ c0 r0 h0
    refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · rcases fold_max_score Finset.univ σ hσ with hb | ⟨tm, htm⟩
    · refine ⟨mr, ?_, ?_, ?_⟩
      · unfold tileMax; rw [hb]; exact max_eq_left bot_le
      · rw [hsum1, ← EReal.coe_sub, Ideal.exp_coe, ← EReal.coe_mul, ← EReal.coe_add, sub_self, Real.exp_zero, one_mul,
          add_div, Finset.sum_div]
      · rw [hsum2, ← EReal.coe_sub, Ideal.exp_coe, ← EReal.coe_mul, ← EReal.coe_add, sub_self, Real.exp_zero, one_mul,
          add_div, Finset.sum_div]
    · refine ⟨max mr tm, ?_, ?_, ?_⟩
      · unfold tileMax; rw [htm]; exact (EReal.coe_strictMono.monotone.map_max (a := mr) (b := tm)).symm
      · rw [hsum1, ← EReal.coe_sub, Ideal.exp_coe, ← EReal.coe_mul, ← EReal.coe_add, Real.exp_sub, add_div,
          Finset.sum_div]
        congr 2
        field_simp
      · rw [hsum2, ← EReal.coe_sub, Ideal.exp_coe, ← EReal.coe_mul, ← EReal.coe_add, Real.exp_sub, add_div,
          Finset.sum_div]
        congr 2
        field_simp

/-- After n ≥ 1 tiles of scores (masked or real; the first tile with an unmasked score) and real values, the running
    maximum is real, and the normalizer and the weighted sum are the plain sums of E divided by its exponential. -/
theorem state (σ : ℕ → Fin W → EReal) (hσ : ∀ k c, Score (σ k c)) (νr : ℕ → Fin W → ℝ)
    (c0 : Fin W) (r0 : ℝ) (h0 : σ 0 c0 = (r0 : EReal)) (n : ℕ) :
    ∃ mr : ℝ, mSt ⊥ σ (n + 1) = mr
      ∧ lSt ⊥ 0 σ (n + 1)
          = (((∑ k ∈ Finset.range (n + 1), ∑ c : Fin W, E (σ k c)) / Real.exp mr : ℝ) : EReal)
      ∧ aSt ⊥ 0 σ (fun k c => (νr k c : EReal)) (n + 1)
          = (((∑ k ∈ Finset.range (n + 1), ∑ c : Fin W, E (σ k c) * νr k c) / Real.exp mr : ℝ) : EReal) := by
  induction n with
  | zero =>
    obtain ⟨mr', h1, h2, h3⟩ := step (σ 0) (hσ 0) (νr 0) ⊥ 0 0 0 0 (Or.inl ⟨rfl, rfl, rfl, rfl, rfl, c0, r0, h0⟩)
    refine ⟨mr', h1, ?_, ?_⟩
    · show Ideal.exp (⊥ - max ⊥ (tileMax ⊥ (σ 0))) * 0 + ∑ c : Fin W, Ideal.exp (σ 0 c - max ⊥ (tileMax ⊥ (σ 0))) = _
      rw [h1, h2, Finset.sum_range_one, zero_add]
    · show Ideal.exp (⊥ - max ⊥ (tileMax ⊥ (σ 0))) * 0 + ∑ c : Fin W, Ideal.exp (σ 0 c - max ⊥ (tileMax ⊥ (σ 0))) * (νr 0 c : EReal) = _
      rw [h1, h3, Finset.sum_range_one, zero_add]
  | succ n ih =>
    obtain ⟨mr, hm, hl, ha⟩ := ih
    obtain ⟨mr', h1, h2, h3⟩ := step (σ (n + 1)) (hσ (n + 1)) (νr (n + 1)) _ _ _ _ _ (Or.inr ⟨mr, hm, hl, ha⟩)
    refine ⟨mr', h1, ?_, ?_⟩
    · show Ideal.exp (mSt ⊥ σ (n + 1) - max (mSt ⊥ σ (n + 1)) (tileMax ⊥ (σ (n + 1)))) * lSt ⊥ 0 σ (n + 1) + ∑ c : Fin W, Ideal.exp (σ (n + 1) c - max (mSt ⊥ σ (n + 1)) (tileMax ⊥ (σ (n + 1)))) = _
      rw [h1, h2, Finset.sum_range_succ _ (n + 1)]
    · show Ideal.exp (mSt ⊥ σ (n + 1) - max (mSt ⊥ σ (n + 1)) (tileMax ⊥ (σ (n + 1)))) * aSt ⊥ 0 σ _ (n + 1) + ∑ c : Fin W, Ideal.exp (σ (n + 1) c - max (mSt ⊥ σ (n + 1)) (tileMax ⊥ (σ (n + 1)))) * (νr (n + 1) c : EReal) = _
      rw [h1, h3, Finset.sum_range_succ _ (n + 1)]

/-- The online result: weighted sum over normalizer is the E-weighted mean of the values. -/
theorem online_quotient (σ : ℕ → Fin W → EReal) (hσ : ∀ k c, Score (σ k c)) (νr : ℕ → Fin W → ℝ)
    (c0 : Fin W) (r0 : ℝ) (h0 : σ 0 c0 = (r0 : EReal)) (n : ℕ) :
    Ideal.div (aSt ⊥ 0 σ (fun k c => (νr k c : EReal)) (n + 1)) (lSt ⊥ 0 σ (n + 1))
      = (((∑ k ∈ Finset.range (n + 1), ∑ c : Fin W, E (σ k c) * νr k c)
          / (∑ k ∈ Finset.range (n + 1), ∑ c : Fin W, E (σ k c)) : ℝ) : EReal) := by
  obtain ⟨mr, -, hl, ha⟩ := state σ hσ νr c0 r0 h0 n
  have hpos : 0 < ∑ k ∈ Finset.range (n + 1), ∑ c : Fin W, E (σ k c) := by
    refine lt_of_lt_of_le ?_ (Finset.single_le_sum (f := fun k => ∑ c : Fin W, E (σ k c))
      (fun k _ => Finset.sum_nonneg fun c _ => E_nonneg _ (hσ k c)) (Finset.mem_range.mpr (Nat.succ_pos n)))
    refine lt_of_lt_of_le ?_ (Finset.single_le_sum (f := fun c => E (σ 0 c))
      (fun c _ => E_nonneg _ (hσ 0 c)) (Finset.mem_univ c0))
    rw [h0]; exact E_pos r0
  rw [hl, ha, div_coe_coe _ _ (div_ne_zero hpos.ne' (Real.exp_pos mr).ne')]
  congr 1
  field_simp

/-- The textbook form for a row of scores (masked or real, one of them real) and real values. -/
theorem textbook_quotient {ι : Type*} [Fintype ι] (z : ι → EReal) (hz : ∀ j, Score (z j)) (vr : ι → ℝ)
    (j0 : ι) (r0 : ℝ) (h0 : z j0 = (r0 : EReal)) :
    ∑ j : ι, Ideal.div (Ideal.exp (z j - max ⊥ ((Finset.univ : Finset ι).fold max ⊥ z)))
        (0 + ∑ j' : ι, Ideal.exp (z j' - max ⊥ ((Finset.univ : Finset ι).fold max ⊥ z)))
        * (vr j : EReal)
      = (((∑ j : ι, E (z j) * vr j) / (∑ j : ι, E (z j)) : ℝ) : EReal) := by
  obtain ⟨M, hM⟩ := fold_max_real_of z hz j0 r0 h0
  have hpos : 0 < ∑ j : ι, E (z j) := by
    refine lt_of_lt_of_le ?_ (Finset.single_le_sum (f := fun j => E (z j))
      (fun j _ => E_nonneg _ (hz j)) (Finset.mem_univ j0))
    rw [h0]; exact E_pos r0
  have hden : (0 : EReal) + ∑ j' : ι, Ideal.exp (z j' - (M : EReal))
      = (((∑ j : ι, E (z j)) / Real.exp M : ℝ) : EReal) := by
    rw [zero_add, Finset.sum_div, ← coe_sum]
    exact Finset.sum_congr rfl fun j _ => exp_sub (z j) (hz j) M
  rw [hM, max_eq_right bot_le, hden]
  refine ((Finset.sum_congr rfl fun j _ => ?_).trans
    (coe_sum Finset.univ (fun j => E (z j) * vr j / ∑ j, E (z j)))).trans (by rw [Finset.sum_div])
  rw [exp_sub (z j) (hz j) M, div_coe_coe _ _ (div_ne_zero hpos.ne' (Real.exp_pos M).ne'), ← EReal.coe_mul]
  congr 1
  field_simp

end Cert.MaskedSoftmax

end
-- ==== Proof.TiledRows.lean ====
/-
  One causal attention row met tile by tile, against the textbook masked softmax of the whole row.

  The row has 2048 keys in 4 tiles of 512. The query sits at position i = 512·sq + r. A key at position p counts iff
  p ≤ i; a key that does not count has score −∞. The tiles 0, …, sq are met in order — each of them holds its key 0,
  which counts — and tile τ replaces the running maximum m, normalizer l and weighted sum a of one value column by

      m' = max m (max over the tile, folded from −∞),
      l' = exp (m − m') · l + (0 + ∑_c exp (σ_c − m')),
      a' = exp (m − m') · a + ∑_c exp (σ_c − m') · ν_c,

  from (−∞, 0, 0). Up to the neutral 0 + this is the recursion whose value after n ≥ 1 tiles is known: a / l is the
  mean of the values weighted by E σ, where E z = exp z and E (−∞) = 0. The textbook form subtracts a real number M from
  every score before exponentiating; whatever real M is, exp (z − M) = E z / exp M and exp M cancels in the quotient,
  so it is the same weighted mean over all 2048 keys. The two means agree because a sum over 2048 keys is the double
  sum over tiles and columns, and every key of a tile after sq weighs E (−∞) = 0.
-/
import proofs.«100367_j74028056313973_2_alg».proof.Proof.LibMaskedSoftmax

noncomputable section

open scoped BigOperators

namespace Cert.CausalAttention.Tiles

open Idealize.ShloMosaic Cert.OnlineSoftmax Cert.MaskedSoftmax

/-! ### The update of one tile and the state after n tiles -/

section Recursion

variable {W : Nat}

/-- The running maximum after a tile with scores σ. -/
def mNext (m : EReal) (σ : Fin W → EReal) : EReal :=
  max m ((Finset.univ : Finset (Fin W)).fold max ⊥ σ)

/-- The running normalizer after a tile with scores σ. -/
def lNext (m l : EReal) (σ : Fin W → EReal) : EReal :=
  Ideal.exp (m - mNext m σ) * l + (0 + ∑ c : Fin W, Ideal.exp (σ c - mNext m σ))

/-- The running weighted sum of one value column after a tile with scores σ and values ν. -/
def aNext (m a : EReal) (σ ν : Fin W → EReal) : EReal :=
  Ideal.exp (m - mNext m σ) * a + ∑ c : Fin W, Ideal.exp (σ c - mNext m σ) * ν c

/-- The running maximum after n tiles. -/
def mT (σ : ℕ → Fin W → EReal) : ℕ → EReal
  | 0 => ⊥
  | k + 1 => mNext (mT σ k) (σ k)

/-- The running normalizer after n tiles. -/
def lT (σ : ℕ → Fin W → EReal) : ℕ → EReal
  | 0 => 0
  | k + 1 => lNext (mT σ k) (lT σ k) (σ k)

/-- The running weighted sum after n tiles. -/
def aT (σ ν : ℕ → Fin W → EReal) : ℕ → EReal
  | 0 => 0
  | k + 1 => aNext (mT σ k) (aT σ ν k) (σ k) (ν k)

theorem mNext_def (m : EReal) (σ : Fin W → EReal) :
    mNext m σ = max m ((Finset.univ : Finset (Fin W)).fold max ⊥ σ) := rfl

theorem lNext_def (m l : EReal) (σ : Fin W → EReal) :
    lNext m l σ = Ideal.exp (m - max m ((Finset.univ : Finset (Fin W)).fold max ⊥ σ)) * l
      + (0 + ∑ c : Fin W, Ideal.exp (σ c - max m ((Finset.univ : Finset (Fin W)).fold max ⊥ σ))) := rfl

theorem aNext_def (m a : EReal) (σ ν : Fin W → EReal) :
    aNext m a σ ν = Ideal.exp (m - max m ((Finset.univ : Finset (Fin W)).fold max ⊥ σ)) * a
      + ∑ c : Fin W, Ideal.exp (σ c - max m ((Finset.univ : Finset (Fin W)).fold max ⊥ σ)) * ν c := rfl

theorem mT_zero (σ : ℕ → Fin W → EReal) : mT σ 0 = ⊥ := rfl
theorem lT_zero (σ : ℕ → Fin W → EReal) : lT σ 0 = 0 := rfl
theorem aT_zero (σ ν : ℕ → Fin W → EReal) : aT σ ν 0 = 0 := rfl

theorem mT_succ (σ : ℕ → Fin W → EReal) (k : ℕ) :
    mT σ (k + 1) = max (mT σ k) ((Finset.univ : Finset (Fin W)).fold max ⊥ (σ k)) := rfl

theorem lT_succ (σ : ℕ → Fin W → EReal) (k : ℕ) :
    lT σ (k + 1) = Ideal.exp (mT σ k - mT σ (k + 1)) * lT σ k
      + (0 + ∑ c : Fin W, Ideal.exp (σ k c - mT σ (k + 1))) := rfl

theorem aT_succ (σ ν : ℕ → Fin W → EReal) (k : ℕ) :
    aT σ ν (k + 1) = Ideal.exp (mT σ k - mT σ (k + 1)) * aT σ ν k
      + ∑ c : Fin W, Ideal.exp (σ k c - mT σ (k + 1)) * ν k c := rfl

/-- The state after n tiles depends on the first n tiles only. -/
theorem mT_congr {σ σ' : ℕ → Fin W → EReal} (n : ℕ) (h : ∀ k, k < n → σ k = σ' k) : mT σ n = mT σ' n := by
  induction n with
  | zero => rfl
  | succ n ih =>
    rw [mT_succ, mT_succ, ih fun k hk => h k (Nat.lt_succ_of_lt hk), h n (Nat.lt_succ_self n)]

theorem lT_congr {σ σ' : ℕ → Fin W → EReal} (n : ℕ) (h : ∀ k, k < n → σ k = σ' k) : lT σ n = lT σ' n := by
  induction n with
  | zero => rfl
  | succ n ih =>
    rw [lT_succ, lT_succ, ih fun k hk => h k (Nat.lt_succ_of_lt hk), mT_congr (n + 1) h,
      mT_congr n fun k hk => h k (Nat.lt_succ_of_lt hk), h n (Nat.lt_succ_self n)]

theorem aT_congr {σ σ' ν ν' : ℕ → Fin W → EReal} (n : ℕ) (h : ∀ k, k < n → σ k = σ' k)
    (hν : ∀ k, k < n → ν k = ν' k) : aT σ ν n = aT σ' ν' n := by
  induction n with
  | zero => rfl
  | succ n ih =>
    rw [aT_succ, aT_succ, ih (fun k hk => h k (Nat.lt_succ_of_lt hk)) (fun k hk => hν k (Nat.lt_succ_of_lt hk)),
      mT_congr (n + 1) h, mT_congr n fun k hk => h k (Nat.lt_succ_of_lt hk), h n (Nat.lt_succ_self n),
      hν n (Nat.lt_succ_self n)]

/-- Any three sequences that start at (−∞, 0, 0) and obey the tile update for the first n tiles are the state. -/
theorem of_steps (σ ν : ℕ → Fin W → EReal) (m l a : ℕ → EReal) (n : ℕ)
    (hm0 : m 0 = ⊥) (hl0 : l 0 = 0) (ha0 : a 0 = 0)
    (hm : ∀ k, k < n → m (k + 1) = mNext (m k) (σ k))
    (hl : ∀ k, k < n → l (k + 1) = lNext (m k) (l k) (σ k))
    (ha : ∀ k, k < n → a (k + 1) = aNext (m k) (a k) (σ k) (ν k)) :
    m n = mT σ n ∧ l n = lT σ n ∧ a n = aT σ ν n := by
  induction n with
  | zero => exact ⟨hm0, hl0, ha0⟩
  | succ n ih =>
    obtain ⟨h1, h2, h3⟩ := ih (fun k hk => hm k (Nat.lt_succ_of_lt hk)) (fun k hk => hl k (Nat.lt_succ_of_lt hk))
      (fun k hk => ha k (Nat.lt_succ_of_lt hk))
    refine ⟨?_, ?_, ?_⟩
    · rw [hm n (Nat.lt_succ_self n), h1]; rfl
    · rw [hl n (Nat.lt_succ_self n), h1, h2]; rfl
    · rw [ha n (Nat.lt_succ_self n), h1, h3]; rfl

/-- The recursion is the known one: the extra 0 + in the normalizer is neutral. -/
theorem mT_eq (σ : ℕ → Fin W → EReal) (n : ℕ) : mT σ n = mSt ⊥ σ n := by
  induction n with
  | zero => rfl
  | succ n ih =>
    show max (mT σ n) (tileMax ⊥ (σ n)) = max (mSt ⊥ σ n) (tileMax ⊥ (σ n))
    rw [ih]

theorem lT_eq (σ : ℕ → Fin W → EReal) (n : ℕ) : lT σ n = lSt ⊥ 0 σ n := by
  induction n with
  | zero => rfl
  | succ n ih =>
    show Ideal.exp (mT σ n - mT σ (n + 1)) * lT σ n + (0 + ∑ c : Fin W, Ideal.exp (σ n c - mT σ (n + 1)))
      = Ideal.exp (mSt ⊥ σ n - mSt ⊥ σ (n + 1)) * lSt ⊥ 0 σ n + ∑ c : Fin W, Ideal.exp (σ n c - mSt ⊥ σ (n + 1))
    rw [ih, mT_eq, mT_eq, zero_add]

theorem aT_eq (σ ν : ℕ → Fin W → EReal) (n : ℕ) : aT σ ν n = aSt ⊥ 0 σ ν n := by
  induction n with
  | zero => rfl
  | succ n ih =>
    show Ideal.exp (mT σ n - mT σ (n + 1)) * aT σ ν n + ∑ c : Fin W, Ideal.exp (σ n c - mT σ (n + 1)) * ν n c
      = Ideal.exp (mSt ⊥ σ n - mSt ⊥ σ (n + 1)) * aSt ⊥ 0 σ ν n
        + ∑ c : Fin W, Ideal.exp (σ n c - mSt ⊥ σ (n + 1)) * ν n c
    rw [ih, mT_eq, mT_eq]

/-! The state after one, two, three and four tiles, written out. -/

theorem mT_one (σ : ℕ → Fin W → EReal) :
    mT σ 1 = max ⊥ ((Finset.univ : Finset (Fin W)).fold max ⊥ (σ 0)) := rfl

theorem mT_two (σ : ℕ → Fin W → EReal) :
    mT σ 2 = max (max ⊥ ((Finset.univ : Finset (Fin W)).fold max ⊥ (σ 0)))
      ((Finset.univ : Finset (Fin W)).fold max ⊥ (σ 1)) := rfl

theorem mT_three (σ : ℕ → Fin W → EReal) :
    mT σ 3 = max (max (max ⊥ ((Finset.univ : Finset (Fin W)).fold max ⊥ (σ 0)))
      ((Finset.univ : Finset (Fin W)).fold max ⊥ (σ 1))) ((Finset.univ : Finset (Fin W)).fold max ⊥ (σ 2)) := rfl

theorem mT_four (σ : ℕ → Fin W → EReal) :
    mT σ 4 = max (max (max (max ⊥ ((Finset.univ : Finset (Fin W)).fold max ⊥ (σ 0)))
      ((Finset.univ : Finset (Fin W)).fold max ⊥ (σ 1))) ((Finset.univ : Finset (Fin W)).fold max ⊥ (σ 2)))
      ((Finset.univ : Finset (Fin W)).fold max ⊥ (σ 3)) := rfl

theorem lT_one (σ : ℕ → Fin W → EReal) :
    lT σ 1 = Ideal.exp (⊥ - mT σ 1) * 0 + (0 + ∑ c : Fin W, Ideal.exp (σ 0 c - mT σ 1)) := rfl

theorem lT_two (σ : ℕ → Fin W → EReal) :
    lT σ 2 = Ideal.exp (mT σ 1 - mT σ 2) * lT σ 1 + (0 + ∑ c : Fin W, Ideal.exp (σ 1 c - mT σ 2)) := rfl

theorem lT_three (σ : ℕ → Fin W → EReal) :
    lT σ 3 = Ideal.exp (mT σ 2 - mT σ 3) * lT σ 2 + (0 + ∑ c : Fin W, Ideal.exp (σ 2 c - mT σ 3)) := rfl

theorem lT_four (σ : ℕ → Fin W → EReal) :
    lT σ 4 = Ideal.exp (mT σ 3 - mT σ 4) * lT σ 3 + (0 + ∑ c : Fin W, Ideal.exp (σ 3 c - mT σ 4)) := rfl

theorem aT_one (σ ν : ℕ → Fin W → EReal) :
    aT σ ν 1 = Ideal.exp (⊥ - mT σ 1) * 0 + ∑ c : Fin W, Ideal.exp (σ 0 c - mT σ 1) * ν 0 c := rfl

theorem aT_two (σ ν : ℕ → Fin W → EReal) :
    aT σ ν 2 = Ideal.exp (mT σ 1 - mT σ 2) * aT σ ν 1 + ∑ c : Fin W, Ideal.exp (σ 1 c - mT σ 2) * ν 1 c := rfl

theorem aT_three (σ ν : ℕ → Fin W → EReal) :
    aT σ ν 3 = Ideal.exp (mT σ 2 - mT σ 3) * aT σ ν 2 + ∑ c : Fin W, Ideal.exp (σ 2 c - mT σ 3) * ν 2 c := rfl

theorem aT_four (σ ν : ℕ → Fin W → EReal) :
    aT σ ν 4 = Ideal.exp (mT σ 3 - mT σ 4) * aT σ ν 3 + ∑ c : Fin W, Ideal.exp (σ 3 c - mT σ 4) * ν 3 c := rfl

/-! Named intermediate values that obey the update tile after tile are the state: one to four tiles. -/

theorem of_one (σ ν : ℕ → Fin W → EReal) (m1 l1 a1 : EReal)
    (hm1 : m1 = mNext ⊥ (σ 0)) (hl1 : l1 = lNext ⊥ 0 (σ 0)) (ha1 : a1 = aNext ⊥ 0 (σ 0) (ν 0)) :
    m1 = mT σ 1 ∧ l1 = lT σ 1 ∧ a1 = aT σ ν 1 := by
  subst hm1 hl1 ha1; exact ⟨rfl, rfl, rfl⟩

theorem of_two (σ ν : ℕ → Fin W → EReal) (m1 l1 a1 m2 l2 a2 : EReal)
    (hm1 : m1 = mNext ⊥ (σ 0)) (hl1 : l1 = lNext ⊥ 0 (σ 0)) (ha1 : a1 = aNext ⊥ 0 (σ 0) (ν 0))
    (hm2 : m2 = mNext m1 (σ 1)) (hl2 : l2 = lNext m1 l1 (σ 1)) (ha2 : a2 = aNext m1 a1 (σ 1) (ν 1)) :
    m2 = mT σ 2 ∧ l2 = lT σ 2 ∧ a2 = aT σ ν 2 := by
  subst hm1 hl1 ha1 hm2 hl2 ha2; exact ⟨rfl, rfl, rfl⟩

theorem of_three (σ ν : ℕ → Fin W → EReal) (m1 l1 a1 m2 l2 a2 m3 l3 a3 : EReal)
    (hm1 : m1 = mNext ⊥ (σ 0)) (hl1 : l1 = lNext ⊥ 0 (σ 0)) (ha1 : a1 = aNext ⊥ 0 (σ 0) (ν 0))
    (hm2 : m2 = mNext m1 (σ 1)) (hl2 : l2 = lNext m1 l1 (σ 1)) (ha2 : a2 = aNext m1 a1 (σ 1) (ν 1))
    (hm3 : m3 = mNext m2 (σ 2)) (hl3 : l3 = lNext m2 l2 (σ 2)) (ha3 : a3 = aNext m2 a2 (σ 2) (ν 2)) :
    m3 = mT σ 3 ∧ l3 = lT σ 3 ∧ a3 = aT σ ν 3 := by
  subst hm1 hl1 ha1 hm2 hl2 ha2 hm3 hl3 ha3; exact ⟨rfl, rfl, rfl⟩

theorem of_four (σ ν : ℕ → Fin W → EReal) (m1 l1 a1 m2 l2 a2 m3 l3 a3 m4 l4 a4 : EReal)
    (hm1 : m1 = mNext ⊥ (σ 0)) (hl1 : l1 = lNext ⊥ 0 (σ 0)) (ha1 : a1 = aNext ⊥ 0 (σ 0) (ν 0))
    (hm2 : m2 = mNext m1 (σ 1)) (hl2 : l2 = lNext m1 l1 (σ 1)) (ha2 : a2 = aNext m1 a1 (σ 1) (ν 1))
    (hm3 : m3 = mNext m2 (σ 2)) (hl3 : l3 = lNext m2 l2 (σ 2)) (ha3 : a3 = aNext m2 a2 (σ 2) (ν 2))
    (hm4 : m4 = mNext m3 (σ 3)) (hl4 : l4 = lNext m3 l3 (σ 3)) (ha4 : a4 = aNext m3 a3 (σ 3) (ν 3)) :
    m4 = mT σ 4 ∧ l4 = lT σ 4 ∧ a4 = aT σ ν 4 := by
  subst hm1 hl1 ha1 hm2 hl2 ha2 hm3 hl3 ha3 hm4 hl4 ha4; exact ⟨rfl, rfl, rfl⟩

end Recursion

/-! ### The textbook form against any real number in place of the maximum -/

/-- For a row of scores (masked or real, one of them real) and real values: subtract a real number M, exponentiate,
    divide by the sum, weight the values. The result is the E-weighted mean, whatever M is. -/
theorem textbook_real {ι : Type*} [Fintype ι] (z : ι → EReal) (hz : ∀ j, Score (z j)) (vr : ι → ℝ)
    (j0 : ι) (r0 : ℝ) (h0 : z j0 = (r0 : EReal)) (M : ℝ) :
    ∑ j : ι, Ideal.div (Ideal.exp (z j - (M : EReal))) (∑ j' : ι, Ideal.exp (z j' - (M : EReal))) * (vr j : EReal)
      = (((∑ j : ι, E (z j) * vr j) / (∑ j : ι, E (z j)) : ℝ) : EReal) := by
  have hpos : 0 < ∑ j : ι, E (z j) := by
    refine lt_of_lt_of_le ?_ (Finset.single_le_sum (f := fun j => E (z j))
      (fun j _ => E_nonneg _ (hz j)) (Finset.mem_univ j0))
    rw [h0]; exact E_pos r0
  have hden : ∑ j' : ι, Ideal.exp (z j' - (M : EReal))
      = (((∑ j : ι, E (z j)) / Real.exp M : ℝ) : EReal) := by
    rw [Finset.sum_div, ← coe_sum]
    exact Finset.sum_congr rfl fun j _ => exp_sub (z j) (hz j) M
  rw [hden]
  refine ((Finset.sum_congr rfl fun j _ => ?_).trans
    (coe_sum Finset.univ (fun j => E (z j) * vr j / ∑ j, E (z j)))).trans (by rw [Finset.sum_div])
  rw [exp_sub (z j) (hz j) M, div_coe_coe _ _ (div_ne_zero hpos.ne' (Real.exp_pos M).ne'), ← EReal.coe_mul]
  congr 1
  field_simp

/-! ### 2048 keys as 4 tiles of 512 -/

/-- Key c of tile τ. -/
abbrev key (τ : ℕ) (c : Fin 512) : Fin 2048 := ⟨(512 * τ + c.val) % 2048, Nat.mod_lt _ (by decide)⟩

theorem key_val (τ : ℕ) (hτ : τ < 4) (c : Fin 512) : (key τ c).val = 512 * τ + c.val := by
  have hc := c.isLt
  show (512 * τ + c.val) % 2048 = 512 * τ + c.val
  omega

/-- Key c of one of the four tiles, with its position written out. -/
theorem key_eq (τ : ℕ) (hτ : τ < 4) (c : Fin 512) (hlt : 512 * τ + c.val < 2048) :
    key τ c = ⟨512 * τ + c.val, hlt⟩ := Fin.ext (key_val τ hτ c)

/-- A sum over the 2048 keys is the sum over the 4 tiles of the sums over a tile's 512 keys. -/
theorem sum_keys (g : Fin 2048 → ℝ) :
    ∑ j : Fin 2048, g j = ∑ k ∈ Finset.range 4, ∑ c : Fin 512, g (key k c) := by
  rw [Finset.sum_range (fun k => ∑ c : Fin 512, g (key k c)), ← Equiv.sum_comp (finProdFinEquiv (m := 4) (n := 512)),
    Fintype.sum_prod_type]
  refine Finset.sum_congr rfl fun k _ => Finset.sum_congr rfl fun c _ => congrArg g (Fin.ext ?_)
  have hk := k.isLt; have hc := c.isLt
  show c.val + 512 * k.val = (512 * k.val + c.val) % 2048
  omega

/-! ### The causal row -/

/-- The row's scores for the query at position i: a key after the query is masked. -/
def rowScores (s : Fin 2048 → ℝ) (i : ℕ) (j : Fin 2048) : EReal := if j.val ≤ i then (s j : EReal) else ⊥

/-- The same scores, tile by tile. -/
def tileScores (s : Fin 2048 → ℝ) (i : ℕ) (τ : ℕ) (c : Fin 512) : EReal :=
  if 512 * τ + c.val ≤ i then (s (key τ c) : EReal) else ⊥

/-- One value column, tile by tile. -/
def tileVals (v : Fin 2048 → ℝ) (τ : ℕ) (c : Fin 512) : EReal := (v (key τ c) : EReal)

theorem rowScores_score (s : Fin 2048 → ℝ) (i : ℕ) (j : Fin 2048) : Score (rowScores s i j) := by
  unfold rowScores; split
  · exact Score.coe _
  · exact Score.bot

theorem tileScores_score (s : Fin 2048 → ℝ) (i : ℕ) (τ : ℕ) (c : Fin 512) : Score (tileScores s i τ c) := by
  unfold tileScores; split
  · exact Score.coe _
  · exact Score.bot

theorem rowScores_key (s : Fin 2048 → ℝ) (i : ℕ) (τ : ℕ) (hτ : τ < 4) (c : Fin 512) :
    rowScores s i (key τ c) = tileScores s i τ c := by
  unfold rowScores tileScores; rw [key_val τ hτ c]

/-- Before the query's own tile nothing is masked. -/
theorem tileScores_before (s : Fin 2048 → ℝ) (sq r τ : ℕ) (hτ : τ < sq) (c : Fin 512) :
    tileScores s (512 * sq + r) τ c = (s (key τ c) : EReal) := by
  have hc := c.isLt
  unfold tileScores; rw [if_pos]; omega

/-- In the query's own tile the keys after column r are masked. -/
theorem tileScores_own (s : Fin 2048 → ℝ) (sq r : ℕ) (c : Fin 512) :
    tileScores s (512 * sq + r) sq c = if c.val ≤ r then (s (key sq c) : EReal) else ⊥ := by
  unfold tileScores
  by_cases h : c.val ≤ r
  · rw [if_pos h, if_pos]; omega
  · rw [if_neg h, if_neg]; omega

/-- After the query's own tile everything is masked. -/
theorem tileScores_after (s : Fin 2048 → ℝ) (i τ : ℕ) (hτ : i < 512 * τ) (c : Fin 512) :
    tileScores s i τ c = ⊥ := by
  unfold tileScores; rw [if_neg]; omega

/-- A sum over all keys of a quantity that vanishes on masked keys is the sum over the tiles up to the query's. -/
theorem sum_tiles (s : Fin 2048 → ℝ) (i sq : ℕ) (hsq : sq < 4) (hi : i < 512 * (sq + 1))
    (F : EReal → Fin 2048 → ℝ) (hF : ∀ j, F ⊥ j = 0) :
    ∑ j : Fin 2048, F (rowScores s i j) j
      = ∑ k ∈ Finset.range (sq + 1), ∑ c : Fin 512, F (tileScores s i k c) (key k c) := by
  rw [sum_keys (fun j => F (rowScores s i j) j)]
  have h1 : ∑ k ∈ Finset.range 4, ∑ c : Fin 512, F (rowScores s i (key k c)) (key k c)
      = ∑ k ∈ Finset.range 4, ∑ c : Fin 512, F (tileScores s i k c) (key k c) :=
    Finset.sum_congr rfl fun k hk => Finset.sum_congr rfl fun c _ => by
      rw [rowScores_key s i k (Finset.mem_range.mp hk) c]
  rw [h1]
  symm
  refine Finset.sum_subset (fun k hk => Finset.mem_range.mpr ?_) fun k _ hk => ?_
  · have := Finset.mem_range.mp hk; omega
  · refine Finset.sum_eq_zero fun c _ => ?_
    have hk' : ¬ k < sq + 1 := fun h => hk (Finset.mem_range.mpr h)
    rw [tileScores_after s i k (by omega) c, hF]

/-- The causal row: the quotient a / l after the tiles 0, …, sq is the textbook masked softmax of the whole row,
    taken against any real number M, applied to the value column. -/
theorem causal_row (s v : Fin 2048 → ℝ) (sq : Fin 4) (r : Fin 512) (M : ℝ) :
    Ideal.div (aT (tileScores s (512 * sq.val + r.val)) (tileVals v) (sq.val + 1))
        (lT (tileScores s (512 * sq.val + r.val)) (sq.val + 1))
      = ∑ j : Fin 2048, Ideal.div (Ideal.exp (rowScores s (512 * sq.val + r.val) j - (M : EReal)))
            (∑ c : Fin 2048, Ideal.exp (rowScores s (512 * sq.val + r.val) c - (M : EReal))) * (v j : EReal) := by
  generalize hi : 512 * sq.val + r.val = i
  have hsq := sq.isLt
  have hr := r.isLt
  have h0 : tileScores s i 0 ⟨0, by decide⟩ = ((s (key 0 ⟨0, by decide⟩) : ℝ) : EReal) := by
    unfold tileScores; exact if_pos (by simp)
  have h0' : rowScores s i ⟨0, by decide⟩ = ((s ⟨0, by decide⟩ : ℝ) : EReal) := by
    unfold rowScores; exact if_pos (Nat.zero_le _)
  have hon : Ideal.div (aT (tileScores s i) (tileVals v) (sq.val + 1)) (lT (tileScores s i) (sq.val + 1))
      = (((∑ k ∈ Finset.range (sq.val + 1), ∑ c : Fin 512, E (tileScores s i k c) * v (key k c))
          / (∑ k ∈ Finset.range (sq.val + 1), ∑ c : Fin 512, E (tileScores s i k c)) : ℝ) : EReal) := by
    rw [lT_eq, aT_eq]
    exact online_quotient (tileScores s i) (tileScores_score s i) (fun k c => v (key k c)) _ _ h0 sq.val
  rw [hon, textbook_real (rowScores s i) (rowScores_score s i) v _ _ h0' M,
    sum_tiles s i sq.val hsq (by omega) (fun z j => E z * v j) (fun j => by rw [E_bot, zero_mul]),
    sum_tiles s i sq.val hsq (by omega) (fun z _ => E z) (fun _ => E_bot)]

/-- The same for any tile-indexed scores and values that are the row's on the tiles met. -/
theorem causal_row_of (s v : Fin 2048 → ℝ) (sq : Fin 4) (r : Fin 512) (M : ℝ) (σ ν : ℕ → Fin 512 → EReal)
    (hσ : ∀ k, k < sq.val + 1 → σ k = tileScores s (512 * sq.val + r.val) k)
    (hν : ∀ k, k < sq.val + 1 → ν k = tileVals v k) :
    Ideal.div (aT σ ν (sq.val + 1)) (lT σ (sq.val + 1))
      = ∑ j : Fin 2048, Ideal.div (Ideal.exp (rowScores s (512 * sq.val + r.val) j - (M : EReal)))
            (∑ c : Fin 2048, Ideal.exp (rowScores s (512 * sq.val + r.val) c - (M : EReal))) * (v j : EReal) := by
  rw [aT_congr (sq.val + 1) hσ hν, lT_congr (sq.val + 1) hσ]
  exact causal_row s v sq r M

/-- The row's greatest score, folded from −∞, is a real number: key 0 always counts. -/
theorem fold_max_rowScores_real (s : Fin 2048 → ℝ) (i : ℕ) :
    ∃ M : ℝ, (Finset.univ : Finset (Fin 2048)).fold max (⊥ : EReal) (rowScores s i) = (M : EReal) :=
  fold_max_real_of (rowScores s i) (rowScores_score s i) ⟨0, by decide⟩ (s ⟨0, by decide⟩)
    (by unfold rowScores; exact if_pos (Nat.zero_le _))

/-- The causal row against the row's own maximum. -/
theorem causal_row_max (s v : Fin 2048 → ℝ) (sq : Fin 4) (r : Fin 512) :
    Ideal.div (aT (tileScores s (512 * sq.val + r.val)) (tileVals v) (sq.val + 1))
        (lT (tileScores s (512 * sq.val + r.val)) (sq.val + 1))
      = ∑ j : Fin 2048, Ideal.div
            (Ideal.exp (rowScores s (512 * sq.val + r.val) j
              - (Finset.univ : Finset (Fin 2048)).fold max ⊥ (rowScores s (512 * sq.val + r.val))))
            (∑ c : Fin 2048, Ideal.exp (rowScores s (512 * sq.val + r.val) c
              - (Finset.univ : Finset (Fin 2048)).fold max ⊥ (rowScores s (512 * sq.val + r.val))))
          * (v j : EReal) := by
  obtain ⟨M, hM⟩ := fold_max_rowScores_real s (512 * sq.val + r.val)
  rw [hM]
  exact causal_row s v sq r M

end Cert.CausalAttention.Tiles

end
-- ==== Proof.TiledRows2.lean ====
/-
  The causal row of the attention function itself.

  When the four argument arrays hold real numbers, every projection is a finite sum of products of reals and every
  score is such a sum times 1/8: all of them are real numbers. So query row i of head h in batch b is a row of real
  scores with the keys after i masked, key 0 always counts, the row's greatest masked score is a real number, and
  coordinate e of the head's result for query i is the textbook form of that row applied to the column of value
  projections. The tile-by-tile quotient of the same row is therefore that coordinate.
-/
import proofs.«100367_j74028056313973_2_alg».proof.Proof.TiledRows
import proofs.«100367_j74028056313973_2_alg».proof.Proof.Spec

noncomputable section

open scoped BigOperators

namespace Cert.CausalAttention.Tiles

open Idealize.ShloMosaic Idealize.ShloMosaic.ValueIdx Cert.OnlineSoftmax Cert.MaskedSoftmax

/-! ### Real numbers stay real -/

theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

theorem real_sum {ι : Type*} (s : Finset ι) (f : ι → EReal) (hf : ∀ k, ∃ r : ℝ, f k = (r : EReal)) :
    ∃ r : ℝ, ∑ k ∈ s, f k = (r : EReal) := by
  choose g hg using hf
  exact ⟨∑ k ∈ s, g k, by rw [← coe_sum]; exact Finset.sum_congr rfl fun k _ => hg k⟩

theorem coe_toReal_of_real {a : EReal} (ha : ∃ r : ℝ, a = (r : EReal)) : ((a.toReal : ℝ) : EReal) = a := by
  obtain ⟨p, rfl⟩ := ha
  rw [EReal.toReal_coe]

/-- An extended real that is neither infinity is a real number. -/
theorem real_of_finite {a : EReal} (h1 : a ≠ ⊥) (h2 : a ≠ ⊤) : ∃ r : ℝ, a = (r : EReal) :=
  ⟨a.toReal, (EReal.coe_toReal h2 h1).symm⟩

theorem proj_real (x : SX.Idx → EReal) (w : SW.Idx → EReal)
    (hx : ∀ idx, ∃ r : ℝ, x idx = (r : EReal)) (hw : ∀ idx, ∃ r : ℝ, w idx = (r : EReal))
    (b : Fin 4) (h : Fin 16) (s : Fin 2048) (e : Fin 64) : ∃ r : ℝ, proj x w b h s e = (r : EReal) :=
  real_sum _ _ fun _ => real_mul (hx _) (hw _)

theorem score_real (x : SX.Idx → EReal) (wq wk : SW.Idx → EReal)
    (hx : ∀ idx, ∃ r : ℝ, x idx = (r : EReal)) (hq : ∀ idx, ∃ r : ℝ, wq idx = (r : EReal))
    (hk : ∀ idx, ∃ r : ℝ, wk idx = (r : EReal)) (b : Fin 4) (h : Fin 16) (i j : Fin 2048) :
    ∃ r : ℝ, score x wq wk b h i j = (r : EReal) :=
  real_mul (real_sum _ _ fun _ => real_mul (proj_real x wq hx hq b h i _) (proj_real x wk hx hk b h j _)) ⟨_, rfl⟩

/-- The real number behind the score of query i against key j. -/
def scoreR (x : SX.Idx → EReal) (wq wk : SW.Idx → EReal) (b : Fin 4) (h : Fin 16) (i j : Fin 2048) : ℝ :=
  (score x wq wk b h i j).toReal

/-- The real number behind coordinate e of key j's value projection. -/
def valR (x : SX.Idx → EReal) (wv : SW.Idx → EReal) (b : Fin 4) (h : Fin 16) (e : Fin 64) (j : Fin 2048) : ℝ :=
  (proj x wv b h j e).toReal

/-- The query at row r of query tile sq. -/
def qpos (sq : Fin 4) (r : Fin 512) : Fin 2048 := ⟨512 * sq.val + r.val, by have := sq.isLt; have := r.isLt; omega⟩

theorem qpos_val (sq : Fin 4) (r : Fin 512) : (qpos sq r).val = 512 * sq.val + r.val := rfl

/-- The greatest of finitely many scores (masked or real, one of them real) is a real number. -/
theorem sup_real {ι : Type*} [Fintype ι] (f : ι → EReal) (hf : ∀ j, Score (f j)) (j0 : ι) (r0 : ℝ)
    (h0 : f j0 = (r0 : EReal)) : ∃ r : ℝ, (Finset.univ : Finset ι).sup f = (r : EReal) := by
  have hlt : (Finset.univ : Finset ι).sup f < ⊤ := by
    rw [Finset.sup_lt_iff bot_lt_top]
    intro j _
    rcases hf j with hj | ⟨r, hj⟩
    · rw [hj]; exact bot_lt_top
    · rw [hj]; exact EReal.coe_lt_top r
  have hgt : (⊥ : EReal) < (Finset.univ : Finset ι).sup f :=
    lt_of_lt_of_le (by rw [h0]; exact EReal.bot_lt_coe r0) (Finset.le_sup (Finset.mem_univ j0))
  exact ⟨_, (EReal.coe_toReal hlt.ne hgt.ne').symm⟩

section Row

variable (x : SX.Idx → EReal) (wq wk wv : SW.Idx → EReal)
  (hx : ∀ idx, ∃ r : ℝ, x idx = (r : EReal)) (hq : ∀ idx, ∃ r : ℝ, wq idx = (r : EReal))
  (hk : ∀ idx, ∃ r : ℝ, wk idx = (r : EReal)) (hv : ∀ idx, ∃ r : ℝ, wv idx = (r : EReal))
  (b : Fin 4) (h : Fin 16)

include hx hq hk in
/-- The masked score of the attention function is the row's score at the real scores. -/
theorem masked_eq (i j : Fin 2048) :
    masked x wq wk b h i j = rowScores (scoreR x wq wk b h i) i.val j := by
  unfold masked rowScores scoreR
  by_cases hji : j ≤ i
  · rw [if_pos hji, if_pos (show j.val ≤ i.val from hji), coe_toReal_of_real (score_real x wq wk hx hq hk b h i j)]
  · rw [if_neg hji, if_neg (show ¬ j.val ≤ i.val from hji)]

include hx hq hk in
/-- A tile's scores in terms of the attention function's scores. -/
theorem tileScores_scoreR (i : Fin 2048) (n τ : ℕ) (c : Fin 512) :
    tileScores (scoreR x wq wk b h i) n τ c
      = if 512 * τ + c.val ≤ n then score x wq wk b h i (key τ c) else ⊥ := by
  unfold tileScores scoreR
  rw [coe_toReal_of_real (score_real x wq wk hx hq hk b h i (key τ c))]

include hx hv in
/-- A tile's values in terms of the attention function's value projections. -/
theorem tileVals_valR (e : Fin 64) (τ : ℕ) (c : Fin 512) :
    tileVals (valR x wv b h e) τ c = proj x wv b h (key τ c) e := by
  unfold tileVals valR
  rw [coe_toReal_of_real (proj_real x wv hx hv b h (key τ c) e)]

include hx hq hk in
/-- The row's greatest masked score is a real number. -/
theorem rowMax_real (i : Fin 2048) : ∃ M : ℝ, rowMax x wq wk b h i = (M : EReal) := by
  unfold rowMax
  refine sup_real _ (fun j => ?_) ⟨0, by decide⟩ (scoreR x wq wk b h i ⟨0, by decide⟩) ?_
  · rw [masked_eq x wq wk hx hq hk b h i j]; exact rowScores_score _ _ _
  · rw [masked_eq x wq wk hx hq hk b h i]; unfold rowScores; exact if_pos (Nat.zero_le _)

include hx hq hk hv in
/-- Coordinate e of the head's result for query i is the textbook form of the row of real scores, against the real
    number that is the row's maximum, applied to the column of real value projections. -/
theorem head_eq (i : Fin 2048) (e : Fin 64) (M : ℝ) (hM : rowMax x wq wk b h i = (M : EReal)) :
    head x wq wk wv b h i e
      = ∑ j : Fin 2048, Ideal.div (Ideal.exp (rowScores (scoreR x wq wk b h i) i.val j - (M : EReal)))
            (∑ c : Fin 2048, Ideal.exp (rowScores (scoreR x wq wk b h i) i.val c - (M : EReal)))
          * (valR x wv b h e j : EReal) := by
  unfold head weight
  rw [hM]
  have hden : ∑ c : Fin 2048, Ideal.exp (masked x wq wk b h i c - (M : EReal))
      = ∑ c : Fin 2048, Ideal.exp (rowScores (scoreR x wq wk b h i) i.val c - (M : EReal)) :=
    Finset.sum_congr rfl fun c _ => by rw [masked_eq x wq wk hx hq hk b h i c]
  rw [hden]
  refine Finset.sum_congr rfl fun j _ => ?_
  rw [masked_eq x wq wk hx hq hk b h i j]
  unfold valR
  rw [coe_toReal_of_real (proj_real x wv hx hv b h j e)]

include hx hq hk hv in
/-- The tile-by-tile quotient of the query at row r of query tile sq is coordinate e of the head's result there. -/
theorem causal_head (sq : Fin 4) (r : Fin 512) (e : Fin 64) :
    Ideal.div (aT (tileScores (scoreR x wq wk b h (qpos sq r)) (512 * sq.val + r.val)) (tileVals (valR x wv b h e))
          (sq.val + 1))
        (lT (tileScores (scoreR x wq wk b h (qpos sq r)) (512 * sq.val + r.val)) (sq.val + 1))
      = head x wq wk wv b h (qpos sq r) e := by
  obtain ⟨M, hM⟩ := rowMax_real x wq wk hx hq hk b h (qpos sq r)
  rw [head_eq x wq wk wv hx hq hk hv b h (qpos sq r) e M hM, qpos_val]
  exact causal_row (scoreR x wq wk b h (qpos sq r)) (valR x wv b h e) sq r M

include hx hq hk hv in
/-- The same for any tile-indexed scores and values that, on the tiles met, are the attention function's masked
    scores and value projections. -/
theorem causal_head_of (sq : Fin 4) (r : Fin 512) (e : Fin 64) (σ ν : ℕ → Fin 512 → EReal)
    (hσ : ∀ k, k < sq.val + 1 → ∀ c : Fin 512, σ k c
      = if 512 * k + c.val ≤ 512 * sq.val + r.val then score x wq wk b h (qpos sq r) (key k c) else ⊥)
    (hν : ∀ k, k < sq.val + 1 → ∀ c : Fin 512, ν k c = proj x wv b h (key k c) e) :
    Ideal.div (aT σ ν (sq.val + 1)) (lT σ (sq.val + 1)) = head x wq wk wv b h (qpos sq r) e := by
  rw [aT_congr (σ' := tileScores (scoreR x wq wk b h (qpos sq r)) (512 * sq.val + r.val))
      (ν' := tileVals (valR x wv b h e)) (sq.val + 1)
      (fun k hlt => funext fun c => by rw [hσ k hlt c, tileScores_scoreR x wq wk hx hq hk b h])
      (fun k hlt => funext fun c => by rw [hν k hlt c, tileVals_valR x wv hx hv b h]),
    lT_congr (σ' := tileScores (scoreR x wq wk b h (qpos sq r)) (512 * sq.val + r.val)) (sq.val + 1)
      (fun k hlt => funext fun c => by rw [hσ k hlt c, tileScores_scoreR x wq wk hx hq hk b h])]
  exact causal_head x wq wk wv hx hq hk hv b h sq r e

include hx hq hk hv in
/-- The same with the scores given the way the tiles are met: an earlier tile unmasked, the query's own tile masked
    after column r. -/
theorem causal_head_split (sq : Fin 4) (r : Fin 512) (e : Fin 64) (σ ν : ℕ → Fin 512 → EReal)
    (hσ₁ : ∀ k, k < sq.val → ∀ c : Fin 512, σ k c = score x wq wk b h (qpos sq r) (key k c))
    (hσ₂ : ∀ c : Fin 512, σ sq.val c
      = if c.val ≤ r.val then score x wq wk b h (qpos sq r) (key sq.val c) else ⊥)
    (hν : ∀ k, k < sq.val + 1 → ∀ c : Fin 512, ν k c = proj x wv b h (key k c) e) :
    Ideal.div (aT σ ν (sq.val + 1)) (lT σ (sq.val + 1)) = head x wq wk wv b h (qpos sq r) e := by
  refine causal_head_of x wq wk wv hx hq hk hv b h sq r e σ ν (fun k hlt c => ?_) hν
  have hc := c.isLt
  rcases Nat.lt_succ_iff_lt_or_eq.mp hlt with hlt' | rfl
  · rw [hσ₁ k hlt' c, if_pos (by omega)]
  · rw [hσ₂ c]
    by_cases hcr : c.val ≤ r.val
    · rw [if_pos hcr, if_pos (by omega)]
    · rw [if_neg hcr, if_neg (by omega)]

end Row

end Cert.CausalAttention.Tiles

end
-- ==== Proof.GlueRows.lean ====
/-
  From the attention region's blocks to the attention function.

  A point of the region's grid is (batch b, head pair p, query tile sq); its output block holds 512 query rows by the
  128 features of the pair's two heads. Feature 64·hd + e of the pair is coordinate e of head 2·p + hd, and feature
  128·p + 64·hd + e of the model has that head and that coordinate. When the query, key and value arrays the region
  finds hold the three projections, the point's input blocks hold, for each of the pair's heads, the query rows' and all
  keys' and values' projections; the tile-by-tile quotient over those blocks is then, by the row law, coordinate e of
  the head's result for the query, which is the attention function at the block element's place in the result array.
  The blocks tile the result array, so the array is the attention function.
-/
import proofs.«100367_j74028056313973_2_alg».proof.Proof.AttnArray
import proofs.«100367_j74028056313973_2_alg».proof.Proof.QkvValue2
import proofs.«100367_j74028056313973_2_alg».proof.Proof.TiledRows2

set_option maxRecDepth 16384

noncomputable section

open scoped BigOperators

namespace Cert.KernelIdeal.Glue

open Cert.KernelIdeal Cert.KernelIdeal.Gen Cert.KernelIdeal.Attn Cert.KernelIdeal.AttnArray Cert.KernelIdeal.QkvValue
open Idealize.ShloMosaic Idealize.ShloMosaic.TcCoe Idealize.ShloMosaic.ValueIdx
open Cert.CausalAttention Cert.CausalAttention.Tiles

/-! ## Features of a head pair -/

/-- Feature 64·hd + e of a head pair: coordinate e of the pair's head hd. -/
def pairFeat (hd : Fin 2) (e : Fin 64) : Fin 128 := ⟨64 * hd.val + e.val, by have := hd.isLt; have := e.isLt; omega⟩

theorem pairFeat_val (hd : Fin 2) (e : Fin 64) : (pairFeat hd e).val = 64 * hd.val + e.val := rfl

/-- Every feature of a head pair is some head's some coordinate. -/
theorem eq_pairFeat (f : Fin 128) :
    f = pairFeat ⟨f.val / 64, by have := f.isLt; omega⟩ ⟨f.val % 64, Nat.mod_lt _ (by norm_num)⟩ :=
  Fin.ext (by show f.val = 64 * (f.val / 64) + f.val % 64; omega)

/-- Head 2·p + hd of the model, for hd in the head pair p of point t. -/
def pHead (t : Fin cfg1.N) (hd : Fin 2) : Fin 16 := ⟨2 * (t.val / 4 % 8) + hd.val, by have := hd.isLt; omega⟩

/-- The model feature of a pair's feature has the pair's head … -/
theorem headOf_pFeat (t : Fin cfg1.N) (hd : Fin 2) (e : Fin 64) : headOf (pFeat t (pairFeat hd e)) = pHead t hd :=
  Fin.ext (by
    have := hd.isLt; have := e.isLt
    show (128 * (t.val / 4 % 8) + (64 * hd.val + e.val)) / 64 = 2 * (t.val / 4 % 8) + hd.val
    omega)

/-- … and the feature's coordinate. -/
theorem coordOf_pFeat (t : Fin cfg1.N) (hd : Fin 2) (e : Fin 64) : coordOf (pFeat t (pairFeat hd e)) = e :=
  Fin.ext (by
    have := hd.isLt; have := e.isLt
    show (128 * (t.val / 4 % 8) + (64 * hd.val + e.val)) % 64 = e.val
    omega)

/-- Row r of the point's query tile, as the row law names it. -/
theorem qRow_eq_qpos (t : Fin cfg1.N) (r : Fin 512) : qRow t r = qpos (pS t) r := Fin.ext rfl

/-! ## The tile-by-tile scores and values of a point's blocks -/

/-- The scores of query row r of a point's query block against key tile k of its key block, in head hd of the pair:
    the dot product over the head's 64 features, times 1/8, masked after the query's position. -/
def blockScores (x0 : Vec Ideal S1x512x128 .bf16) (x1 : Vec Ideal S1x2048x128 .bf16) (sq : ℕ) (r : Fin 512) (hd : Fin 2) :
    ℕ → Fin 512 → EReal := fun k cc =>
  if 512 * k + cc.val ≤ 512 * sq + r.val then
    (∑ e' : Fin 64, x0 (ix3 0 r (pairFeat hd e')) * x1 (ix3 0 (key k cc) (pairFeat hd e'))) * ((1 / 8 : ℝ) : EReal)
  else ⊥

/-- Coordinate e of head hd's values in key tile k of a point's value block. -/
def blockVals (x2 : Vec Ideal S1x2048x128 .bf16) (hd : Fin 2) (e : Fin 64) : ℕ → Fin 512 → EReal := fun k cc =>
  x2 (ix3 0 (key k cc) (pairFeat hd e))

/-- Blocks that hold the projections of one batch and head: the tile-by-tile quotient is the head's result. -/
theorem blocks_head (x : SX.Idx → EReal) (wq wk wv : SW.Idx → EReal)
    (hx : ∀ idx, ∃ v : ℝ, x idx = (v : EReal)) (hq : ∀ idx, ∃ v : ℝ, wq idx = (v : EReal))
    (hk : ∀ idx, ∃ v : ℝ, wk idx = (v : EReal)) (hv : ∀ idx, ∃ v : ℝ, wv idx = (v : EReal))
    (b : Fin 4) (h : Fin 16) (sq : Fin 4) (r : Fin 512) (hd : Fin 2) (e : Fin 64)
    (x0 : Vec Ideal S1x512x128 .bf16) (x1 x2 : Vec Ideal S1x2048x128 .bf16)
    (h0 : ∀ e' : Fin 64, x0 (ix3 0 r (pairFeat hd e')) = proj x wq b h (qpos sq r) e')
    (h1 : ∀ (j : Fin 2048) (e' : Fin 64), x1 (ix3 0 j (pairFeat hd e')) = proj x wk b h j e')
    (h2 : ∀ j : Fin 2048, x2 (ix3 0 j (pairFeat hd e)) = proj x wv b h j e) :
    Ideal.div (aT (blockScores x0 x1 sq.val r hd) (blockVals x2 hd e) (sq.val + 1))
        (lT (blockScores x0 x1 sq.val r hd) (sq.val + 1))
      = head x wq wk wv b h (qpos sq r) e := by
  refine causal_head_of x wq wk wv hx hq hk hv b h sq r e _ _ (fun k _ cc => ?_) (fun k _ cc => h2 _)
  have hs : (∑ e' : Fin 64, x0 (ix3 0 r (pairFeat hd e')) * x1 (ix3 0 (key k cc) (pairFeat hd e'))) * ((1 / 8 : ℝ) : EReal)
      = score x wq wk b h (qpos sq r) (key k cc) := by
    unfold score
    exact congrArg (· * ((1 / 8 : ℝ) : EReal)) (Finset.sum_congr rfl fun e' _ => by rw [h0, h1])
  unfold blockScores
  rw [hs]

/-! ## The result array -/

variable (m : (ℓ : Loc nD τ sig) → Buf (Elt Ideal) ℓ) (outs : Outs (F := Ideal))

/-- If the region finds the three projections in its query, key and value arrays, and at every point the body leaves
    in the output block, at row r and feature 64·hd + e, the tile-by-tile quotient over the point's blocks, then the
    result array after the region is the attention function of the real-valued arguments. -/
theorem arr_eq_attention (c : Dev nD) (x : SX.Idx → EReal) (wq wk wv : SW.Idx → EReal)
    (hx : ∀ idx, ∃ v : ℝ, x idx = (v : EReal)) (hq : ∀ idx, ∃ v : ℝ, wq idx = (v : EReal))
    (hk : ∀ idx, ∃ v : ℝ, wk idx = (v : EReal)) (hv : ∀ idx, ∃ v : ℝ, wv idx = (v : EReal))
    (hQ : ∀ (b : Fin 4) (i : Fin 2048) (f : Fin 1024),
      (V2 m outs c main_v6_0 : S4x2048x1024.Idx → Elt Ideal .bf16) (ix3 b i f) = proj x wq b (headOf f) i (coordOf f))
    (hK : ∀ (b : Fin 4) (i : Fin 2048) (f : Fin 1024),
      (V2 m outs c main_v6_1 : S4x2048x1024.Idx → Elt Ideal .bf16) (ix3 b i f) = proj x wk b (headOf f) i (coordOf f))
    (hV : ∀ (b : Fin 4) (i : Fin 2048) (f : Fin 1024),
      (V2 m outs c main_v6_2 : S4x2048x1024.Idx → Elt Ideal .bf16) (ix3 b i f) = proj x wv b (headOf f) i (coordOf f))
    (hrec : ∀ (t : Fin cfg1.N) (r : Fin 512) (hd : Fin 2) (e : Fin 64),
      outAt m outs c t (ix3 0 r (pairFeat hd e))
        = Ideal.div (aT (blockScores (iblk m outs c 0 t) (iblk m outs c 1 t) (t.val % 4) r hd)
              (blockVals (iblk m outs c 2 t) hd e) (t.val % 4 + 1))
            (lT (blockScores (iblk m outs c 0 t) (iblk m outs c 1 t) (t.val % 4) r hd) (t.val % 4 + 1))) :
    (dat m outs c).arrAt 3 cfg1.N = attention x wq wk wv := by
  refine arr_of_blocks m outs c (attention x wq wk wv) fun t r f => ?_
  rw [eq_pairFeat f]
  generalize (⟨f.val / 64, _⟩ : Fin 2) = hd
  generalize (⟨f.val % 64, _⟩ : Fin 64) = e
  rw [hrec t r hd e, attention_ix3]
  show _ = head x wq wk wv (pB t) (headOf (pFeat t (pairFeat hd e))) (qRow t r) (coordOf (pFeat t (pairFeat hd e)))
  rw [headOf_pFeat, coordOf_pFeat, qRow_eq_qpos]
  refine blocks_head x wq wk wv hx hq hk hv (pB t) (pHead t hd) (pS t) r hd e _ _ _ (fun e' => ?_) (fun j e' => ?_)
    (fun j => ?_)
  · rw [iblk_q, hQ, headOf_pFeat, coordOf_pFeat, qRow_eq_qpos]
  · rw [iblk_k, hK, headOf_pFeat, coordOf_pFeat]
  · rw [iblk_v, hV, headOf_pFeat, coordOf_pFeat]

end Cert.KernelIdeal.Glue
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.QkvValue.lean ====
/-
  The projection kernel's stored blocks at an index, at the ideal values.

  At a grid point the body holds one block of 512 tokens (a [1, 512, 1024] block of x) and one whole 1024 × 1024
  weight matrix per output. It drops the block's unit axis, multiplies the 512 × 1024 matrix by the weight matrix
  with BOTH operands contracted on their second axis (so row r of the block meets row f of the weight matrix: the
  product is x·Wᵀ), starting from the zero accumulator, and puts the unit axis back. Two changes of float format
  sit around the product; at the ideal values a change of format is the identity. So the stored block holds, at
  (0, r, f), the plain sum over the 1024 model coordinates of x(0, r, d) · W(f, d).

  The three outputs differ only in which weight matrix they take.
-/
import proofs.«100367_j74028056313973_2_alg».proof.Proof.Gen.KernelIdeal.Skeleton
import proofs.«100367_j74028056313973_2_alg».proof.Proof.LibTransposedRhsMatmul
import Idealize.ShloMosaic.Lib.ValueLayout

noncomputable section

open scoped BigOperators

namespace Cert.KernelIdeal.QkvValue

open Cert.KernelIdeal
open Idealize.ShloMosaic Idealize.ShloMosaic.ValueIdx

/-- The printed dimension numbers are the library's "right operand contracted on its last axis" at 512 × 1024 by
    1024 × 1024: the six lists agree, and the well-formedness proofs are proofs of one proposition. -/
theorem dot_eq :
    dot_S512x1024_S1024x1024_S512x1024_1_1_0_0_n_n = DotDims.transposedRhs 512 1024 1024 := rfl

/-- The x block as the product's left operand: the unit axis dropped and the format changed, entry (r, d) is
    entry (0, r, d) of the block. -/
theorem xmat_apply (x0 : Vec Ideal S1x512x1024 .f32) (r : Fin 512) (d : Fin 1024) :
    Gen.k0_pay1 (F := Ideal) x0 (ix2 r d) = x0 (ix3 (0 : Fin 1) r d) := by
  unfold Gen.k0_pay1
  exact shapeCast_1ab_ab_apply x0 _ r d

/-- The product of a 512 × 1024 matrix with a 1024 × 1024 one on the printed dimension numbers, from the zero
    accumulator, with the unit axis put back and the format changed: at (0, r, f), row r of the left operand
    against row f of the right one. -/
theorem product_apply (a : FVec Ideal S512x1024 .bf16) (w : FVec Ideal S1024x1024 .bf16) (r : Fin 512) (f : Fin 1024) :
    (shapeCast S1x512x1024
        (truncf .bf16 (matmul dot_S512x1024_S1024x1024_S512x1024_1_1_0_0_n_n none a w
          (constant (F := Ideal) S512x1024 .f32 0x00000000#32)) Facts₀.bitsLt_bf16_f32 : FVec Ideal S512x1024 .bf16)
        Facts₀.shapeCasts_S512x1024_S1x512x1024 : FVec Ideal S1x512x1024 .bf16) (ix3 (0 : Fin 1) r f)
      = ∑ d : Fin 1024, a (ix2 r d) * w (ix2 f d) := by
  refine (shapeCast_ab_1ab_apply _ _ (0 : Fin 1) r f).trans ?_
  rw [truncf_apply, dot_eq]
  exact TransposedRhsMatmul.transposedRhsMatmul_apply none a w r f

/-- The first output's stored block at (0, r, f): token r of the block against row f of its weight matrix. -/
theorem pay2_apply (x0 : Vec Ideal S1x512x1024 .f32) (w : Vec Ideal S1024x1024 .bf16) (r : Fin 512) (f : Fin 1024) :
    Gen.k0_pay2 (F := Ideal) x0 w (ix3 (0 : Fin 1) r f) = ∑ d : Fin 1024, x0 (ix3 (0 : Fin 1) r d) * w (ix2 f d) := by
  unfold Gen.k0_pay2
  refine (product_apply (Gen.k0_pay1 (F := Ideal) x0) _ r f).trans ?_
  refine Finset.sum_congr rfl fun d _ => ?_
  rw [xmat_apply, shapeCast_self]

/-- The second output's, -/
theorem pay3_apply (x0 : Vec Ideal S1x512x1024 .f32) (w : Vec Ideal S1024x1024 .bf16) (r : Fin 512) (f : Fin 1024) :
    Gen.k0_pay3 (F := Ideal) x0 w (ix3 (0 : Fin 1) r f) = ∑ d : Fin 1024, x0 (ix3 (0 : Fin 1) r d) * w (ix2 f d) := by
  unfold Gen.k0_pay3
  refine (product_apply (Gen.k0_pay1 (F := Ideal) x0) _ r f).trans ?_
  refine Finset.sum_congr rfl fun d _ => ?_
  rw [xmat_apply, shapeCast_self]

/-- and the third's. -/
theorem pay4_apply (x0 : Vec Ideal S1x512x1024 .f32) (w : Vec Ideal S1024x1024 .bf16) (r : Fin 512) (f : Fin 1024) :
    Gen.k0_pay4 (F := Ideal) x0 w (ix3 (0 : Fin 1) r f) = ∑ d : Fin 1024, x0 (ix3 (0 : Fin 1) r d) * w (ix2 f d) := by
  unfold Gen.k0_pay4
  refine (product_apply (Gen.k0_pay1 (F := Ideal) x0) _ r f).trans ?_
  refine Finset.sum_congr rfl fun d _ => ?_
  rw [xmat_apply, shapeCast_self]

end Cert.KernelIdeal.QkvValue

end
-- ==== Proof.QkvValue3.lean ====
/-
  From the projection kernel's stored blocks to its three output arrays.

  The grid has 4 × 4 points; point (b, s) takes tokens 512·s … 512·s + 511 of batch b and writes the same rows of
  batch b of each output. The x block at the point is those rows of x; each weight block is the whole weight matrix,
  whose row f is coordinate f % 64 of head f / 64 of the launch's weight. So the block a point writes back is the
  restriction of ONE function of the launch's arrays to the point's rows: at (b, s, f) the projection of token (b, s)
  by head f / 64 at coordinate f % 64. The sixteen blocks tile the array, so the array ends holding that function.
-/
import proofs.«100367_j74028056313973_2_alg».proof.Proof.QkvFrame
import proofs.«100367_j74028056313973_2_alg».proof.Proof.QkvValue
import proofs.«100367_j74028056313973_2_alg».proof.Proof.QkvValue2
import proofs.«100367_j74028056313973_2_alg».proof.Proof.Spec

set_option maxRecDepth 16384

noncomputable section

open scoped BigOperators

namespace Cert.KernelIdeal.QkvValue

open Cert.KernelIdeal Cert.CausalAttention
open Idealize.ShloMosaic Idealize.ShloMosaic.TcCoe Idealize.ShloMosaic.ValueIdx
open Idealize.ShloMosaic.Pipeline (Dat)

/-- The projected array of an input and a weight: feature f of token (b, s) is coordinate f % 64 of head f / 64. -/
def projArr (X : SX.Idx → EReal) (W : SW.Idx → EReal) : S4x2048x1024.Idx → EReal := fun idx =>
  proj X W (idx 0) (headOf (idx 2)) (idx 1) (coordOf (idx 2))

/-- A stored block is the projected array on the block's rows, given where its two input blocks come from: row r of the
    x block is token (b, s) of X, and row f of the weight block is the head and coordinate of feature g of W.
    Stated for any payload that reads as the plain sum of products. -/
theorem block_apply (pay : Vec Ideal S1x512x1024 .f32 → Vec Ideal S1024x1024 .bf16 → FVec Ideal S1x512x1024 .bf16)
    (hpay : ∀ x0 w (r : Fin 512) (f : Fin 1024), pay x0 w (ix3 (0 : Fin 1) r f) = ∑ d : Fin 1024, x0 (ix3 (0 : Fin 1) r d) * w (ix2 f d))
    (x0 : Vec Ideal S1x512x1024 .f32) (w : Vec Ideal S1024x1024 .bf16) (X : SX.Idx → EReal) (W : SW.Idx → EReal)
    (r : Fin 512) (f : Fin 1024) (b : Fin 4) (s : Fin 2048) (g : Fin 1024)
    (hx : ∀ d : Fin 1024, x0 (ix3 (0 : Fin 1) r d) = X (ix3 b s d))
    (hw : ∀ d : Fin 1024, w (ix2 f d) = W (ix3 (headOf g) (coordOf g) d)) :
    pay x0 w (ix3 (0 : Fin 1) r f) = projArr X W (ix3 b s g) := by
  rw [hpay]
  show _ = proj X W b (headOf g) s (coordOf g)
  unfold proj
  exact Finset.sum_congr rfl fun d _ => by rw [hx, hw]

variable (m : (ℓ : Loc nD τ sig) → Buf (Elt Ideal) ℓ)

/-! ## The index maps over the grid -/

/-- The printed index maps, decided over the sixteen points: the x window moves with the output windows, never
    leaving feature block 0; each weight window stays at its one block; the three output windows move together. -/
theorem idx_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t = win0_4.index t
    ∧ win0_6.index t = win0_4.index t :=
  (by decide +kernel : ∀ t : Fin grid0.N, _)

/-- Every (batch, row block) is some point's. -/
theorem idx_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-! ## The input blocks at an index -/

/-- The x window's block at point `t`, at an index of the block: x where the block's rectangle puts that index. -/
theorem xblk_apply (c : Dev nD) (t : Fin cfg0.N) (y : S1x512x1024.Idx) (k : S4x2048x1024.Idx)
    (hk0 : (k 0).val = win0_0.index t (0 : Fin 3) * 1 + 1 * (y 0).val)
    (hk1 : (k 1).val = win0_0.index t (1 : Fin 3) * 512 + 1 * (y 1).val)
    (hk2 : (k 2).val = win0_0.index t (2 : Fin 3) * 1024 + 1 * (y 2).val) :
    (Qkv.iblk m c 0 t : Vec Ideal S1x512x1024 .f32) y = (m ((c : Thread nD τ).loc main_arg0) : S4x2048x1024.Idx → EReal) k := by
  unfold Qkv.iblk
  rw [View.read_apply]
  show Gen.V1 m c main_arg0 _ = _
  rw [V1_main_arg0]
  show (m ((c : Thread nD τ).loc main_arg0) : S4x2048x1024.Idx → EReal) _ = _
  congr 1
  funext a
  apply Fin.ext
  match a with
  | ⟨0, _⟩ => exact hk0.symm
  | ⟨1, _⟩ => exact hk1.symm
  | ⟨2, _⟩ => exact hk2.symm

/-- The first weight window's block at any point is the whole first weight matrix: row f is coordinate f % 64 of
    head f / 64 of the launch's first weight. -/
theorem wblk1_apply (c : Dev nD) (t : Fin cfg0.N) (f d : Fin 1024) :
    (Qkv.iblk m c 1 t : Vec Ideal S1024x1024 .bf16) (ix2 f d)
      = (m ((c : Thread nD τ).loc main_arg1) : SW.Idx → EReal) (ix3 (headOf f) (coordOf f) d) := by
  obtain ⟨-, -, -, -, e0, e1, -⟩ := idx_facts t
  unfold Qkv.iblk
  rw [View.read_apply]
  show (Gen.V1 m c main_v1 : FVec Ideal S1024x1024 .bf16) (((cfg0.win 1).blk t).view.emb (ix2 f d)) = _
  have he : ((cfg0.win 1).blk t).view.emb (ix2 f d) = (ix2 f d : S1024x1024.Idx) := by
    funext a; apply Fin.ext
    match a with
    | ⟨0, _⟩ => show win0_1.index t (0 : Fin 2) * 1024 + 1 * f.val = f.val; omega
    | ⟨1, _⟩ => show win0_1.index t (1 : Fin 2) * 1024 + 1 * d.val = d.val; omega
  rw [he]
  exact V1_main_v1_apply m c f d

/-- The second weight window's, -/
theorem wblk2_apply (c : Dev nD) (t : Fin cfg0.N) (f d : Fin 1024) :
    (Qkv.iblk m c 2 t : Vec Ideal S1024x1024 .bf16) (ix2 f d)
      = (m ((c : Thread nD τ).loc main_arg2) : SW.Idx → EReal) (ix3 (headOf f) (coordOf f) d) := by
  obtain ⟨-, -, -, -, -, -, e0, e1, -⟩ := idx_facts t
  unfold Qkv.iblk
  rw [View.read_apply]
  show (Gen.V1 m c main_v3 : FVec Ideal S1024x1024 .bf16) (((cfg0.win 2).blk t).view.emb (ix2 f d)) = _
  have he : ((cfg0.win 2).blk t).view.emb (ix2 f d) = (ix2 f d : S1024x1024.Idx) := by
    funext a; apply Fin.ext
    match a with
    | ⟨0, _⟩ => show win0_2.index t (0 : Fin 2) * 1024 + 1 * f.val = f.val; omega
    | ⟨1, _⟩ => show win0_2.index t (1 : Fin 2) * 1024 + 1 * d.val = d.val; omega
  rw [he]
  exact V1_main_v3_apply m c f d

/-- and the third's. -/
theorem wblk3_apply (c : Dev nD) (t : Fin cfg0.N) (f d : Fin 1024) :
    (Qkv.iblk m c 3 t : Vec Ideal S1024x1024 .bf16) (ix2 f d)
      = (m ((c : Thread nD τ).loc main_arg3) : SW.Idx → EReal) (ix3 (headOf f) (coordOf f) d) := by
  obtain ⟨-, -, -, -, -, -, -, -, e0, e1, -⟩ := idx_facts t
  unfold Qkv.iblk
  rw [View.read_apply]
  show (Gen.V1 m c main_v5 : FVec Ideal S1024x1024 .bf16) (((cfg0.win 3).blk t).view.emb (ix2 f d)) = _
  have he : ((cfg0.win 3).blk t).view.emb (ix2 f d) = (ix2 f d : S1024x1024.Idx) := by
    funext a; apply Fin.ext
    match a with
    | ⟨0, _⟩ => show win0_3.index t (0 : Fin 2) * 1024 + 1 * f.val = f.val; omega
    | ⟨1, _⟩ => show win0_3.index t (1 : Fin 2) * 1024 + 1 * d.val = d.val; omega
  rw [he]
  exact V1_main_v5_apply m c f d

end Cert.KernelIdeal.QkvValue

end
-- ==== Proof.QkvValue4.lean ====
/-
  The projection kernel's first output array after its last write-back.

  Each point writes back, to each output, the restriction of one function of the launch's arrays to the point's rows
  (the projected array of x and that output's weight), and the sixteen points' blocks tile the [4, 2048, 1024] array:
  index (b, s, f) lies in the block of the point with batch b and row block s / 512. An array whose every index is
  covered by a written-back block of one function ends holding that function. So the first output holds, at (b, s, 64·h + e),
  coordinate e of head h's projection of token (b, s) by the first weight.
-/
import proofs.«100367_j74028056313973_2_alg».proof.Proof.QkvValue3

set_option maxRecDepth 16384

noncomputable section

open scoped BigOperators

namespace Cert.KernelIdeal.QkvValue

open Cert.KernelIdeal Cert.CausalAttention
open Idealize.ShloMosaic Idealize.ShloMosaic.TcCoe Idealize.ShloMosaic.ValueIdx
open Idealize.ShloMosaic.Pipeline (Dat)

variable (m : (ℓ : Loc nD τ sig) → Buf (Elt Ideal) ℓ)

/-! ## Output window 4 -/

/-- What point `t` writes back to output 1 is block `t` of the projected array of x and the launch's weight 1. -/
theorem flushed4_eq (c : Dev nD) (t : Fin cfg0.N) :
    (Qkv.dat0 m c).flushed 4 t = ((cfg0.win 4).blk t).view.read (Elt Ideal)
      (projArr (m ((c : Thread nD τ).loc main_arg0)) (m ((c : Thread nD τ).loc main_arg1))) := by
  show (cfg0.win 4).cut (grid0.coords t) ((Qkv.dat0 m c).after 4 t) = _
  rw [Qkv.after0_4_pay]
  obtain ⟨e0, e1, e2, e3, -, -, -, -, -, -, e5, e6⟩ := idx_facts t
  funext j
  obtain ⟨u, r, f, rfl⟩ : ∃ (u : Fin 1) (r : Fin 512) (f : Fin 1024), j = ix3 u r f := ⟨j 0, j 1, j 2, eq_ix3 j⟩
  obtain rfl : u = 0 := Subsingleton.elim _ _
  obtain ⟨b, s, g, hk⟩ : ∃ (b : Fin 4) (s : Fin 2048) (g : Fin 1024),
      ((cfg0.win 4).blk t).view.emb (ix3 (0 : Fin 1) r f) = ix3 b s g := ⟨_, _, _, eq_ix3 _⟩
  have hb : win0_4.index t (0 : Fin 3) * 1 + 1 * 0 = b.val := congrArg (fun i : S4x2048x1024.Idx => (i 0).val) hk
  have hs : win0_4.index t (1 : Fin 3) * 512 + 1 * r.val = s.val := congrArg (fun i : S4x2048x1024.Idx => (i 1).val) hk
  have hg : win0_4.index t (2 : Fin 3) * 1024 + 1 * f.val = g.val := congrArg (fun i : S4x2048x1024.Idx => (i 2).val) hk

  show Gen.k0_pay2 (Qkv.iblk m c 0 t) (Qkv.iblk m c 1 t) (ix3 (0 : Fin 1) r f)
    = projArr (m ((c : Thread nD τ).loc main_arg0)) (m ((c : Thread nD τ).loc main_arg1)) (((cfg0.win 4).blk t).view.emb (ix3 (0 : Fin 1) r f))
  rw [hk]
  have hgf : g = f := Fin.ext (by omega)
  subst hgf
  exact block_apply Gen.k0_pay2 pay2_apply (Qkv.iblk m c 0 t) (Qkv.iblk m c 1 t)
    (m ((c : Thread nD τ).loc main_arg0)) (m ((c : Thread nD τ).loc main_arg1)) r g b s g
    (fun d => xblk_apply m c t (ix3 (0 : Fin 1) r d) (ix3 b s d)
      (by show b.val = win0_0.index t (0 : Fin 3) * 1 + 1 * 0; omega)
      (by show s.val = win0_0.index t (1 : Fin 3) * 512 + 1 * r.val; omega)
      (by show d.val = win0_0.index t (2 : Fin 3) * 1024 + 1 * d.val; omega))
    (fun d => wblk1_apply m c t g d)

/-- An index of the array is in point `t`'s block iff each coordinate is in the block's range on its axis. -/
theorem mem_blk4 (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v6_0).slice (win0_4.rect t)).set ↔ _
  rw [View.set_slice_whole, Rect.mem_set_unit]
  exact Iff.rfl

/-- The sixteen blocks tile the array: index (b, s, f) is in the block of the point whose batch is b and whose row
    block is s / 512. -/
theorem cover4 (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, -, -, -, -, -, -, -, -, -, e5, e6⟩ := idx_facts t
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, Gen.flush0_4 t, ?_⟩
  rw [mem_blk4]

  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- Output 1 after the last write-back: the projected array of x and the launch's first weight. -/
theorem q_final (c : Dev nD) :
    (Qkv.dat0 (F := Ideal) m c).arrAt 4 cfg0.N
      = projArr (m ((c : Thread nD τ).loc main_arg0)) (m ((c : Thread nD τ).loc main_arg1)) :=
  (Qkv.dat0 m c).arrAt_eq_of_cover 4 _ (fun t _ => flushed4_eq m c t) cover4

/-- The same at an index given by its coordinates: at (b, i, f), coordinate f % 64 of head f / 64's projection of
    token (b, i). -/
theorem q_final_apply (c : Dev nD) (b : Fin 4) (i : Fin 2048) (f : Fin 1024) :
    ((Qkv.dat0 (F := Ideal) m c).arrAt 4 cfg0.N : S4x2048x1024.Idx → EReal) (ix3 b i f)
      = proj (m ((c : Thread nD τ).loc main_arg0)) (m ((c : Thread nD τ).loc main_arg1)) b (headOf f) i (coordOf f) := by
  rw [q_final]
  rfl

end Cert.KernelIdeal.QkvValue

end
-- ==== Proof.QkvValue5.lean ====
/-
  The projection kernel's second output array after its last write-back.

  Each point writes back, to each output, the restriction of one function of the launch's arrays to the point's rows
  (the projected array of x and that output's weight), and the sixteen points' blocks tile the [4, 2048, 1024] array:
  index (b, s, f) lies in the block of the point with batch b and row block s / 512. An array whose every index is
  covered by a written-back block of one function ends holding that function. So the second output holds, at (b, s, 64·h + e),
  coordinate e of head h's projection of token (b, s) by the second weight.
-/
import proofs.«100367_j74028056313973_2_alg».proof.Proof.QkvValue3

set_option maxRecDepth 16384

noncomputable section

open scoped BigOperators

namespace Cert.KernelIdeal.QkvValue

open Cert.KernelIdeal Cert.CausalAttention
open Idealize.ShloMosaic Idealize.ShloMosaic.TcCoe Idealize.ShloMosaic.ValueIdx
open Idealize.ShloMosaic.Pipeline (Dat)

variable (m : (ℓ : Loc nD τ sig) → Buf (Elt Ideal) ℓ)

/-! ## Output window 5 -/

/-- What point `t` writes back to output 2 is block `t` of the projected array of x and the launch's weight 2. -/
theorem flushed5_eq (c : Dev nD) (t : Fin cfg0.N) :
    (Qkv.dat0 m c).flushed 5 t = ((cfg0.win 5).blk t).view.read (Elt Ideal)
      (projArr (m ((c : Thread nD τ).loc main_arg0)) (m ((c : Thread nD τ).loc main_arg2))) := by
  show (cfg0.win 5).cut (grid0.coords t) ((Qkv.dat0 m c).after 5 t) = _
  rw [Qkv.after0_5_pay]
  obtain ⟨e0, e1, e2, e3, -, -, -, -, -, -, e5, e6⟩ := idx_facts t
  funext j
  obtain ⟨u, r, f, rfl⟩ : ∃ (u : Fin 1) (r : Fin 512) (f : Fin 1024), j = ix3 u r f := ⟨j 0, j 1, j 2, eq_ix3 j⟩
  obtain rfl : u = 0 := Subsingleton.elim _ _
  obtain ⟨b, s, g, hk⟩ : ∃ (b : Fin 4) (s : Fin 2048) (g : Fin 1024),
      ((cfg0.win 5).blk t).view.emb (ix3 (0 : Fin 1) r f) = ix3 b s g := ⟨_, _, _, eq_ix3 _⟩
  have hb : win0_5.index t (0 : Fin 3) * 1 + 1 * 0 = b.val := congrArg (fun i : S4x2048x1024.Idx => (i 0).val) hk
  have hs : win0_5.index t (1 : Fin 3) * 512 + 1 * r.val = s.val := congrArg (fun i : S4x2048x1024.Idx => (i 1).val) hk
  have hg : win0_5.index t (2 : Fin 3) * 1024 + 1 * f.val = g.val := congrArg (fun i : S4x2048x1024.Idx => (i 2).val) hk
  rw [e5] at hb hs hg
  show Gen.k0_pay3 (Qkv.iblk m c 0 t) (Qkv.iblk m c 2 t) (ix3 (0 : Fin 1) r f)
    = projArr (m ((c : Thread nD τ).loc main_arg0)) (m ((c : Thread nD τ).loc main_arg2)) (((cfg0.win 5).blk t).view.emb (ix3 (0 : Fin 1) r f))
  rw [hk]
  have hgf : g = f := Fin.ext (by omega)
  subst hgf
  exact block_apply Gen.k0_pay3 pay3_apply (Qkv.iblk m c 0 t) (Qkv.iblk m c 2 t)
    (m ((c : Thread nD τ).loc main_arg0)) (m ((c : Thread nD τ).loc main_arg2)) r g b s g
    (fun d => xblk_apply m c t (ix3 (0 : Fin 1) r d) (ix3 b s d)
      (by show b.val = win0_0.index t (0 : Fin 3) * 1 + 1 * 0; omega)
      (by show s.val = win0_0.index t (1 : Fin 3) * 512 + 1 * r.val; omega)
      (by show d.val = win0_0.index t (2 : Fin 3) * 1024 + 1 * d.val; omega))
    (fun d => wblk2_apply m c t g d)

/-- An index of the array is in point `t`'s block iff each coordinate is in the block's range on its axis. -/
theorem mem_blk5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v6_1).slice (win0_5.rect t)).set ↔ _
  rw [View.set_slice_whole, Rect.mem_set_unit]
  exact Iff.rfl

/-- The sixteen blocks tile the array: index (b, s, f) is in the block of the point whose batch is b and whose row
    block is s / 512. -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, -, -, -, -, -, -, -, -, -, e5, e6⟩ := idx_facts t
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, Gen.flush0_5 t, ?_⟩
  rw [mem_blk5]
  rw [e5]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- Output 2 after the last write-back: the projected array of x and the launch's second weight. -/
theorem k_final (c : Dev nD) :
    (Qkv.dat0 (F := Ideal) m c).arrAt 5 cfg0.N
      = projArr (m ((c : Thread nD τ).loc main_arg0)) (m ((c : Thread nD τ).loc main_arg2)) :=
  (Qkv.dat0 m c).arrAt_eq_of_cover 5 _ (fun t _ => flushed5_eq m c t) cover5

/-- The same at an index given by its coordinates: at (b, i, f), coordinate f % 64 of head f / 64's projection of
    token (b, i). -/
theorem k_final_apply (c : Dev nD) (b : Fin 4) (i : Fin 2048) (f : Fin 1024) :
    ((Qkv.dat0 (F := Ideal) m c).arrAt 5 cfg0.N : S4x2048x1024.Idx → EReal) (ix3 b i f)
      = proj (m ((c : Thread nD τ).loc main_arg0)) (m ((c : Thread nD τ).loc main_arg2)) b (headOf f) i (coordOf f) := by
  rw [k_final]
  rfl

end Cert.KernelIdeal.QkvValue

end
-- ==== Proof.QkvValue6.lean ====
/-
  The projection kernel's third output array after its last write-back.

  Each point writes back, to each output, the restriction of one function of the launch's arrays to the point's rows
  (the projected array of x and that output's weight), and the sixteen points' blocks tile the [4, 2048, 1024] array:
  index (b, s, f) lies in the block of the point with batch b and row block s / 512. An array whose every index is
  covered by a written-back block of one function ends holding that function. So the third output holds, at (b, s, 64·h + e),
  coordinate e of head h's projection of token (b, s) by the third weight.
-/
import proofs.«100367_j74028056313973_2_alg».proof.Proof.QkvValue3

set_option maxRecDepth 16384

noncomputable section

open scoped BigOperators

namespace Cert.KernelIdeal.QkvValue

open Cert.KernelIdeal Cert.CausalAttention
open Idealize.ShloMosaic Idealize.ShloMosaic.TcCoe Idealize.ShloMosaic.ValueIdx
open Idealize.ShloMosaic.Pipeline (Dat)

variable (m : (ℓ : Loc nD τ sig) → Buf (Elt Ideal) ℓ)

/-! ## Output window 6 -/

/-- What point `t` writes back to output 3 is block `t` of the projected array of x and the launch's weight 3. -/
theorem flushed6_eq (c : Dev nD) (t : Fin cfg0.N) :
    (Qkv.dat0 m c).flushed 6 t = ((cfg0.win 6).blk t).view.read (Elt Ideal)
      (projArr (m ((c : Thread nD τ).loc main_arg0)) (m ((c : Thread nD τ).loc main_arg3))) := by
  show (cfg0.win 6).cut (grid0.coords t) ((Qkv.dat0 m c).after 6 t) = _
  rw [Qkv.after0_6_pay]
  obtain ⟨e0, e1, e2, e3, -, -, -, -, -, -, e5, e6⟩ := idx_facts t
  funext j
  obtain ⟨u, r, f, rfl⟩ : ∃ (u : Fin 1) (r : Fin 512) (f : Fin 1024), j = ix3 u r f := ⟨j 0, j 1, j 2, eq_ix3 j⟩
  obtain rfl : u = 0 := Subsingleton.elim _ _
  obtain ⟨b, s, g, hk⟩ : ∃ (b : Fin 4) (s : Fin 2048) (g : Fin 1024),
      ((cfg0.win 6).blk t).view.emb (ix3 (0 : Fin 1) r f) = ix3 b s g := ⟨_, _, _, eq_ix3 _⟩
  have hb : win0_6.index t (0 : Fin 3) * 1 + 1 * 0 = b.val := congrArg (fun i : S4x2048x1024.Idx => (i 0).val) hk
  have hs : win0_6.index t (1 : Fin 3) * 512 + 1 * r.val = s.val := congrArg (fun i : S4x2048x1024.Idx => (i 1).val) hk
  have hg : win0_6.index t (2 : Fin 3) * 1024 + 1 * f.val = g.val := congrArg (fun i : S4x2048x1024.Idx => (i 2).val) hk
  rw [e6] at hb hs hg
  show Gen.k0_pay4 (Qkv.iblk m c 0 t) (Qkv.iblk m c 3 t) (ix3 (0 : Fin 1) r f)
    = projArr (m ((c : Thread nD τ).loc main_arg0)) (m ((c : Thread nD τ).loc main_arg3)) (((cfg0.win 6).blk t).view.emb (ix3 (0 : Fin 1) r f))
  rw [hk]
  have hgf : g = f := Fin.ext (by omega)
  subst hgf
  exact block_apply Gen.k0_pay4 pay4_apply (Qkv.iblk m c 0 t) (Qkv.iblk m c 3 t)
    (m ((c : Thread nD τ).loc main_arg0)) (m ((c : Thread nD τ).loc main_arg3)) r g b s g
    (fun d => xblk_apply m c t (ix3 (0 : Fin 1) r d) (ix3 b s d)
      (by show b.val = win0_0.index t (0 : Fin 3) * 1 + 1 * 0; omega)
      (by show s.val = win0_0.index t (1 : Fin 3) * 512 + 1 * r.val; omega)
      (by show d.val = win0_0.index t (2 : Fin 3) * 1024 + 1 * d.val; omega))
    (fun d => wblk3_apply m c t g d)

/-- An index of the array is in point `t`'s block iff each coordinate is in the block's range on its axis. -/
theorem mem_blk6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v6_2).slice (win0_6.rect t)).set ↔ _
  rw [View.set_slice_whole, Rect.mem_set_unit]
  exact Iff.rfl

/-- The sixteen blocks tile the array: index (b, s, f) is in the block of the point whose batch is b and whose row
    block is s / 512. -/
theorem cover6 (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  obtain ⟨-, -, -, -, -, -, -, -, -, -, e5, e6⟩ := idx_facts t
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, Gen.flush0_6 t, ?_⟩
  rw [mem_blk6]
  rw [e6]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- Output 3 after the last write-back: the projected array of x and the launch's third weight. -/
theorem v_final (c : Dev nD) :
    (Qkv.dat0 (F := Ideal) m c).arrAt 6 cfg0.N
      = projArr (m ((c : Thread nD τ).loc main_arg0)) (m ((c : Thread nD τ).loc main_arg3)) :=
  (Qkv.dat0 m c).arrAt_eq_of_cover 6 _ (fun t _ => flushed6_eq m c t) cover6

/-- The same at an index given by its coordinates: at (b, i, f), coordinate f % 64 of head f / 64's projection of
    token (b, i). -/
theorem v_final_apply (c : Dev nD) (b : Fin 4) (i : Fin 2048) (f : Fin 1024) :
    ((Qkv.dat0 (F := Ideal) m c).arrAt 6 cfg0.N : S4x2048x1024.Idx → EReal) (ix3 b i f)
      = proj (m ((c : Thread nD τ).loc main_arg0)) (m ((c : Thread nD τ).loc main_arg3)) b (headOf f) i (coordOf f) := by
  rw [v_final]
  rfl

end Cert.KernelIdeal.QkvValue

end
-- ==== Proof.GlueArrays.lean ====
/-
  What the attention region finds in its three input arrays.

  The buffers before the attention region are the buffers before the projection region with the three projected arrays
  put in; with the projection region's own final arrays in that table, the attention region finds in its query, key and
  value arrays the three projections of the launch's input by the launch's three weights.
-/
import proofs.«100367_j74028056313973_2_alg».proof.Proof.Whole
import proofs.«100367_j74028056313973_2_alg».proof.Proof.QkvValue4
import proofs.«100367_j74028056313973_2_alg».proof.Proof.QkvValue5
import proofs.«100367_j74028056313973_2_alg».proof.Proof.QkvValue6

set_option maxRecDepth 16384

noncomputable section

namespace Cert.KernelIdeal.Glue

open Cert.KernelIdeal Cert.KernelIdeal.Gen Cert.KernelIdeal.Whole Cert.KernelIdeal.QkvValue
open Idealize.ShloMosaic Idealize.ShloMosaic.TcCoe Idealize.ShloMosaic.ValueIdx
open Cert.CausalAttention

variable (m : (ℓ : Loc nD τ sig) → Buf (Elt Ideal) ℓ)

/-- The query array the attention region finds is the projection region's first output. -/
theorem V2_q (c : Dev nD) : V2 m (outsQ m) c main_v6_0 = qArr m c := by
  simp only [V2]
  rw [Function.update_of_ne (by decide), Function.update_of_ne (by decide), Function.update_self]
  simp only [outsQ]
  rw [Function.update_of_ne (by decide), Function.update_of_ne (by decide), Function.update_self]

/-- The key array it finds is the second output. -/
theorem V2_k (c : Dev nD) : V2 m (outsQ m) c main_v6_1 = kArr m c := by
  simp only [V2]
  rw [Function.update_of_ne (by decide), Function.update_self]
  simp only [outsQ]
  rw [Function.update_of_ne (by decide), Function.update_self]

/-- The value array it finds is the third output. -/
theorem V2_v (c : Dev nD) : V2 m (outsQ m) c main_v6_2 = vArr m c := by
  simp only [V2]
  rw [Function.update_self]
  simp only [outsQ]
  rw [Function.update_self]

/-- The query array at (b, i, f): coordinate f % 64 of head f / 64's query projection of token (b, i). -/
theorem found_q (c : Dev nD) (b : Fin 4) (i : Fin 2048) (f : Fin 1024) :
    (V2 m (outsQ m) c main_v6_0 : S4x2048x1024.Idx → Elt Ideal .bf16) (ix3 b i f)
      = proj (m ((c : Thread nD τ).loc main_arg0)) (m ((c : Thread nD τ).loc main_arg1)) b (headOf f) i (coordOf f) := by
  rw [V2_q]
  exact q_final_apply m c b i f

/-- The key array at (b, i, f). -/
theorem found_k (c : Dev nD) (b : Fin 4) (i : Fin 2048) (f : Fin 1024) :
    (V2 m (outsQ m) c main_v6_1 : S4x2048x1024.Idx → Elt Ideal .bf16) (ix3 b i f)
      = proj (m ((c : Thread nD τ).loc main_arg0)) (m ((c : Thread nD τ).loc main_arg2)) b (headOf f) i (coordOf f) := by
  rw [V2_k]
  exact k_final_apply m c b i f

/-- The value array at (b, i, f). -/
theorem found_v (c : Dev nD) (b : Fin 4) (i : Fin 2048) (f : Fin 1024) :
    (V2 m (outsQ m) c main_v6_2 : S4x2048x1024.Idx → Elt Ideal .bf16) (ix3 b i f)
      = proj (m ((c : Thread nD τ).loc main_arg0)) (m ((c : Thread nD τ).loc main_arg3)) b (headOf f) i (coordOf f) := by
  rw [V2_v]
  exact v_final_apply m c b i f

end Cert.KernelIdeal.Glue
-- ==== Proof.AttnValue2.lean ====
/-
  The attention kernel's body as a chain of tile steps, for any float instance.

  The body loads the two 64-column halves of the query block (one per head of the pair) and, for every key tile it
  visits, the matching halves of the tile's 512 rows of the key and value blocks. A head's state is the triple
  (running maximum, running sum, accumulator) of its 512 query rows; every point starts it from the reset values
  (the named mask constant, 0, 0). One tile step maps a state to the next one from the head's query half, the tile's mask
  bits and the tile's key and value halves. The output block is, side by side, accumulator / sum of the two heads'
  last states. The states after one to four tiles are named here, head by head, so that the four control cases of
  the body (tiles 0 … sq are visited at query tile sq) can each be stated as ONE term.
-/
import proofs.«100367_j74028056313973_2_alg».proof.Proof.Gen.KernelIdeal.Skeleton
import Idealize.ShloMosaic.Lib.Pipeline.FrameBody

set_option maxRecDepth 16384

noncomputable section

namespace Cert.KernelIdeal.AttnValue

open Cert.KernelIdeal Cert.KernelIdeal.Gen
open Idealize.ShloMosaic

variable {F : FTy → Type} [FloatOps F] [Named F]

/-! ## The loads -/

/-- Columns 0 … 63 of the query block: the first head's query rows. -/
abbrev ldQ0 (x0 : Vec F S1x512x128 .bf16) : Vec F S1x512x64 .bf16 :=
  View.ld (Val := Elt F) x0 (Rect.unit ![0, 0, 0] S1x512x64.size inb_S1x512x128_S1x512x64_0_0_0)
/-- Columns 64 … 127 of the query block: the second head's query rows. -/
abbrev ldQ1 (x0 : Vec F S1x512x128 .bf16) : Vec F S1x512x64 .bf16 :=
  View.ld (Val := Elt F) x0 (Rect.unit ![0, 0, 64] S1x512x64.size inb_S1x512x128_S1x512x64_0_0_64)

/-- Rows 512·j … 512·j + 511, columns 64·hd … 64·hd + 63 of a key or value block: tile j's half for head hd (ldTjhd). -/
abbrev ldT00 (x : Vec F S1x2048x128 .bf16) : Vec F S1x512x64 .bf16 :=
  View.ld (Val := Elt F) x (Rect.unit ![0, 0, 0] S1x512x64.size inb_S1x2048x128_S1x512x64_0_0_0)
abbrev ldT01 (x : Vec F S1x2048x128 .bf16) : Vec F S1x512x64 .bf16 :=
  View.ld (Val := Elt F) x (Rect.unit ![0, 0, 64] S1x512x64.size inb_S1x2048x128_S1x512x64_0_0_64)
abbrev ldT10 (x : Vec F S1x2048x128 .bf16) : Vec F S1x512x64 .bf16 :=
  View.ld (Val := Elt F) x (Rect.unit ![0, 512, 0] S1x512x64.size inb_S1x2048x128_S1x512x64_0_512_0)
abbrev ldT11 (x : Vec F S1x2048x128 .bf16) : Vec F S1x512x64 .bf16 :=
  View.ld (Val := Elt F) x (Rect.unit ![0, 512, 64] S1x512x64.size inb_S1x2048x128_S1x512x64_0_512_64)
abbrev ldT20 (x : Vec F S1x2048x128 .bf16) : Vec F S1x512x64 .bf16 :=
  View.ld (Val := Elt F) x (Rect.unit ![0, 1024, 0] S1x512x64.size inb_S1x2048x128_S1x512x64_0_1024_0)
abbrev ldT21 (x : Vec F S1x2048x128 .bf16) : Vec F S1x512x64 .bf16 :=
  View.ld (Val := Elt F) x (Rect.unit ![0, 1024, 64] S1x512x64.size inb_S1x2048x128_S1x512x64_0_1024_64)
abbrev ldT30 (x : Vec F S1x2048x128 .bf16) : Vec F S1x512x64 .bf16 :=
  View.ld (Val := Elt F) x (Rect.unit ![0, 1536, 0] S1x512x64.size inb_S1x2048x128_S1x512x64_0_1536_0)
abbrev ldT31 (x : Vec F S1x2048x128 .bf16) : Vec F S1x512x64 .bf16 :=
  View.ld (Val := Elt F) x (Rect.unit ![0, 1536, 64] S1x512x64.size inb_S1x2048x128_S1x512x64_0_1536_64)

/-- Column e of head hd's half, among a block's 128 columns. -/
abbrev hcol (hd : Fin 2) (e : Fin 64) : Fin 128 := ⟨64 * hd.val + e.val, by have := hd.isLt; have := e.isLt; omega⟩

/-! ## One tile step -/

/-- A head's state: running maximum and running sum (one entry per query row) and accumulator (64 per row). -/
abbrev St (F : FTy → Type) : Type := FVec F S512x1 .f32 × FVec F S512x1 .f32 × FVec F S512x64 .f32

/-- One key tile: from the head's query half, the tile's mask bits and its key and value halves, the next state. The
    new sum and the new accumulator are formed with the OLD maximum in hand (the body stores the new maximum last). -/
def step (q : FVec F S512x64 .bf16) (mask : IVec S512x512 1) (kt vl : Vec F S1x512x64 .bf16) (s : St F) : St F :=
  (k1_pay3 (k1_pay24 q mask kt s.1), k1_pay27 q mask kt s.1 s.2.1,
    k1_pay2 (k1_pay22 vl) (k1_pay25 q mask kt s.1) (k1_pay26 q mask kt s.1) s.2.2)

/-- The first head's query half, as the products take it. -/
def q0 (x0 : Vec F S1x512x128 .bf16) : FVec F S512x64 .bf16 := k1_pay85 (ldQ0 x0)
/-- The second head's. -/
def q1 (x0 : Vec F S1x512x128 .bf16) : FVec F S512x64 .bf16 := k1_pay1 (ldQ1 x0)

/-- The reset state of the first head. -/
def init0 : St F := (k1_pay79, k1_pay80, k1_pay81)
/-- The reset state of the second head. -/
def init1 : St F := (k1_pay82, k1_pay83, k1_pay84)

/-! ## The states after one to four tiles (w: the query tile's word, which the masks read) -/

def hs0_1 (w : BitVec 32) (x0 : Vec F S1x512x128 .bf16) (x1 x2 : Vec F S1x2048x128 .bf16) : St F :=
  step (q0 x0) (k1_pay11 w) (ldT00 x1) (ldT00 x2) init0
def hs0_2 (w : BitVec 32) (x0 : Vec F S1x512x128 .bf16) (x1 x2 : Vec F S1x2048x128 .bf16) : St F :=
  step (q0 x0) (k1_pay28 w) (ldT10 x1) (ldT10 x2) (hs0_1 w x0 x1 x2)
def hs0_3 (w : BitVec 32) (x0 : Vec F S1x512x128 .bf16) (x1 x2 : Vec F S1x2048x128 .bf16) : St F :=
  step (q0 x0) (k1_pay45 w) (ldT20 x1) (ldT20 x2) (hs0_2 w x0 x1 x2)
def hs0_4 (w : BitVec 32) (x0 : Vec F S1x512x128 .bf16) (x1 x2 : Vec F S1x2048x128 .bf16) : St F :=
  step (q0 x0) (k1_pay62 w) (ldT30 x1) (ldT30 x2) (hs0_3 w x0 x1 x2)

def hs1_1 (w : BitVec 32) (x0 : Vec F S1x512x128 .bf16) (x1 x2 : Vec F S1x2048x128 .bf16) : St F :=
  step (q1 x0) (k1_pay11 w) (ldT01 x1) (ldT01 x2) init1
def hs1_2 (w : BitVec 32) (x0 : Vec F S1x512x128 .bf16) (x1 x2 : Vec F S1x2048x128 .bf16) : St F :=
  step (q1 x0) (k1_pay28 w) (ldT11 x1) (ldT11 x2) (hs1_1 w x0 x1 x2)
def hs1_3 (w : BitVec 32) (x0 : Vec F S1x512x128 .bf16) (x1 x2 : Vec F S1x2048x128 .bf16) : St F :=
  step (q1 x0) (k1_pay45 w) (ldT21 x1) (ldT21 x2) (hs1_2 w x0 x1 x2)
def hs1_4 (w : BitVec 32) (x0 : Vec F S1x512x128 .bf16) (x1 x2 : Vec F S1x2048x128 .bf16) : St F :=
  step (q1 x0) (k1_pay62 w) (ldT31 x1) (ldT31 x2) (hs1_3 w x0 x1 x2)

/-- The output block from the two heads' last states: accumulator / sum, the first head's 64 columns then the second's. -/
def outOf (s0 s1 : St F) : FVec F S1x512x128 .f32 := k1_pay10 s0.2.2 s0.2.1 s1.2.2 s1.2.1

end Cert.KernelIdeal.AttnValue

end
-- ==== Proof.AttnValue3A.lean ====
/-
  The attention kernel's output block in the control case of query tile 0: key tiles 0 … 0 are visited. The run
  found one piece, the whole-block store of the final payload; its arguments are the scratch buffers' last stores read
  back, each the tile step's payload over the stores before it, down to the resets. So the block is the output
  formula at the two heads' states after 1 tile step.
-/
import proofs.«100367_j74028056313973_2_alg».proof.Proof.AttnFrame
import proofs.«100367_j74028056313973_2_alg».proof.Proof.AttnValue2
import Idealize.ShloMosaic.Lib.Pipeline.Value

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- What case A leaves in the output's staging buffer. -/
theorem outA_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec F S1x512x128 .bf16) (x1 : Vec F S1x2048x128 .bf16) (x2 : Vec F S1x2048x128 .bf16) :
    outA c i arg3 harg3 arg4 harg4 arg5 harg5 arg6 harg6 arg7 harg7 arg8 harg8 arg9 harg9 arg10 harg10 arg11 harg11 arg12 harg12 hc0 hc1 hc2 hc3 x0 x1 x2
      = outOf (hs0_1 (BitVec.ofNat 32 (i 2).val) x0 x1 x2) (hs1_1 (BitVec.ofNat 32 (i 2).val) x0 x1 x2) := by
  unfold outA
  rw [View.read_writes_eq_canon _ _ _ (coverA c i arg3 harg3 arg4 harg4 arg5 harg5 arg6 harg6 arg7 harg7 arg8 harg8 arg9 harg9 arg10 harg10 arg11 harg11 arg12 harg12 hc0 hc1 hc2 hc3 x0 x1 x2)]
  unfold kernelRunA
  dsimp only
  sl_unfold_words
  rw [View.canon_unit_zero (show (![0, 0, 0] : Fin 3 → Nat) = fun _ => 0 from funext fun a => by fin_cases a <;> rfl)]
  simp only [View.readCov_cons_toLoadRect, View.readAt_eq_ld, harg3.read_unread, harg4.read_unread, harg5.read_unread]
  rfl

end Cert.KernelIdeal.AttnValue

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«100367_j74028056313973_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.AttnValue1.lean ====
/-
  One key tile met by one head of the attention kernel, read at an index at the ideal values.

  A tile step takes the head's query half q (512 × 64), the tile's key half as it is loaded (1 × 512 × 64), the tile's
  value half v (512 × 64), the mask bits (512 × 512), and the running state of every query row: maximum m and sum l
  (columns, 512 × 1) and accumulator a (512 × 64). For query row r it forms the masked scores s_c, c the key's column in
  the tile: row r of q against row c of the key half, times the literal 1/8, where the mask bit is set, and the named
  constant — −∞ at the ideal values — where it is not. Then the new maximum m' = max m (max_c s_c, folded from −∞),
  α = exp (m − m'), p_c = exp (s_c − m'), the new sum α·l + (0 + ∑_c p_c), and column e of the new accumulator,
  α·a_e + ∑_c p_c · v (c, e). These are the row recursion's one-tile update (mNext, lNext, aNext) at the scores s and
  the value column e: nothing but reading each vector operation at an index.
-/
import proofs.«100367_j74028056313973_2_alg».proof.Proof.Gen.KernelIdeal.Skeleton
import proofs.«100367_j74028056313973_2_alg».proof.Proof.LibKeepdims
import proofs.«100367_j74028056313973_2_alg».proof.Proof.LibSoftmaxRows
import proofs.«100367_j74028056313973_2_alg».proof.Proof.LibTransposedRhsMatmul
import proofs.«100367_j74028056313973_2_alg».proof.Proof.LibPlainMatmul
import proofs.«100367_j74028056313973_2_alg».proof.Proof.TiledRows

set_option maxRecDepth 16384

noncomputable section

open scoped BigOperators

namespace Cert.KernelIdeal.AttnValue

open Cert.KernelIdeal Cert.KernelIdeal.Gen
open Idealize.ShloMosaic Idealize.ShloMosaic.ValueIdx
open Cert.CausalAttention.Tiles

/-- A loaded half tile [1, 512, 64] viewed [512, 64]: entry (p, e) is entry (0, p, e). -/
theorem dropUnit_apply (v : Vec Ideal S1x512x64 .bf16) (p : Fin 512) (e : Fin 64) :
    shapeCast S512x64 v shapeCasts_S1x512x64_S512x64 (ix2 p e) = v (ix3 0 p e) :=
  shapeCast_apply v shapeCasts_S1x512x64_S512x64 (ix2 p e) (ix3 0 p e) (by
    rw [Shape.rowMajor_val_three, Shape.rowMajor_val_two]
    show (0 * 512 + p.val) * 64 + e.val = p.val * 64 + e.val
    omega)

/-- The query half against the key half, at (r, c): row r of q against row c of the key half. -/
theorem qk_apply (q : FVec Ideal S512x64 .bf16) (kt : Vec Ideal S1x512x64 .bf16) (r c : Fin 512) :
    matmul (φ₁ := .bf16) (φ₂ := .bf16) dot_S512x64_S512x64_S512x512_1_1_0_0_n_n none q
        (shapeCast S512x64 kt shapeCasts_S1x512x64_S512x64) (constant S512x512 .f32 0x00000000#32) (ix2 r c)
      = ∑ e : Fin 64, q (ix2 r e) * kt (ix3 0 c e) :=
  (TransposedRhsMatmul.transposedRhsMatmul_apply (M := 512) (K := 64) (N := 512) (φ₁ := .bf16) (φ₂ := .bf16) none q
      (shapeCast S512x64 kt shapeCasts_S1x512x64_S512x64) r c).trans
    (Finset.sum_congr rfl fun e _ => congrArg (q (ix2 r e) * ·) (dropUnit_apply kt c e))

/-- The named mask value is −∞ at the ideal values. -/
theorem negBig_eq : Named.named (F := Ideal) κ "neg_big" (φ := .f32) 0xFF333333#32 = ⊥ :=
  IdealRules.named_const.ideal_named_scalar κ "neg_big" _ ⊥ rfl

/-- The masked score at (r, c). -/
theorem score_apply (q : FVec Ideal S512x64 .bf16) (mask : IVec S512x512 1) (kt : Vec Ideal S1x512x64 .bf16)
    (r c : Fin 512) :
    k1_pay23 (F := Ideal) q mask kt (ix2 r c)
      = Scalar.select (mask (ix2 r c))
          ((∑ e : Fin 64, q (ix2 r e) * kt (ix3 0 c e)) * Ideal.ofBits .f32 0x3E000000#32) ⊥ := by
  unfold k1_pay23
  exact congrArg₂ (Scalar.select (mask (ix2 r c)))
    (congrArg (· * Ideal.ofBits .f32 0x3E000000#32) (qk_apply q kt r c)) negBig_eq

/-- The row maximum's starting word is −∞. -/
theorem negInf_eq : Ideal.ofBits .f32 0xFF800000#32 = ⊥ := by simp [Ideal.ofBits, Ideal.ieee]

/-- The new running maximum of row r. -/
theorem stepM_apply (q : FVec Ideal S512x64 .bf16) (mask : IVec S512x512 1) (kt : Vec Ideal S1x512x64 .bf16)
    (m : Vec Ideal S512x1 .f32) (r : Fin 512) :
    k1_pay24 (F := Ideal) q mask kt m (ix2 r 0)
      = mNext (m (ix2 r 0)) (fun c => k1_pay23 (F := Ideal) q mask kt (ix2 r c)) := by
  unfold k1_pay24
  refine congrArg (max (m (ix2 r 0))) ?_
  refine (Keepdims.cast_col_apply _ shapeCasts_S512_S512x1 r 0).trans ?_
  refine (SoftmaxRows.rowMax2_apply (k1_pay23 (F := Ideal) q mask kt) 0xFF800000#32 reduces_S512x512_S512 (.inl rfl) rfl r).trans ?_
  rw [negInf_eq]

/-- The rescaling factor of row r. -/
theorem alpha_apply (q : FVec Ideal S512x64 .bf16) (mask : IVec S512x512 1) (kt : Vec Ideal S1x512x64 .bf16)
    (m : Vec Ideal S512x1 .f32) (r : Fin 512) :
    k1_pay25 (F := Ideal) q mask kt m (ix2 r 0)
      = Ideal.exp (m (ix2 r 0) - k1_pay24 (F := Ideal) q mask kt m (ix2 r 0)) := rfl

/-- The exponentiated score at (r, c). -/
theorem p_apply (q : FVec Ideal S512x64 .bf16) (mask : IVec S512x512 1) (kt : Vec Ideal S1x512x64 .bf16)
    (m : Vec Ideal S512x1 .f32) (r c : Fin 512) :
    k1_pay26 (F := Ideal) q mask kt m (ix2 r c)
      = Ideal.exp (k1_pay23 (F := Ideal) q mask kt (ix2 r c) - k1_pay24 (F := Ideal) q mask kt m (ix2 r 0)) := by
  unfold k1_pay26
  exact congrArg (fun t => Ideal.exp (k1_pay23 (F := Ideal) q mask kt (ix2 r c) - t))
    (Keepdims.bcast_col_apply _ broadcasts_S512x1_S512x512 r c)

/-- The new running sum of row r. -/
theorem stepL_apply (q : FVec Ideal S512x64 .bf16) (mask : IVec S512x512 1) (kt : Vec Ideal S1x512x64 .bf16)
    (m l : Vec Ideal S512x1 .f32) (r : Fin 512) :
    k1_pay27 (F := Ideal) q mask kt m l (ix2 r 0)
      = lNext (m (ix2 r 0)) (l (ix2 r 0)) (fun c => k1_pay23 (F := Ideal) q mask kt (ix2 r c)) := by
  unfold k1_pay27
  rw [shapeCast_self]
  refine congrArg₂ (· + ·) (congrArg (· * l (ix2 r 0)) ((alpha_apply q mask kt m r).trans ?_)) ?_
  · rw [stepM_apply]
  · refine (Keepdims.cast_col_apply _ shapeCasts_S512_S512x1 r 0).trans ?_
    refine (Keepdims.rowSum2_apply (k1_pay26 (F := Ideal) q mask kt m) 0x00000000#32 reduces_S512x512_S512 (.inl rfl) rfl r).trans ?_
    refine (Finset.sum_congr rfl fun c _ => (p_apply q mask kt m r c).trans ?_).trans (zero_add _).symm
    rw [stepM_apply]

/-- Column e of the new accumulator of row r, from any rescaling column α and weights p. -/
theorem acc_apply (vt : FVec Ideal S512x64 .bf16) (α : FVec Ideal S512x1 .f32) (p : FVec Ideal S512x512 .f32)
    (a : Vec Ideal S512x64 .f32) (r : Fin 512) (e : Fin 64) :
    k1_pay2 (F := Ideal) vt α p a (ix2 r e) = α (ix2 r 0) * a (ix2 r e) + ∑ c : Fin 512, p (ix2 r c) * vt (ix2 c e) := by
  unfold k1_pay2
  rw [shapeCast_self]
  exact congrArg₂ (· + ·) (congrArg (· * a (ix2 r e)) (Keepdims.bcast_col_apply α broadcasts_S512x1_S512x64 r e))
    (PlainMatmul.plainMatmul_apply (M := 512) (K := 512) (N := 64) (φ₁ := .bf16) (φ₂ := .bf16) none
      (truncf .bf16 p bitsLt_bf16_f32) vt r e)

/-- Column e of the new accumulator of row r. -/
theorem stepA_apply (q : FVec Ideal S512x64 .bf16) (mask : IVec S512x512 1) (kt : Vec Ideal S1x512x64 .bf16)
    (vt : FVec Ideal S512x64 .bf16) (m : Vec Ideal S512x1 .f32) (a : Vec Ideal S512x64 .f32) (r : Fin 512) (e : Fin 64) :
    k1_pay2 (F := Ideal) vt (k1_pay25 (F := Ideal) q mask kt m) (k1_pay26 (F := Ideal) q mask kt m) a (ix2 r e)
      = aNext (m (ix2 r 0)) (a (ix2 r e)) (fun c => k1_pay23 (F := Ideal) q mask kt (ix2 r c)) (fun c => vt (ix2 c e)) := by
  refine (acc_apply vt _ _ a r e).trans ?_
  refine congrArg₂ (· + ·) (congrArg (· * a (ix2 r e)) ((alpha_apply q mask kt m r).trans ?_))
    (Finset.sum_congr rfl fun c _ => congrArg (· * vt (ix2 c e)) ((p_apply q mask kt m r c).trans ?_))
  · rw [stepM_apply]
  · rw [stepM_apply]

end Cert.KernelIdeal.AttnValue

end
-- ==== Proof.AttnValue4.lean ====
/-
  A head's state after a tile step, and the output block from the two heads' last states, read at an index at the
  ideal values.

  Row r of a state is the pair (maximum, sum) and the 64 accumulator entries of query row r. A tile step at row r is
  the row recursion's update (mNext, lNext, aNext) of that row from the tile's masked scores of row r and, for
  accumulator entry e, column e of the tile's value half. The reset state is (−∞, 0, 0) at every row. The output block
  at (0, r, c) is accumulator / sum of the first head at entry c for c < 64, and of the second head at entry c − 64
  for c ≥ 64.
-/
import proofs.«100367_j74028056313973_2_alg».proof.Proof.AttnValue1
import proofs.«100367_j74028056313973_2_alg».proof.Proof.AttnValue2

set_option maxRecDepth 16384

noncomputable section

open scoped BigOperators

namespace Cert.KernelIdeal.AttnValue

open Cert.KernelIdeal Cert.KernelIdeal.Gen
open Idealize.ShloMosaic Idealize.ShloMosaic.ValueIdx
open Cert.CausalAttention.Tiles

/-! ## The reset state -/

theorem init0_m (r : Fin 512) : (init0 (F := Ideal)).1 (ix2 r 0) = ⊥ := by
  show k1_pay79 (F := Ideal) (ix2 r 0) = ⊥
  unfold k1_pay79
  rw [shapeCast_self]
  exact negBig_eq
theorem init0_l (r : Fin 512) : (init0 (F := Ideal)).2.1 (ix2 r 0) = 0 := by
  show k1_pay80 (F := Ideal) (ix2 r 0) = 0
  unfold k1_pay80
  rw [shapeCast_self]
  exact Ideal.ofBits_zero_f32
theorem init0_a (r : Fin 512) (e : Fin 64) : (init0 (F := Ideal)).2.2 (ix2 r e) = 0 := by
  show k1_pay81 (F := Ideal) (ix2 r e) = 0
  unfold k1_pay81
  rw [shapeCast_self]
  exact Ideal.ofBits_zero_f32
theorem init1_m (r : Fin 512) : (init1 (F := Ideal)).1 (ix2 r 0) = ⊥ := by
  show k1_pay82 (F := Ideal) (ix2 r 0) = ⊥
  unfold k1_pay82
  rw [shapeCast_self]
  exact negBig_eq
theorem init1_l (r : Fin 512) : (init1 (F := Ideal)).2.1 (ix2 r 0) = 0 := by
  show k1_pay83 (F := Ideal) (ix2 r 0) = 0
  unfold k1_pay83
  rw [shapeCast_self]
  exact Ideal.ofBits_zero_f32
theorem init1_a (r : Fin 512) (e : Fin 64) : (init1 (F := Ideal)).2.2 (ix2 r e) = 0 := by
  show k1_pay84 (F := Ideal) (ix2 r e) = 0
  unfold k1_pay84
  rw [shapeCast_self]
  exact Ideal.ofBits_zero_f32

/-! ## A tile step at a row -/

/-- Storing the new maximum changes nothing: a cast to its own shape. -/
theorem pay3_eq (v : FVec Ideal S512x1 .f32) : k1_pay3 (F := Ideal) v = v := shapeCast_self v _

/-- Row r of the state after a tile step, from scores σ and a value column ν that the tile's masked scores of row r
    and column e of its value half are. -/
theorem step_spec (q : FVec Ideal S512x64 .bf16) (mask : IVec S512x512 1) (kt vl : Vec Ideal S1x512x64 .bf16)
    (s : St Ideal) (r : Fin 512) (e : Fin 64) (σ ν : Fin 512 → EReal)
    (hσ : ∀ c, k1_pay23 (F := Ideal) q mask kt (ix2 r c) = σ c) (hν : ∀ c, vl (ix3 0 c e) = ν c) :
    (step q mask kt vl s).1 (ix2 r 0) = mNext (s.1 (ix2 r 0)) σ
      ∧ (step q mask kt vl s).2.1 (ix2 r 0) = lNext (s.1 (ix2 r 0)) (s.2.1 (ix2 r 0)) σ
      ∧ (step q mask kt vl s).2.2 (ix2 r e) = aNext (s.1 (ix2 r 0)) (s.2.2 (ix2 r e)) σ ν := by
  have eσ : (fun c => k1_pay23 (F := Ideal) q mask kt (ix2 r c)) = σ := funext hσ
  have eν : (fun c => k1_pay22 (F := Ideal) vl (ix2 c e)) = ν := funext fun c => (dropUnit_apply vl c e).trans (hν c)
  refine ⟨?_, ?_, ?_⟩
  · show k1_pay3 (F := Ideal) (k1_pay24 (F := Ideal) q mask kt s.1) (ix2 r 0) = _
    rw [pay3_eq, stepM_apply, eσ]
  · show k1_pay27 (F := Ideal) q mask kt s.1 s.2.1 (ix2 r 0) = _
    rw [stepL_apply, eσ]
  · show k1_pay2 (F := Ideal) (k1_pay22 (F := Ideal) vl) (k1_pay25 (F := Ideal) q mask kt s.1) (k1_pay26 (F := Ideal) q mask kt s.1) s.2.2 (ix2 r e) = _
    rw [stepA_apply, eσ, eν]

/-! ## The output block -/

/-- [512, 128] viewed [1, 512, 128]: entry (0, r, c) is entry (r, c). -/
theorem addUnit_apply (v : FVec Ideal S512x128 .f32) (r : Fin 512) (c : Fin 128) :
    shapeCast S1x512x128 v shapeCasts_S512x128_S1x512x128 (ix3 0 r c) = v (ix2 r c) :=
  shapeCast_apply v shapeCasts_S512x128_S1x512x128 (ix3 0 r c) (ix2 r c) (by
    rw [Shape.rowMajor_val_three, Shape.rowMajor_val_two]
    show r.val * 128 + c.val = (0 * 512 + r.val) * 128 + c.val
    omega)

/-- Columns 0 … 63 of the output block: the first head's accumulator over its sum. -/
theorem outOf_left (s0 s1 : St Ideal) (r : Fin 512) (e : Fin 64) :
    outOf s0 s1 (ix3 0 r (hcol 0 e)) = Ideal.div (s0.2.2 (ix2 r e)) (s0.2.1 (ix2 r 0)) := by
  unfold outOf k1_pay10
  refine (addUnit_apply _ r (hcol 0 e)).trans ?_
  refine (concatenate_pair_apply_left (t := S512x128) (s₁ := S512x64) (s₂ := S512x64) (1 : Fin 2) _ _
    concatenates_S512x64_S512x64_S512x128_d1 (ix2 r (hcol 0 e)) rfl (ix2 r e) (fun b => by
      match b with
      | ⟨0, _⟩ => rfl
      | ⟨1, _⟩ => show e.val = 64 * 0 + e.val; omega)).trans ?_
  exact congrArg (Ideal.div (s0.2.2 (ix2 r e))) (Keepdims.bcast_col_apply _ broadcasts_S512x1_S512x64 r e)

/-- Columns 64 … 127 of the output block: the second head's accumulator over its sum. -/
theorem outOf_right (s0 s1 : St Ideal) (r : Fin 512) (e : Fin 64) :
    outOf s0 s1 (ix3 0 r (hcol 1 e)) = Ideal.div (s1.2.2 (ix2 r e)) (s1.2.1 (ix2 r 0)) := by
  unfold outOf k1_pay10
  refine (addUnit_apply _ r (hcol 1 e)).trans ?_
  refine (concatenate_pair_apply_right (t := S512x128) (s₁ := S512x64) (s₂ := S512x64) (1 : Fin 2) _ _
    concatenates_S512x64_S512x64_S512x128_d1 (ix2 r (hcol 1 e)) rfl rfl (ix2 r e) (fun b hb => by
      match b with
      | ⟨0, _⟩ => rfl
      | ⟨1, _⟩ => exact absurd rfl hb) (by show e.val + 64 = 64 * 1 + e.val; omega)).trans ?_
  exact congrArg (Ideal.div (s1.2.2 (ix2 r e))) (Keepdims.bcast_col_apply _ broadcasts_S512x1_S512x64 r e)

end Cert.KernelIdeal.AttnValue

end
-- ==== Proof.AttnValue5.lean ====
/-
  The kernel's masked scores and value entries of one key tile, in terms of the three blocks the point is handed.

  Head hd of the pair reads columns 64·hd … 64·hd + 63 of each block; key tile k holds rows 512·k … 512·k + 511 of the
  key and value blocks. The mask bit at (r, c) compares position words: the query's, 512·sq + r (the query tile's word
  times 512 plus the row counter), against the key's, 512·k + c (the tile's literal offset plus the column counter);
  both are below 2³¹, so the signed comparison of the words is the comparison of the positions. The literal scale is
  the real number 1/8. So the masked score of tile k at (r, c) is: the query row against key row 512·k + c over the
  head's 64 columns, times 1/8, if 512·k + c ≤ 512·sq + r, and −∞ otherwise.
-/
import proofs.«100367_j74028056313973_2_alg».proof.Proof.AttnValue1
import proofs.«100367_j74028056313973_2_alg».proof.Proof.AttnValue2
import proofs.«100367_j74028056313973_2_alg».proof.Proof.LibCausalMask
import Idealize.ShloMosaic.Lib.Pipeline.Value

set_option maxRecDepth 16384

noncomputable section

open scoped BigOperators

namespace Cert.KernelIdeal.AttnValue

open Cert.KernelIdeal Cert.KernelIdeal.Gen
open Idealize.ShloMosaic Idealize.ShloMosaic.ValueIdx
open Cert.CausalAttention.Tiles

/-! ## The specification of a tile's scores and values -/

/-- The masked scores of query row r of query tile sq against the keys of tile k, for head hd of the pair. -/
def blockScores (x0 : Vec Ideal S1x512x128 .bf16) (x1 : Vec Ideal S1x2048x128 .bf16) (hd : Fin 2) (sq : ℕ) (r : Fin 512) :
    ℕ → Fin 512 → EReal := fun k c =>
  if 512 * k + c.val ≤ 512 * sq + r.val then
    (∑ e' : Fin 64, x0 (ix3 0 r (hcol hd e')) * x1 (ix3 0 (key k c) (hcol hd e'))) * ((1 / 8 : ℝ) : EReal)
  else ⊥

/-- Column e of head hd's values at the keys of tile k. -/
def blockVals (x2 : Vec Ideal S1x2048x128 .bf16) (hd : Fin 2) (e : Fin 64) : ℕ → Fin 512 → EReal := fun k c =>
  x2 (ix3 0 (key k c) (hcol hd e))

theorem blockScores_apply (x0 : Vec Ideal S1x512x128 .bf16) (x1 : Vec Ideal S1x2048x128 .bf16) (hd : Fin 2) (sq : ℕ)
    (r : Fin 512) (k : ℕ) (c : Fin 512) :
    blockScores x0 x1 hd sq r k c
      = if 512 * k + c.val ≤ 512 * sq + r.val then
          (∑ e' : Fin 64, x0 (ix3 0 r (hcol hd e')) * x1 (ix3 0 (key k c) (hcol hd e'))) * ((1 / 8 : ℝ) : EReal)
        else ⊥ := rfl

theorem blockVals_apply (x2 : Vec Ideal S1x2048x128 .bf16) (hd : Fin 2) (e : Fin 64) (k : ℕ) (c : Fin 512) :
    blockVals x2 hd e k c = x2 (ix3 0 (key k c) (hcol hd e)) := rfl

/-! ## The scale -/

/-- The literal the scores are multiplied by is 1/8. -/
theorem eighth_eq : Ideal.ofBits .f32 0x3E000000#32 = ((1 / 8 : ℝ) : EReal) := by
  simp [Ideal.ofBits, Ideal.ieee, -EReal.coe_mul]; norm_num

/-! ## The loads -/

/-- A half-tile load of the query block: entry (0, p, e) is the block's entry (0, p, o + e). -/
theorem ldQ_apply (x : Vec Ideal S1x512x128 .bf16) (o : ℕ)
    (inb : ∀ a, (![0, 0, o] : Fin 3 → ℕ) a + S1x512x64.size a ≤ S1x512x128.size a) (p : Fin 512) (e : Fin 64) (col : Fin 128)
    (hcol : col.val = o + e.val) :
    View.ld (Val := Elt Ideal) x (Rect.unit ![0, 0, o] S1x512x64.size inb) (ix3 0 p e) = x (ix3 0 p col) :=
  congrArg x (funext fun a => Fin.ext (by
    match a with
    | ⟨0, _⟩ => rfl
    | ⟨1, _⟩ => show 0 + 1 * p.val = p.val; omega
    | ⟨2, _⟩ => show o + 1 * e.val = col.val; omega))

/-- A half-tile load of the key or value block: entry (0, c, e) is the block's entry (0, o₁ + c, o₂ + e). -/
theorem ldT_apply (x : Vec Ideal S1x2048x128 .bf16) (o₁ o₂ : ℕ)
    (inb : ∀ a, (![0, o₁, o₂] : Fin 3 → ℕ) a + S1x512x64.size a ≤ S1x2048x128.size a) (c : Fin 512) (e : Fin 64)
    (p : Fin 2048) (col : Fin 128) (hp : p.val = o₁ + c.val) (hcol : col.val = o₂ + e.val) :
    View.ld (Val := Elt Ideal) x (Rect.unit ![0, o₁, o₂] S1x512x64.size inb) (ix3 0 c e) = x (ix3 0 p col) :=
  congrArg x (funext fun a => Fin.ext (by
    match a with
    | ⟨0, _⟩ => rfl
    | ⟨1, _⟩ => show o₁ + 1 * c.val = p.val; omega
    | ⟨2, _⟩ => show o₂ + 1 * e.val = col.val; omega))

/-- The first head's query half at (r, e). -/
theorem q0_apply (x0 : Vec Ideal S1x512x128 .bf16) (r : Fin 512) (e : Fin 64) :
    q0 x0 (ix2 r e) = x0 (ix3 0 r (hcol 0 e)) :=
  (dropUnit_apply (ldQ0 x0) r e).trans (ldQ_apply x0 0 _ r e (hcol 0 e) (by show 64 * 0 + e.val = 0 + e.val; omega))

/-- The second head's query half at (r, e). -/
theorem q1_apply (x0 : Vec Ideal S1x512x128 .bf16) (r : Fin 512) (e : Fin 64) :
    q1 x0 (ix2 r e) = x0 (ix3 0 r (hcol 1 e)) :=
  (dropUnit_apply (ldQ1 x0) r e).trans (ldQ_apply x0 64 _ r e (hcol 1 e) (by show 64 * 1 + e.val = 64 + e.val; omega))

/-! ## The mask -/

/-- The query tile's word times 512 plus the row counter is the query's position word. -/
theorem qword (sq : ℕ) (r : ℕ) :
    IntOp.addi (Scalar.muli (BitVec.ofNat 32 sq) 512#32) (BitVec.ofNat 32 r) = BitVec.ofNat 32 (512 * sq + r) := by
  show BitVec.ofNat 32 sq * BitVec.ofNat 32 512 + BitVec.ofNat 32 r = _
  rw [← BitVec.ofNat_mul, ← BitVec.ofNat_add, Nat.mul_comm]

/-- The tile's literal offset plus the column counter is the key's position word. -/
theorem kword (o c : ℕ) : IntOp.addi (BitVec.ofNat 32 o) (BitVec.ofNat 32 c) = BitVec.ofNat 32 (o + c) := by
  show BitVec.ofNat 32 o + BitVec.ofNat 32 c = _
  rw [← BitVec.ofNat_add]

/-- A select on the mask bit of positions q and k is the `if` on k ≤ q. -/
theorem select_mask (sq k : ℕ) (hsq : sq < 4) (hk : k < 4) (r c : Fin 512) (a b : EReal) :
    Scalar.select (IntOp.cmpi .sge (IntOp.addi (Scalar.muli (BitVec.ofNat 32 sq) 512#32) (BitVec.ofNat 32 r.val))
        (IntOp.addi (BitVec.ofNat 32 (512 * k)) (BitVec.ofNat 32 c.val))) a b
      = if 512 * k + c.val ≤ 512 * sq + r.val then a else b := by
  rw [qword, kword]
  exact CausalMask.select_sge_ofNat _ _ (by have := r.isLt; omega) (by have := c.isLt; omega) a b

theorem mask0_apply (w : BitVec 32) (r c : Fin 512) :
    k1_pay11 w (ix2 r c) = IntOp.cmpi .sge (IntOp.addi (Scalar.muli w 512#32) (BitVec.ofNat 32 r.val))
      (IntOp.addi (BitVec.ofNat 32 (512 * 0)) (BitVec.ofNat 32 c.val)) := by
  unfold k1_pay11
  exact congrArg₂ (fun a b => IntOp.cmpi .sge (IntOp.addi (Scalar.muli w 512#32) a) (IntOp.addi (BitVec.ofNat 32 (512 * 0)) b))
    (iota_single_apply .tc S512x512 32 0 iota_S512x512_d0_w32 (ix2 r c))
    (iota_single_apply .tc S512x512 32 1 iota_S512x512_d1_w32 (ix2 r c))
theorem mask1_apply (w : BitVec 32) (r c : Fin 512) :
    k1_pay28 w (ix2 r c) = IntOp.cmpi .sge (IntOp.addi (Scalar.muli w 512#32) (BitVec.ofNat 32 r.val))
      (IntOp.addi (BitVec.ofNat 32 (512 * 1)) (BitVec.ofNat 32 c.val)) := by
  unfold k1_pay28
  exact congrArg₂ (fun a b => IntOp.cmpi .sge (IntOp.addi (Scalar.muli w 512#32) a) (IntOp.addi (BitVec.ofNat 32 (512 * 1)) b))
    (iota_single_apply .tc S512x512 32 0 iota_S512x512_d0_w32 (ix2 r c))
    (iota_single_apply .tc S512x512 32 1 iota_S512x512_d1_w32 (ix2 r c))
theorem mask2_apply (w : BitVec 32) (r c : Fin 512) :
    k1_pay45 w (ix2 r c) = IntOp.cmpi .sge (IntOp.addi (Scalar.muli w 512#32) (BitVec.ofNat 32 r.val))
      (IntOp.addi (BitVec.ofNat 32 (512 * 2)) (BitVec.ofNat 32 c.val)) := by
  unfold k1_pay45
  exact congrArg₂ (fun a b => IntOp.cmpi .sge (IntOp.addi (Scalar.muli w 512#32) a) (IntOp.addi (BitVec.ofNat 32 (512 * 2)) b))
    (iota_single_apply .tc S512x512 32 0 iota_S512x512_d0_w32 (ix2 r c))
    (iota_single_apply .tc S512x512 32 1 iota_S512x512_d1_w32 (ix2 r c))
theorem mask3_apply (w : BitVec 32) (r c : Fin 512) :
    k1_pay62 w (ix2 r c) = IntOp.cmpi .sge (IntOp.addi (Scalar.muli w 512#32) (BitVec.ofNat 32 r.val))
      (IntOp.addi (BitVec.ofNat 32 (512 * 3)) (BitVec.ofNat 32 c.val)) := by
  unfold k1_pay62
  exact congrArg₂ (fun a b => IntOp.cmpi .sge (IntOp.addi (Scalar.muli w 512#32) a) (IntOp.addi (BitVec.ofNat 32 (512 * 3)) b))
    (iota_single_apply .tc S512x512 32 0 iota_S512x512_d0_w32 (ix2 r c))
    (iota_single_apply .tc S512x512 32 1 iota_S512x512_d1_w32 (ix2 r c))

/-! ## A tile's masked scores are the specification's -/

/-- From a query half that reads head hd's columns of the query block, mask bits that compare the positions of query
    tile sq and key tile k, and a key half that reads tile k's rows and head hd's columns of the key block. -/
theorem score_spec (x0 : Vec Ideal S1x512x128 .bf16) (x1 : Vec Ideal S1x2048x128 .bf16) (hd : Fin 2) (sq k : ℕ)
    (hsq : sq < 4) (hk : k < 4) (r c : Fin 512) (q : FVec Ideal S512x64 .bf16) (mask : IVec S512x512 1)
    (kt : Vec Ideal S1x512x64 .bf16)
    (hq : ∀ e', q (ix2 r e') = x0 (ix3 0 r (hcol hd e')))
    (hmask : mask (ix2 r c) = IntOp.cmpi .sge (IntOp.addi (Scalar.muli (BitVec.ofNat 32 sq) 512#32) (BitVec.ofNat 32 r.val))
      (IntOp.addi (BitVec.ofNat 32 (512 * k)) (BitVec.ofNat 32 c.val)))
    (hkt : ∀ e', kt (ix3 0 c e') = x1 (ix3 0 (key k c) (hcol hd e'))) :
    k1_pay23 (F := Ideal) q mask kt (ix2 r c) = blockScores x0 x1 hd sq r k c := by
  rw [score_apply, hmask, select_mask sq k hsq hk r c, blockScores_apply, eighth_eq]
  refine congrArg (fun t => if 512 * k + c.val ≤ 512 * sq + r.val then t * ((1 / 8 : ℝ) : EReal) else ⊥) ?_
  exact Finset.sum_congr rfl fun e' _ => by rw [hq e', hkt e']

end Cert.KernelIdeal.AttnValue

end
-- ==== Proof.AttnValue6.lean ====
/-
  The two heads' states tile after tile, at a row, at the ideal values; and the query tile read off the body's four tests.

  For head hd and key tile k the step's query half reads head hd's columns of the query block, its mask compares
  the positions of query tile sq and key tile k, and its key and value halves read tile k's rows and head hd's columns
  of the key and value blocks. So row r of the state after tile k is the row recursion's update of row r of the state
  before it, at the specification's scores and values of tile k; the first tile starts from (−∞, 0, 0).
  The body's test "query tile ≥ j" on the third grid coordinate holds exactly when the coordinate is at least j, so the
  four tests of a control case name the query tile.
-/
import proofs.«100367_j74028056313973_2_alg».proof.Proof.AttnValue4
import proofs.«100367_j74028056313973_2_alg».proof.Proof.AttnValue5

set_option maxRecDepth 16384

noncomputable section

open scoped BigOperators

namespace Cert.KernelIdeal.AttnValue

open Cert.KernelIdeal Cert.KernelIdeal.Gen
open Idealize.ShloMosaic Idealize.ShloMosaic.ValueIdx
open Cert.CausalAttention.Tiles

/-! ## The query tile from the tests -/

/-- The body's test "query tile ≥ j" at a query tile n. -/
abbrev vis (j : BitVec 32) (n : ℕ) : Prop :=
  (Scalar.cmpi .ne (Scalar.extui (Scalar.cmpi .sge (BitVec.ofNat 32 n) j)) 0#32) = 1#1

/-- Below 4 the tests against 1, 2 and 3 are the comparisons. -/
theorem vis_iff (n : ℕ) (hn : n < 4) : (vis 1#32 n ↔ 1 ≤ n) ∧ (vis 2#32 n ↔ 2 ≤ n) ∧ (vis 3#32 n ↔ 3 ≤ n) := by
  interval_cases n <;> decide

theorem sqA (n : ℕ) (hn : n < 4) (h1 : ¬vis 1#32 n) : n = 0 := by
  have a : ¬1 ≤ n := fun h => h1 ((vis_iff n hn).1.mpr h)
  omega
theorem sqB (n : ℕ) (hn : n < 4) (h1 : vis 1#32 n) (h2 : ¬vis 2#32 n) : n = 1 := by
  have a : 1 ≤ n := (vis_iff n hn).1.mp h1
  have b : ¬2 ≤ n := fun h => h2 ((vis_iff n hn).2.1.mpr h)
  omega
theorem sqC (n : ℕ) (hn : n < 4) (h2 : vis 2#32 n) (h3 : ¬vis 3#32 n) : n = 2 := by
  have a : 2 ≤ n := (vis_iff n hn).2.1.mp h2
  have b : ¬3 ≤ n := fun h => h3 ((vis_iff n hn).2.2.mpr h)
  omega
theorem sqD (n : ℕ) (hn : n < 4) (h3 : vis 3#32 n) : n = 3 := by
  have a : 3 ≤ n := (vis_iff n hn).2.2.mp h3
  omega

/-! ## The states, tile after tile -/

/-- Head 0, key tile 0: row r of the state after the tile is the row update of the state before it. -/
theorem tile_0_1 (sq : ℕ) (hsq : sq < 4) (x0 : Vec Ideal S1x512x128 .bf16) (x1 x2 : Vec Ideal S1x2048x128 .bf16)
    (r : Fin 512) (e : Fin 64) :
    (hs0_1 (BitVec.ofNat 32 sq) x0 x1 x2).1 (ix2 r 0) = mNext ⊥ (blockScores x0 x1 0 sq r 0)
      ∧ (hs0_1 (BitVec.ofNat 32 sq) x0 x1 x2).2.1 (ix2 r 0) = lNext ⊥ 0 (blockScores x0 x1 0 sq r 0)
      ∧ (hs0_1 (BitVec.ofNat 32 sq) x0 x1 x2).2.2 (ix2 r e)
          = aNext ⊥ 0 (blockScores x0 x1 0 sq r 0) (blockVals x2 0 e 0) := by
  have h := step_spec (q0 x0) (k1_pay11 (BitVec.ofNat 32 sq)) (ldT00 x1) (ldT00 x2) (init0 (F := Ideal)) r e
      (blockScores x0 x1 0 sq r 0) (blockVals x2 0 e 0)
      (fun c => score_spec x0 x1 0 sq 0 hsq (by decide) r c _ _ _ (fun e' => q0_apply x0 r e') (mask0_apply _ r c)
        (fun e' => ldT_apply x1 0 0 _ c e' (key 0 c) (hcol 0 e')
          (by have := key_val 0 (by decide) c; omega) (by show 64 * 0 + e'.val = 0 + e'.val; omega)))
      (fun c => ldT_apply x2 0 0 _ c e (key 0 c) (hcol 0 e)
        (by have := key_val 0 (by decide) c; omega) (by show 64 * 0 + e.val = 0 + e.val; omega))
  rw [init0_m, init0_l, init0_a] at h
  exact h

/-- Head 0, key tile 1: row r of the state after the tile is the row update of the state before it. -/
theorem tile_0_2 (sq : ℕ) (hsq : sq < 4) (x0 : Vec Ideal S1x512x128 .bf16) (x1 x2 : Vec Ideal S1x2048x128 .bf16)
    (r : Fin 512) (e : Fin 64) :
    (hs0_2 (BitVec.ofNat 32 sq) x0 x1 x2).1 (ix2 r 0)
        = mNext ((hs0_1 (BitVec.ofNat 32 sq) x0 x1 x2).1 (ix2 r 0)) (blockScores x0 x1 0 sq r 1)
      ∧ (hs0_2 (BitVec.ofNat 32 sq) x0 x1 x2).2.1 (ix2 r 0)
        = lNext ((hs0_1 (BitVec.ofNat 32 sq) x0 x1 x2).1 (ix2 r 0)) ((hs0_1 (BitVec.ofNat 32 sq) x0 x1 x2).2.1 (ix2 r 0)) (blockScores x0 x1 0 sq r 1)
      ∧ (hs0_2 (BitVec.ofNat 32 sq) x0 x1 x2).2.2 (ix2 r e)
        = aNext ((hs0_1 (BitVec.ofNat 32 sq) x0 x1 x2).1 (ix2 r 0)) ((hs0_1 (BitVec.ofNat 32 sq) x0 x1 x2).2.2 (ix2 r e)) (blockScores x0 x1 0 sq r 1) (blockVals x2 0 e 1) :=
    step_spec (q0 x0) (k1_pay28 (BitVec.ofNat 32 sq)) (ldT10 x1) (ldT10 x2) (hs0_1 (BitVec.ofNat 32 sq) x0 x1 x2) r e
      (blockScores x0 x1 0 sq r 1) (blockVals x2 0 e 1)
      (fun c => score_spec x0 x1 0 sq 1 hsq (by decide) r c _ _ _ (fun e' => q0_apply x0 r e') (mask1_apply _ r c)
        (fun e' => ldT_apply x1 512 0 _ c e' (key 1 c) (hcol 0 e')
          (by have := key_val 1 (by decide) c; omega) (by show 64 * 0 + e'.val = 0 + e'.val; omega)))
      (fun c => ldT_apply x2 512 0 _ c e (key 1 c) (hcol 0 e)
        (by have := key_val 1 (by decide) c; omega) (by show 64 * 0 + e.val = 0 + e.val; omega))

/-- Head 0, key tile 2: row r of the state after the tile is the row update of the state before it. -/
theorem tile_0_3 (sq : ℕ) (hsq : sq < 4) (x0 : Vec Ideal S1x512x128 .bf16) (x1 x2 : Vec Ideal S1x2048x128 .bf16)
    (r : Fin 512) (e : Fin 64) :
    (hs0_3 (BitVec.ofNat 32 sq) x0 x1 x2).1 (ix2 r 0)
        = mNext ((hs0_2 (BitVec.ofNat 32 sq) x0 x1 x2).1 (ix2 r 0)) (blockScores x0 x1 0 sq r 2)
      ∧ (hs0_3 (BitVec.ofNat 32 sq) x0 x1 x2).2.1 (ix2 r 0)
        = lNext ((hs0_2 (BitVec.ofNat 32 sq) x0 x1 x2).1 (ix2 r 0)) ((hs0_2 (BitVec.ofNat 32 sq) x0 x1 x2).2.1 (ix2 r 0)) (blockScores x0 x1 0 sq r 2)
      ∧ (hs0_3 (BitVec.ofNat 32 sq) x0 x1 x2).2.2 (ix2 r e)
        = aNext ((hs0_2 (BitVec.ofNat 32 sq) x0 x1 x2).1 (ix2 r 0)) ((hs0_2 (BitVec.ofNat 32 sq) x0 x1 x2).2.2 (ix2 r e)) (blockScores x0 x1 0 sq r 2) (blockVals x2 0 e 2) :=
    step_spec (q0 x0) (k1_pay45 (BitVec.ofNat 32 sq)) (ldT20 x1) (ldT20 x2) (hs0_2 (BitVec.ofNat 32 sq) x0 x1 x2) r e
      (blockScores x0 x1 0 sq r 2) (blockVals x2 0 e 2)
      (fun c => score_spec x0 x1 0 sq 2 hsq (by decide) r c _ _ _ (fun e' => q0_apply x0 r e') (mask2_apply _ r c)
        (fun e' => ldT_apply x1 1024 0 _ c e' (key 2 c) (hcol 0 e')
          (by have := key_val 2 (by decide) c; omega) (by show 64 * 0 + e'.val = 0 + e'.val; omega)))
      (fun c => ldT_apply x2 1024 0 _ c e (key 2 c) (hcol 0 e)
        (by have := key_val 2 (by decide) c; omega) (by show 64 * 0 + e.val = 0 + e.val; omega))

/-- Head 0, key tile 3: row r of the state after the tile is the row update of the state before it. -/
theorem tile_0_4 (sq : ℕ) (hsq : sq < 4) (x0 : Vec Ideal S1x512x128 .bf16) (x1 x2 : Vec Ideal S1x2048x128 .bf16)
    (r : Fin 512) (e : Fin 64) :
    (hs0_4 (BitVec.ofNat 32 sq) x0 x1 x2).1 (ix2 r 0)
        = mNext ((hs0_3 (BitVec.ofNat 32 sq) x0 x1 x2).1 (ix2 r 0)) (blockScores x0 x1 0 sq r 3)
      ∧ (hs0_4 (BitVec.ofNat 32 sq) x0 x1 x2).2.1 (ix2 r 0)
        = lNext ((hs0_3 (BitVec.ofNat 32 sq) x0 x1 x2).1 (ix2 r 0)) ((hs0_3 (BitVec.ofNat 32 sq) x0 x1 x2).2.1 (ix2 r 0)) (blockScores x0 x1 0 sq r 3)
      ∧ (hs0_4 (BitVec.ofNat 32 sq) x0 x1 x2).2.2 (ix2 r e)
        = aNext ((hs0_3 (BitVec.ofNat 32 sq) x0 x1 x2).1 (ix2 r 0)) ((hs0_3 (BitVec.ofNat 32 sq) x0 x1 x2).2.2 (ix2 r e)) (blockScores x0 x1 0 sq r 3) (blockVals x2 0 e 3) :=
    step_spec (q0 x0) (k1_pay62 (BitVec.ofNat 32 sq)) (ldT30 x1) (ldT30 x2) (hs0_3 (BitVec.ofNat 32 sq) x0 x1 x2) r e
      (blockScores x0 x1 0 sq r 3) (blockVals x2 0 e 3)
      (fun c => score_spec x0 x1 0 sq 3 hsq (by decide) r c _ _ _ (fun e' => q0_apply x0 r e') (mask3_apply _ r c)
        (fun e' => ldT_apply x1 1536 0 _ c e' (key 3 c) (hcol 0 e')
          (by have := key_val 3 (by decide) c; omega) (by show 64 * 0 + e'.val = 0 + e'.val; omega)))
      (fun c => ldT_apply x2 1536 0 _ c e (key 3 c) (hcol 0 e)
        (by have := key_val 3 (by decide) c; omega) (by show 64 * 0 + e.val = 0 + e.val; omega))

/-- Head 1, key tile 0: row r of the state after the tile is the row update of the state before it. -/
theorem tile_1_1 (sq : ℕ) (hsq : sq < 4) (x0 : Vec Ideal S1x512x128 .bf16) (x1 x2 : Vec Ideal S1x2048x128 .bf16)
    (r : Fin 512) (e : Fin 64) :
    (hs1_1 (BitVec.ofNat 32 sq) x0 x1 x2).1 (ix2 r 0) = mNext ⊥ (blockScores x0 x1 1 sq r 0)
      ∧ (hs1_1 (BitVec.ofNat 32 sq) x0 x1 x2).2.1 (ix2 r 0) = lNext ⊥ 0 (blockScores x0 x1 1 sq r 0)
      ∧ (hs1_1 (BitVec.ofNat 32 sq) x0 x1 x2).2.2 (ix2 r e)
          = aNext ⊥ 0 (blockScores x0 x1 1 sq r 0) (blockVals x2 1 e 0) := by
  have h := step_spec (q1 x0) (k1_pay11 (BitVec.ofNat 32 sq)) (ldT01 x1) (ldT01 x2) (init1 (F := Ideal)) r e
      (blockScores x0 x1 1 sq r 0) (blockVals x2 1 e 0)
      (fun c => score_spec x0 x1 1 sq 0 hsq (by decide) r c _ _ _ (fun e' => q1_apply x0 r e') (mask0_apply _ r c)
        (fun e' => ldT_apply x1 0 64 _ c e' (key 0 c) (hcol 1 e')
          (by have := key_val 0 (by decide) c; omega) (by show 64 * 1 + e'.val = 64 + e'.val; omega)))
      (fun c => ldT_apply x2 0 64 _ c e (key 0 c) (hcol 1 e)
        (by have := key_val 0 (by decide) c; omega) (by show 64 * 1 + e.val = 64 + e.val; omega))
  rw [init1_m, init1_l, init1_a] at h
  exact h

/-- Head 1, key tile 1: row r of the state after the tile is the row update of the state before it. -/
theorem tile_1_2 (sq : ℕ) (hsq : sq < 4) (x0 : Vec Ideal S1x512x128 .bf16) (x1 x2 : Vec Ideal S1x2048x128 .bf16)
    (r : Fin 512) (e : Fin 64) :
    (hs1_2 (BitVec.ofNat 32 sq) x0 x1 x2).1 (ix2 r 0)
        = mNext ((hs1_1 (BitVec.ofNat 32 sq) x0 x1 x2).1 (ix2 r 0)) (blockScores x0 x1 1 sq r 1)
      ∧ (hs1_2 (BitVec.ofNat 32 sq) x0 x1 x2).2.1 (ix2 r 0)
        = lNext ((hs1_1 (BitVec.ofNat 32 sq) x0 x1 x2).1 (ix2 r 0)) ((hs1_1 (BitVec.ofNat 32 sq) x0 x1 x2).2.1 (ix2 r 0)) (blockScores x0 x1 1 sq r 1)
      ∧ (hs1_2 (BitVec.ofNat 32 sq) x0 x1 x2).2.2 (ix2 r e)
        = aNext ((hs1_1 (BitVec.ofNat 32 sq) x0 x1 x2).1 (ix2 r 0)) ((hs1_1 (BitVec.ofNat 32 sq) x0 x1 x2).2.2 (ix2 r e)) (blockScores x0 x1 1 sq r 1) (blockVals x2 1 e 1) :=
    step_spec (q1 x0) (k1_pay28 (BitVec.ofNat 32 sq)) (ldT11 x1) (ldT11 x2) (hs1_1 (BitVec.ofNat 32 sq) x0 x1 x2) r e
      (blockScores x0 x1 1 sq r 1) (blockVals x2 1 e 1)
      (fun c => score_spec x0 x1 1 sq 1 hsq (by decide) r c _ _ _ (fun e' => q1_apply x0 r e') (mask1_apply _ r c)
        (fun e' => ldT_apply x1 512 64 _ c e' (key 1 c) (hcol 1 e')
          (by have := key_val 1 (by decide) c; omega) (by show 64 * 1 + e'.val = 64 + e'.val; omega)))
      (fun c => ldT_apply x2 512 64 _ c e (key 1 c) (hcol 1 e)
        (by have := key_val 1 (by decide) c; omega) (by show 64 * 1 + e.val = 64 + e.val; omega))

/-- Head 1, key tile 2: row r of the state after the tile is the row update of the state before it. -/
theorem tile_1_3 (sq : ℕ) (hsq : sq < 4) (x0 : Vec Ideal S1x512x128 .bf16) (x1 x2 : Vec Ideal S1x2048x128 .bf16)
    (r : Fin 512) (e : Fin 64) :
    (hs1_3 (BitVec.ofNat 32 sq) x0 x1 x2).1 (ix2 r 0)
        = mNext ((hs1_2 (BitVec.ofNat 32 sq) x0 x1 x2).1 (ix2 r 0)) (blockScores x0 x1 1 sq r 2)
      ∧ (hs1_3 (BitVec.ofNat 32 sq) x0 x1 x2).2.1 (ix2 r 0)
        = lNext ((hs1_2 (BitVec.ofNat 32 sq) x0 x1 x2).1 (ix2 r 0)) ((hs1_2 (BitVec.ofNat 32 sq) x0 x1 x2).2.1 (ix2 r 0)) (blockScores x0 x1 1 sq r 2)
      ∧ (hs1_3 (BitVec.ofNat 32 sq) x0 x1 x2).2.2 (ix2 r e)
        = aNext ((hs1_2 (BitVec.ofNat 32 sq) x0 x1 x2).1 (ix2 r 0)) ((hs1_2 (BitVec.ofNat 32 sq) x0 x1 x2).2.2 (ix2 r e)) (blockScores x0 x1 1 sq r 2) (blockVals x2 1 e 2) :=
    step_spec (q1 x0) (k1_pay45 (BitVec.ofNat 32 sq)) (ldT21 x1) (ldT21 x2) (hs1_2 (BitVec.ofNat 32 sq) x0 x1 x2) r e
      (blockScores x0 x1 1 sq r 2) (blockVals x2 1 e 2)
      (fun c => score_spec x0 x1 1 sq 2 hsq (by decide) r c _ _ _ (fun e' => q1_apply x0 r e') (mask2_apply _ r c)
        (fun e' => ldT_apply x1 1024 64 _ c e' (key 2 c) (hcol 1 e')
          (by have := key_val 2 (by decide) c; omega) (by show 64 * 1 + e'.val = 64 + e'.val; omega)))
      (fun c => ldT_apply x2 1024 64 _ c e (key 2 c) (hcol 1 e)
        (by have := key_val 2 (by decide) c; omega) (by show 64 * 1 + e.val = 64 + e.val; omega))

/-- Head 1, key tile 3: row r of the state after the tile is the row update of the state before it. -/
theorem tile_1_4 (sq : ℕ) (hsq : sq < 4) (x0 : Vec Ideal S1x512x128 .bf16) (x1 x2 : Vec Ideal S1x2048x128 .bf16)
    (r : Fin 512) (e : Fin 64) :
    (hs1_4 (BitVec.ofNat 32 sq) x0 x1 x2).1 (ix2 r 0)
        = mNext ((hs1_3 (BitVec.ofNat 32 sq) x0 x1 x2).1 (ix2 r 0)) (blockScores x0 x1 1 sq r 3)
      ∧ (hs1_4 (BitVec.ofNat 32 sq) x0 x1 x2).2.1 (ix2 r 0)
        = lNext ((hs1_3 (BitVec.ofNat 32 sq) x0 x1 x2).1 (ix2 r 0)) ((hs1_3 (BitVec.ofNat 32 sq) x0 x1 x2).2.1 (ix2 r 0)) (blockScores x0 x1 1 sq r 3)
      ∧ (hs1_4 (BitVec.ofNat 32 sq) x0 x1 x2).2.2 (ix2 r e)
        = aNext ((hs1_3 (BitVec.ofNat 32 sq) x0 x1 x2).1 (ix2 r 0)) ((hs1_3 (BitVec.ofNat 32 sq) x0 x1 x2).2.2 (ix2 r e)) (blockScores x0 x1 1 sq r 3) (blockVals x2 1 e 3) :=
    step_spec (q1 x0) (k1_pay62 (BitVec.ofNat 32 sq)) (ldT31 x1) (ldT31 x2) (hs1_3 (BitVec.ofNat 32 sq) x0 x1 x2) r e
      (blockScores x0 x1 1 sq r 3) (blockVals x2 1 e 3)
      (fun c => score_spec x0 x1 1 sq 3 hsq (by decide) r c _ _ _ (fun e' => q1_apply x0 r e') (mask3_apply _ r c)
        (fun e' => ldT_apply x1 1536 64 _ c e' (key 3 c) (hcol 1 e')
          (by have := key_val 3 (by decide) c; omega) (by show 64 * 1 + e'.val = 64 + e'.val; omega)))
      (fun c => ldT_apply x2 1536 64 _ c e (key 3 c) (hcol 1 e)
        (by have := key_val 3 (by decide) c; omega) (by show 64 * 1 + e.val = 64 + e.val; omega))

end Cert.KernelIdeal.AttnValue

end
-- ==== Proof.AttnValue7A.lean ====
/-
  The attention kernel's output block in the control case of query tile 0, read at an index at the ideal values:
  entry (0, r, 64·hd + e) is accumulator / sum of head hd's row r after the 1 visited key tile — the row recursion
  from (−∞, 0, 0) over tiles 0 … 0 at the specification's masked scores of query position 512·0 + r and the
  specification's value column e.
-/
import proofs.«100367_j74028056313973_2_alg».proof.Proof.AttnValue3A
import proofs.«100367_j74028056313973_2_alg».proof.Proof.AttnValue6

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.CausalAttention.Tiles

/-- Case A, head 0 of the pair: entry (0, r, 64·0 + e) of the output block is the row recursion's quotient after 1 tile. -/
theorem outA_at0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec Ideal S1x512x128 .bf16) (x1 x2 : Vec Ideal S1x2048x128 .bf16) (r : Fin 512) (e : Fin 64) :
    outA (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 0 e))
      = Ideal.div (aT (blockScores x0 x1 0 0 r) (blockVals x2 0 e) 1) (lT (blockScores x0 x1 0 0 r) 1) := by
  have hsq : (i 2).val = 0 := sqA (i 2).val (i 2).isLt hc1
  rw [outA_eq, hsq, outOf_left]
  obtain ⟨m1, l1, a1⟩ := tile_0_1 0 (by decide) x0 x1 x2 r e
  obtain ⟨_, hl, ha⟩ := of_one (blockScores x0 x1 0 0 r) (blockVals x2 0 e) _ _ _ m1 l1 a1
  rw [ha, hl]

/-- Case A, head 1 of the pair: entry (0, r, 64·1 + e) of the output block is the row recursion's quotient after 1 tile. -/
theorem outA_at1 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec Ideal S1x512x128 .bf16) (x1 x2 : Vec Ideal S1x2048x128 .bf16) (r : Fin 512) (e : Fin 64) :
    outA (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 1 e))
      = Ideal.div (aT (blockScores x0 x1 1 0 r) (blockVals x2 1 e) 1) (lT (blockScores x0 x1 1 0 r) 1) := by
  have hsq : (i 2).val = 0 := sqA (i 2).val (i 2).isLt hc1
  rw [outA_eq, hsq, outOf_right]
  obtain ⟨m1, l1, a1⟩ := tile_1_1 0 (by decide) x0 x1 x2 r e
  obtain ⟨_, hl, ha⟩ := of_one (blockScores x0 x1 1 0 r) (blockVals x2 1 e) _ _ _ m1 l1 a1
  rw [ha, hl]

/-- Case A, either head of the pair. -/
theorem outA_at (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : ¬visits 1#32 i) (hc2 : ¬visits 2#32 i) (hc3 : ¬visits 3#32 i)
    (x0 : Vec Ideal S1x512x128 .bf16) (x1 x2 : Vec Ideal S1x2048x128 .bf16) (r : Fin 512) (hd : Fin 2) (e : Fin 64) :
    outA (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol hd e))
      = Ideal.div (aT (blockScores x0 x1 hd 0 r) (blockVals x2 hd e) 1) (lT (blockScores x0 x1 hd 0 r) 1) :=
  match hd with
  | ⟨0, _⟩ => outA_at0 c i arg3 harg3 arg4 harg4 arg5 harg5 arg6 harg6 arg7 harg7 arg8 harg8 arg9 harg9 arg10 harg10 arg11 harg11 arg12 harg12 hc0 hc1 hc2 hc3 x0 x1 x2 r e
  | ⟨1, _⟩ => outA_at1 c i arg3 harg3 arg4 harg4 arg5 harg5 arg6 harg6 arg7 harg7 arg8 harg8 arg9 harg9 arg10 harg10 arg11 harg11 arg12 harg12 hc0 hc1 hc2 hc3 x0 x1 x2 r e

end Cert.KernelIdeal.AttnValue

end
-- ==== Proof.AttnValue3B.lean ====
/-
  The attention kernel's output block in the control case of query tile 1: key tiles 0 … 1 are visited. The run
  found one piece, the whole-block store of the final payload; its arguments are the scratch buffers' last stores read
  back, each the tile step's payload over the stores before it, down to the resets. So the block is the output
  formula at the two heads' states after 2 tile steps.
-/
import proofs.«100367_j74028056313973_2_alg».proof.Proof.AttnFrame
import proofs.«100367_j74028056313973_2_alg».proof.Proof.AttnValue2
import Idealize.ShloMosaic.Lib.Pipeline.Value

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- What case B leaves in the output's staging buffer. -/
theorem outB_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec F S1x512x128 .bf16) (x1 : Vec F S1x2048x128 .bf16) (x2 : Vec F S1x2048x128 .bf16) :
    outB c i arg3 harg3 arg4 harg4 arg5 harg5 arg6 harg6 arg7 harg7 arg8 harg8 arg9 harg9 arg10 harg10 arg11 harg11 arg12 harg12 hc0 hc1 hc2 hc3 x0 x1 x2
      = outOf (hs0_2 (BitVec.ofNat 32 (i 2).val) x0 x1 x2) (hs1_2 (BitVec.ofNat 32 (i 2).val) x0 x1 x2) := by
  unfold outB
  rw [View.read_writes_eq_canon _ _ _ (coverB c i arg3 harg3 arg4 harg4 arg5 harg5 arg6 harg6 arg7 harg7 arg8 harg8 arg9 harg9 arg10 harg10 arg11 harg11 arg12 harg12 hc0 hc1 hc2 hc3 x0 x1 x2)]
  unfold kernelRunB
  dsimp only
  sl_unfold_words
  rw [View.canon_unit_zero (show (![0, 0, 0] : Fin 3 → Nat) = fun _ => 0 from funext fun a => by fin_cases a <;> rfl)]
  simp only [View.readCov_cons_toLoadRect, View.readAt_eq_ld, harg3.read_unread, harg4.read_unread, harg5.read_unread]
  rfl

end Cert.KernelIdeal.AttnValue

end
-- ==== Proof.AttnValue7B.lean ====
/-
  The attention kernel's output block in the control case of query tile 1, read at an index at the ideal values:
  entry (0, r, 64·hd + e) is accumulator / sum of head hd's row r after the 2 visited key tiles — the row recursion
  from (−∞, 0, 0) over tiles 0 … 1 at the specification's masked scores of query position 512·1 + r and the
  specification's value column e.
-/
import proofs.«100367_j74028056313973_2_alg».proof.Proof.AttnValue3B
import proofs.«100367_j74028056313973_2_alg».proof.Proof.AttnValue6

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.CausalAttention.Tiles

/-- Case B, head 0 of the pair: entry (0, r, 64·0 + e) of the output block is the row recursion's quotient after 2 tiles. -/
theorem outB_at0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec Ideal S1x512x128 .bf16) (x1 x2 : Vec Ideal S1x2048x128 .bf16) (r : Fin 512) (e : Fin 64) :
    outB (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 0 e))
      = Ideal.div (aT (blockScores x0 x1 0 1 r) (blockVals x2 0 e) 2) (lT (blockScores x0 x1 0 1 r) 2) := by
  have hsq : (i 2).val = 1 := sqB (i 2).val (i 2).isLt hc1 hc2
  rw [outB_eq, hsq, outOf_left]
  obtain ⟨m1, l1, a1⟩ := tile_0_1 1 (by decide) x0 x1 x2 r e
  obtain ⟨m2, l2, a2⟩ := tile_0_2 1 (by decide) x0 x1 x2 r e
  obtain ⟨_, hl, ha⟩ := of_two (blockScores x0 x1 0 1 r) (blockVals x2 0 e) _ _ _ _ _ _ m1 l1 a1 m2 l2 a2
  rw [ha, hl]

/-- Case B, head 1 of the pair: entry (0, r, 64·1 + e) of the output block is the row recursion's quotient after 2 tiles. -/
theorem outB_at1 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec Ideal S1x512x128 .bf16) (x1 x2 : Vec Ideal S1x2048x128 .bf16) (r : Fin 512) (e : Fin 64) :
    outB (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 1 e))
      = Ideal.div (aT (blockScores x0 x1 1 1 r) (blockVals x2 1 e) 2) (lT (blockScores x0 x1 1 1 r) 2) := by
  have hsq : (i 2).val = 1 := sqB (i 2).val (i 2).isLt hc1 hc2
  rw [outB_eq, hsq, outOf_right]
  obtain ⟨m1, l1, a1⟩ := tile_1_1 1 (by decide) x0 x1 x2 r e
  obtain ⟨m2, l2, a2⟩ := tile_1_2 1 (by decide) x0 x1 x2 r e
  obtain ⟨_, hl, ha⟩ := of_two (blockScores x0 x1 1 1 r) (blockVals x2 1 e) _ _ _ _ _ _ m1 l1 a1 m2 l2 a2
  rw [ha, hl]

/-- Case B, either head of the pair. -/
theorem outB_at (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : ¬visits 2#32 i) (hc3 : ¬visits 3#32 i)
    (x0 : Vec Ideal S1x512x128 .bf16) (x1 x2 : Vec Ideal S1x2048x128 .bf16) (r : Fin 512) (hd : Fin 2) (e : Fin 64) :
    outB (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol hd e))
      = Ideal.div (aT (blockScores x0 x1 hd 1 r) (blockVals x2 hd e) 2) (lT (blockScores x0 x1 hd 1 r) 2) :=
  match hd with
  | ⟨0, _⟩ => outB_at0 c i arg3 harg3 arg4 harg4 arg5 harg5 arg6 harg6 arg7 harg7 arg8 harg8 arg9 harg9 arg10 harg10 arg11 harg11 arg12 harg12 hc0 hc1 hc2 hc3 x0 x1 x2 r e
  | ⟨1, _⟩ => outB_at1 c i arg3 harg3 arg4 harg4 arg5 harg5 arg6 harg6 arg7 harg7 arg8 harg8 arg9 harg9 arg10 harg10 arg11 harg11 arg12 harg12 hc0 hc1 hc2 hc3 x0 x1 x2 r e

end Cert.KernelIdeal.AttnValue

end
-- ==== Proof.AttnValue3C.lean ====
/-
  The attention kernel's output block in the control case of query tile 2: key tiles 0 … 2 are visited. The run
  found one piece, the whole-block store of the final payload; its arguments are the scratch buffers' last stores read
  back, each the tile step's payload over the stores before it, down to the resets. So the block is the output
  formula at the two heads' states after 3 tile steps.
-/
import proofs.«100367_j74028056313973_2_alg».proof.Proof.AttnFrame
import proofs.«100367_j74028056313973_2_alg».proof.Proof.AttnValue2
import Idealize.ShloMosaic.Lib.Pipeline.Value

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- What case C leaves in the output's staging buffer. -/
theorem outC_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec F S1x512x128 .bf16) (x1 : Vec F S1x2048x128 .bf16) (x2 : Vec F S1x2048x128 .bf16) :
    outC c i arg3 harg3 arg4 harg4 arg5 harg5 arg6 harg6 arg7 harg7 arg8 harg8 arg9 harg9 arg10 harg10 arg11 harg11 arg12 harg12 hc0 hc1 hc2 hc3 x0 x1 x2
      = outOf (hs0_3 (BitVec.ofNat 32 (i 2).val) x0 x1 x2) (hs1_3 (BitVec.ofNat 32 (i 2).val) x0 x1 x2) := by
  unfold outC
  rw [View.read_writes_eq_canon _ _ _ (coverC c i arg3 harg3 arg4 harg4 arg5 harg5 arg6 harg6 arg7 harg7 arg8 harg8 arg9 harg9 arg10 harg10 arg11 harg11 arg12 harg12 hc0 hc1 hc2 hc3 x0 x1 x2)]
  unfold kernelRunC
  dsimp only
  sl_unfold_words
  rw [View.canon_unit_zero (show (![0, 0, 0] : Fin 3 → Nat) = fun _ => 0 from funext fun a => by fin_cases a <;> rfl)]
  simp only [View.readCov_cons_toLoadRect, View.readAt_eq_ld, harg3.read_unread, harg4.read_unread, harg5.read_unread]
  rfl

end Cert.KernelIdeal.AttnValue

end
-- ==== Proof.AttnValue7C.lean ====
/-
  The attention kernel's output block in the control case of query tile 2, read at an index at the ideal values:
  entry (0, r, 64·hd + e) is accumulator / sum of head hd's row r after the 3 visited key tiles — the row recursion
  from (−∞, 0, 0) over tiles 0 … 2 at the specification's masked scores of query position 512·2 + r and the
  specification's value column e.
-/
import proofs.«100367_j74028056313973_2_alg».proof.Proof.AttnValue3C
import proofs.«100367_j74028056313973_2_alg».proof.Proof.AttnValue6

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.CausalAttention.Tiles

/-- Case C, head 0 of the pair: entry (0, r, 64·0 + e) of the output block is the row recursion's quotient after 3 tiles. -/
theorem outC_at0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec Ideal S1x512x128 .bf16) (x1 x2 : Vec Ideal S1x2048x128 .bf16) (r : Fin 512) (e : Fin 64) :
    outC (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 0 e))
      = Ideal.div (aT (blockScores x0 x1 0 2 r) (blockVals x2 0 e) 3) (lT (blockScores x0 x1 0 2 r) 3) := by
  have hsq : (i 2).val = 2 := sqC (i 2).val (i 2).isLt hc2 hc3
  rw [outC_eq, hsq, outOf_left]
  obtain ⟨m1, l1, a1⟩ := tile_0_1 2 (by decide) x0 x1 x2 r e
  obtain ⟨m2, l2, a2⟩ := tile_0_2 2 (by decide) x0 x1 x2 r e
  obtain ⟨m3, l3, a3⟩ := tile_0_3 2 (by decide) x0 x1 x2 r e
  obtain ⟨_, hl, ha⟩ := of_three (blockScores x0 x1 0 2 r) (blockVals x2 0 e) _ _ _ _ _ _ _ _ _ m1 l1 a1 m2 l2 a2 m3 l3 a3
  rw [ha, hl]

/-- Case C, head 1 of the pair: entry (0, r, 64·1 + e) of the output block is the row recursion's quotient after 3 tiles. -/
theorem outC_at1 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec Ideal S1x512x128 .bf16) (x1 x2 : Vec Ideal S1x2048x128 .bf16) (r : Fin 512) (e : Fin 64) :
    outC (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 1 e))
      = Ideal.div (aT (blockScores x0 x1 1 2 r) (blockVals x2 1 e) 3) (lT (blockScores x0 x1 1 2 r) 3) := by
  have hsq : (i 2).val = 2 := sqC (i 2).val (i 2).isLt hc2 hc3
  rw [outC_eq, hsq, outOf_right]
  obtain ⟨m1, l1, a1⟩ := tile_1_1 2 (by decide) x0 x1 x2 r e
  obtain ⟨m2, l2, a2⟩ := tile_1_2 2 (by decide) x0 x1 x2 r e
  obtain ⟨m3, l3, a3⟩ := tile_1_3 2 (by decide) x0 x1 x2 r e
  obtain ⟨_, hl, ha⟩ := of_three (blockScores x0 x1 1 2 r) (blockVals x2 1 e) _ _ _ _ _ _ _ _ _ m1 l1 a1 m2 l2 a2 m3 l3 a3
  rw [ha, hl]

/-- Case C, either head of the pair. -/
theorem outC_at (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : ¬visits 3#32 i)
    (x0 : Vec Ideal S1x512x128 .bf16) (x1 x2 : Vec Ideal S1x2048x128 .bf16) (r : Fin 512) (hd : Fin 2) (e : Fin 64) :
    outC (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol hd e))
      = Ideal.div (aT (blockScores x0 x1 hd 2 r) (blockVals x2 hd e) 3) (lT (blockScores x0 x1 hd 2 r) 3) :=
  match hd with
  | ⟨0, _⟩ => outC_at0 c i arg3 harg3 arg4 harg4 arg5 harg5 arg6 harg6 arg7 harg7 arg8 harg8 arg9 harg9 arg10 harg10 arg11 harg11 arg12 harg12 hc0 hc1 hc2 hc3 x0 x1 x2 r e
  | ⟨1, _⟩ => outC_at1 c i arg3 harg3 arg4 harg4 arg5 harg5 arg6 harg6 arg7 harg7 arg8 harg8 arg9 harg9 arg10 harg10 arg11 harg11 arg12 harg12 hc0 hc1 hc2 hc3 x0 x1 x2 r e

end Cert.KernelIdeal.AttnValue

end
-- ==== Proof.AttnValue3D.lean ====
/-
  The attention kernel's output block in the control case of query tile 3: key tiles 0 … 3 are visited. The run
  found one piece, the whole-block store of the final payload; its arguments are the scratch buffers' last stores read
  back, each the tile step's payload over the stores before it, down to the resets. So the block is the output
  formula at the two heads' states after 4 tile steps.
-/
import proofs.«100367_j74028056313973_2_alg».proof.Proof.AttnFrame
import proofs.«100367_j74028056313973_2_alg».proof.Proof.AttnValue2
import Idealize.ShloMosaic.Lib.Pipeline.Value

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- What case D leaves in the output's staging buffer. -/
theorem outD_eq (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec F S1x512x128 .bf16) (x1 : Vec F S1x2048x128 .bf16) (x2 : Vec F S1x2048x128 .bf16) :
    outD c i arg3 harg3 arg4 harg4 arg5 harg5 arg6 harg6 arg7 harg7 arg8 harg8 arg9 harg9 arg10 harg10 arg11 harg11 arg12 harg12 hc0 hc1 hc2 hc3 x0 x1 x2
      = outOf (hs0_4 (BitVec.ofNat 32 (i 2).val) x0 x1 x2) (hs1_4 (BitVec.ofNat 32 (i 2).val) x0 x1 x2) := by
  unfold outD
  rw [View.read_writes_eq_canon _ _ _ (coverD c i arg3 harg3 arg4 harg4 arg5 harg5 arg6 harg6 arg7 harg7 arg8 harg8 arg9 harg9 arg10 harg10 arg11 harg11 arg12 harg12 hc0 hc1 hc2 hc3 x0 x1 x2)]
  unfold kernelRunD
  dsimp only
  sl_unfold_words
  rw [View.canon_unit_zero (show (![0, 0, 0] : Fin 3 → Nat) = fun _ => 0 from funext fun a => by fin_cases a <;> rfl)]
  simp only [View.readCov_cons_toLoadRect, View.readAt_eq_ld, harg3.read_unread, harg4.read_unread, harg5.read_unread]
  rfl

end Cert.KernelIdeal.AttnValue

end
-- ==== Proof.AttnValue7D.lean ====
/-
  The attention kernel's output block in the control case of query tile 3, read at an index at the ideal values:
  entry (0, r, 64·hd + e) is accumulator / sum of head hd's row r after the 4 visited key tiles — the row recursion
  from (−∞, 0, 0) over tiles 0 … 3 at the specification's masked scores of query position 512·3 + r and the
  specification's value column e.
-/
import proofs.«100367_j74028056313973_2_alg».proof.Proof.AttnValue3D
import proofs.«100367_j74028056313973_2_alg».proof.Proof.AttnValue6

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.CausalAttention.Tiles

/-- Case D, head 0 of the pair: entry (0, r, 64·0 + e) of the output block is the row recursion's quotient after 4 tiles. -/
theorem outD_at0 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec Ideal S1x512x128 .bf16) (x1 x2 : Vec Ideal S1x2048x128 .bf16) (r : Fin 512) (e : Fin 64) :
    outD (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 0 e))
      = Ideal.div (aT (blockScores x0 x1 0 3 r) (blockVals x2 0 e) 4) (lT (blockScores x0 x1 0 3 r) 4) := by
  have hsq : (i 2).val = 3 := sqD (i 2).val (i 2).isLt hc3
  rw [outD_eq, hsq, outOf_left]
  obtain ⟨m1, l1, a1⟩ := tile_0_1 3 (by decide) x0 x1 x2 r e
  obtain ⟨m2, l2, a2⟩ := tile_0_2 3 (by decide) x0 x1 x2 r e
  obtain ⟨m3, l3, a3⟩ := tile_0_3 3 (by decide) x0 x1 x2 r e
  obtain ⟨m4, l4, a4⟩ := tile_0_4 3 (by decide) x0 x1 x2 r e
  obtain ⟨_, hl, ha⟩ := of_four (blockScores x0 x1 0 3 r) (blockVals x2 0 e) _ _ _ _ _ _ _ _ _ _ _ _ m1 l1 a1 m2 l2 a2 m3 l3 a3 m4 l4 a4
  rw [ha, hl]

/-- Case D, head 1 of the pair: entry (0, r, 64·1 + e) of the output block is the row recursion's quotient after 4 tiles. -/
theorem outD_at1 (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec Ideal S1x512x128 .bf16) (x1 x2 : Vec Ideal S1x2048x128 .bf16) (r : Fin 512) (e : Fin 64) :
    outD (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol 1 e))
      = Ideal.div (aT (blockScores x0 x1 1 3 r) (blockVals x2 1 e) 4) (lT (blockScores x0 x1 1 3 r) 4) := by
  have hsq : (i 2).val = 3 := sqD (i 2).val (i 2).isLt hc3
  rw [outD_eq, hsq, outOf_right]
  obtain ⟨m1, l1, a1⟩ := tile_1_1 3 (by decide) x0 x1 x2 r e
  obtain ⟨m2, l2, a2⟩ := tile_1_2 3 (by decide) x0 x1 x2 r e
  obtain ⟨m3, l3, a3⟩ := tile_1_3 3 (by decide) x0 x1 x2 r e
  obtain ⟨m4, l4, a4⟩ := tile_1_4 3 (by decide) x0 x1 x2 r e
  obtain ⟨_, hl, ha⟩ := of_four (blockScores x0 x1 1 3 r) (blockVals x2 1 e) _ _ _ _ _ _ _ _ _ _ _ _ m1 l1 a1 m2 l2 a2 m3 l3 a3 m4 l4 a4
  rw [ha, hl]

/-- Case D, either head of the pair. -/
theorem outD_at (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole)
    (hc0 : visits 0#32 i) (hc1 : visits 1#32 i) (hc2 : visits 2#32 i) (hc3 : visits 3#32 i)
    (x0 : Vec Ideal S1x512x128 .bf16) (x1 x2 : Vec Ideal S1x2048x128 .bf16) (r : Fin 512) (hd : Fin 2) (e : Fin 64) :
    outD (F := Ideal) c i arg3 harg3 arg4 harg4 arg5 harg5 arg6 harg6 arg7 harg7 arg8 harg8 arg9 harg9 arg10 harg10 arg11 harg11 arg12 harg12 hc0 hc1 hc2 hc3 x0 x1 x2 (ix3 0 r (hcol hd e))
      = Ideal.div (aT (blockScores x0 x1 hd 3 r) (blockVals x2 hd e) 4) (lT (blockScores x0 x1 hd 3 r) 4) :=
  match hd with
  | ⟨0, _⟩ => outD_at0 c i arg3 harg3 arg4 harg4 arg5 harg5 arg6 harg6 arg7 harg7 arg8 harg8 arg9 harg9 arg10 harg10 arg11 harg11 arg12 harg12 hc0 hc1 hc2 hc3 x0 x1 x2 r e
  | ⟨1, _⟩ => outD_at1 c i arg3 harg3 arg4 harg4 arg5 harg5 arg6 harg6 arg7 harg7 arg8 harg8 arg9 harg9 arg10 harg10 arg11 harg11 arg12 harg12 hc0 hc1 hc2 hc3 x0 x1 x2 r e

end Cert.KernelIdeal.AttnValue

end
-- ==== Proof.AttnValue8.lean ====
/-
  The attention region's output block after the body at a grid point, read at an index at the ideal values.

  The point's query tile is sq = t mod 4 and its control case visits key tiles 0 … sq. Entry (0, r, 64·hd + e) of the
  block the body leaves is accumulator / sum of head hd's row r after those sq + 1 tiles: the row recursion from
  (−∞, 0, 0) at the masked scores of query position 512·sq + r against the point's key block and column e of the
  point's value block, the query row read from the point's query block.
-/
import proofs.«100367_j74028056313973_2_alg».proof.Proof.AttnValue7A
import proofs.«100367_j74028056313973_2_alg».proof.Proof.AttnValue7B
import proofs.«100367_j74028056313973_2_alg».proof.Proof.AttnValue7C
import proofs.«100367_j74028056313973_2_alg».proof.Proof.AttnValue7D

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.CausalAttention.Tiles

variable (m : (ℓ : Loc nD τ sig) → Buf (Elt Ideal) ℓ) (outs : Outs (F := Ideal))

/-- The output block after the body at point t, at (0, r, 64·hd + e). -/
theorem outAt_at (c : Dev nD) (t : Fin cfg1.N) (r : Fin 512) (hd : Fin 2) (e : Fin 64) :
    outAt (F := Ideal) m outs c t (ix3 0 r (hcol hd e))
      = Ideal.div
          (aT (blockScores (iblk m outs c 0 t) (iblk m outs c 1 t) hd (t.val % 4) r) (blockVals (iblk m outs c 2 t) hd e)
            (t.val % 4 + 1))
          (lT (blockScores (iblk m outs c 0 t) (iblk m outs c 1 t) hd (t.val % 4) r) (t.val % 4 + 1)) := by
  have h4 : t.val % 4 < 4 := Nat.mod_lt _ (by decide)
  rcases (by omega : t.val % 4 = 0 ∨ t.val % 4 = 1 ∨ t.val % 4 = 2 ∨ t.val % 4 = 3) with h | h | h | h
  · rw [h, outAt_A m outs c t h]
    exact outA_at c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) (fun h => absurd ((visits1 t).mp h) (by omega)) (fun h => absurd ((visits2 t).mp h) (by omega)) (fun h => absurd ((visits3 t).mp h) (by omega)) (iblk m outs c 0 t) (iblk m outs c 1 t) (iblk m outs c 2 t) r hd e
  · rw [h, outAt_B m outs c t h]
    exact outB_at c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) (fun h => absurd ((visits2 t).mp h) (by omega)) (fun h => absurd ((visits3 t).mp h) (by omega)) (iblk m outs c 0 t) (iblk m outs c 1 t) (iblk m outs c 2 t) r hd e
  · rw [h, outAt_C m outs c t h]
    exact outC_at c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) (fun h => absurd ((visits3 t).mp h) (by omega)) (iblk m outs c 0 t) (iblk m outs c 1 t) (iblk m outs c 2 t) r hd e
  · rw [h, outAt_D m outs c t h]
    exact outD_at c (grid1.coords t) (msQ t) (hsQ t) (msK t) (hsK t) (msV t) (hsV t) (msO t) (hsO t) sc0 (Memref.isWhole_whole _) sc1 (Memref.isWhole_whole _) sc2 (Memref.isWhole_whole _) sc3 (Memref.isWhole_whole _) sc4 (Memref.isWhole_whole _) sc5 (Memref.isWhole_whole _) (visits0 t) ((visits1 t).mpr (by omega)) ((visits2 t).mpr (by omega)) ((visits3 t).mpr (by omega)) (iblk m outs c 0 t) (iblk m outs c 1 t) (iblk m outs c 2 t) r hd e

end Cert.KernelIdeal.AttnValue

end
-- ==== Proof.Glue.lean ====
/-
  The attention region's result array is the attention function of the launch's four arrays, when these hold real
  numbers: the region finds the three projections in its input arrays, every point leaves in its output block the
  tile-by-tile quotients over its input blocks, and the blocks tile the array.
-/
import proofs.«100367_j74028056313973_2_alg».proof.Proof.GlueRows
import proofs.«100367_j74028056313973_2_alg».proof.Proof.GlueArrays
import proofs.«100367_j74028056313973_2_alg».proof.Proof.AttnValue8

set_option maxRecDepth 16384

noncomputable section

namespace Cert.KernelIdeal.Glue

open Cert.KernelIdeal Cert.KernelIdeal.Gen Cert.KernelIdeal.Attn Cert.KernelIdeal.Whole
open Idealize.ShloMosaic Idealize.ShloMosaic.TcCoe Idealize.ShloMosaic.ValueIdx
open Cert.CausalAttention Cert.CausalAttention.Tiles

variable (m : (ℓ : Loc nD τ sig) → Buf (Elt Ideal) ℓ)

/-- The output block after the body at point t, at row r and feature 64·hd + e: the tile-by-tile quotient over the
    point's blocks (the body's block read at an index, with the scores and values named as the row law takes them). -/
theorem block_rec (outs : Outs (F := Ideal)) (c : Dev nD) (t : Fin cfg1.N) (r : Fin 512) (hd : Fin 2) (e : Fin 64) :
    outAt m outs c t (ix3 0 r (pairFeat hd e))
      = Ideal.div (aT (blockScores (iblk m outs c 0 t) (iblk m outs c 1 t) (t.val % 4) r hd)
            (blockVals (iblk m outs c 2 t) hd e) (t.val % 4 + 1))
          (lT (blockScores (iblk m outs c 0 t) (iblk m outs c 1 t) (t.val % 4) r hd) (t.val % 4 + 1)) :=
  AttnValue.outAt_at m outs c t r hd e

/-- The result array after the attention region, from real-valued arguments, is their attention function. -/
theorem oArr_eq (c : Dev nD)
    (h0 : ∀ i, ∃ v : ℝ, (m ((c : Thread nD τ).loc main_arg0) : SX.Idx → EReal) i = (v : EReal))
    (h1 : ∀ i, ∃ v : ℝ, (m ((c : Thread nD τ).loc main_arg1) : SW.Idx → EReal) i = (v : EReal))
    (h2 : ∀ i, ∃ v : ℝ, (m ((c : Thread nD τ).loc main_arg2) : SW.Idx → EReal) i = (v : EReal))
    (h3 : ∀ i, ∃ v : ℝ, (m ((c : Thread nD τ).loc main_arg3) : SW.Idx → EReal) i = (v : EReal)) :
    oArr (F := Ideal) m c
      = attention (m ((c : Thread nD τ).loc main_arg0)) (m ((c : Thread nD τ).loc main_arg1))
          (m ((c : Thread nD τ).loc main_arg2)) (m ((c : Thread nD τ).loc main_arg3)) := by
  unfold oArr
  exact arr_eq_attention m (outsQ m) c _ _ _ _ h0 h1 h2 h3 (found_q m c) (found_k m c) (found_v m c)
    (block_rec m (outsQ m) c)

end Cert.KernelIdeal.Glue
-- ==== Proof.lean ====
/-
  The proof of the certificate's claim: a causal multi-head attention written as two Pallas kernels — a
  projection of every token by the three weight matrices, then, per batch, head pair and tile of 512 queries,
  the running-maximum / running-sum / accumulator recursion over the key tiles at or before the query tile —
  against the plain reference: projections, scores over √64, a lower-triangular mask with −∞, a softmax over
  the keys, the weighted sum of values.

  Frames. Each kernel program's frame is proved over the library's rule for a program that is a list of host
  segments and kernel regions: the projection body and the attention body in
  each of its four control cases (how many key tiles the query tile visits) are run once on arbitrary staging
  and scratch memrefs; each region's invariant is that its scratch holds something, because every grid point
  resets the scratch before reading it. The same text serves the program as printed and its idealization.

  Values, on the extended reals. Format changes are the identity there, the scale 1/8 is the reference's
  division by √64 = 8, and the kernel's finite mask constant is NAMED −∞ (the ten `preserves` conjuncts are that
  one statement). A projected array is the plain sum over the model dimension. For a query row every visited
  key tile holds an unmasked key (its first), so after the first tile every running maximum is real and the
  recursion's quotient accumulator / sum equals the softmax-weighted mean of the values with weights
  exp(score − M) over the keys at or before the query, whichever real M is subtracted; finite inputs make all
  these sums sums of reals, which is where the precondition is used. The reference computes the same mean.
-/
import proofs.«100367_j74028056313973_2_alg».proof.Proof.Whole
import proofs.«100367_j74028056313973_2_alg».proof.Proof.WordWhole
import proofs.«100367_j74028056313973_2_alg».proof.Proof.RefSide
import proofs.«100367_j74028056313973_2_alg».proof.Proof.RealInputs
import proofs.«100367_j74028056313973_2_alg».proof.Proof.Glue
import proofs.«100367_j74028056313973_2_alg».proof.Proof.Gen.Kernel
import proofs.«100367_j74028056313973_2_alg».proof.Proof.Gen.KernelIdeal
import proofs.«100367_j74028056313973_2_alg».proof.Proof.Gen.ReferenceIdeal
import proofs.«100367_j74028056313973_2_alg».proof.Proof.Gen.Pre_finite_inputs
import Idealize.ShloMosaic.PureOps.IdealRules

noncomputable section

namespace Cert.Proof

open Idealize.ShloMosaic Idealize.ShloMosaic.TcCoe Idealize.SL.Sem

/-- The program as printed runs to its end, faults nowhere and leaves its arguments as launched: its run, with the
    result's value dropped. -/
theorem frame_word : Cert.frame_Kernel := fun m ρ _ =>
  (θ_run (Cert.Kernel.defs (F := Bits)) _ _).mono (fun _ h c => (h c).2) (Cert.Kernel.Whole.run_main (F := Bits) m ρ)

/-- The same of the idealized program. -/
theorem frame_ideal : Cert.frame_KernelIdeal := fun m ρ _ =>
  (θ_run (Cert.KernelIdeal.defs (F := Ideal)) _ _).mono (fun _ h c => (h c).2) (Cert.KernelIdeal.Whole.run_main (F := Ideal) m ρ)

/-- The one rewrite of the idealization, ten times: the certificate's table gives the finite mask constant the value
    −∞, and at the ideal instance the printed constant is that value. -/
theorem mask_is_bot : IdealRules.named_const.Statement Cert.KernelIdeal.κ "neg_big" .f32 0xFF333333#32 ⊥ :=
  IdealRules.named_const.statement Cert.KernelIdeal.κ "neg_big" .f32 0xFF333333#32 ⊥ rfl

theorem preserves : Cert.preserves_Kernel_KernelIdeal :=
  ⟨mask_is_bot, mask_is_bot, mask_is_bot, mask_is_bot, mask_is_bot, mask_is_bot, mask_is_bot, mask_is_bot, mask_is_bot, mask_is_bot⟩

/-- From memories agreeing on the four arguments, all of them finite, both idealized programs end with the result
    array at the specification's attention of the arguments. -/
theorem algebraic : Cert.algebraic_KernelIdeal_ReferenceIdeal := by
  intro m ρ m' ρ' hpre hagree
  refine ⟨fun c => Cert.CausalAttention.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨(h c).1.trans (Cert.KernelIdeal.Glue.oArr_eq m c (Cert.CausalAttention.real_inputs m hpre c).1 (Cert.CausalAttention.real_inputs m hpre c).2.1
          (Cert.CausalAttention.real_inputs m hpre c).2.2.1 (Cert.CausalAttention.real_inputs m hpre c).2.2.2), (h c).2⟩)
      (Cert.KernelIdeal.Whole.run_main (F := Ideal) m ρ)
  · exact (θ_run (Cert.ReferenceIdeal.defs (F := Ideal)) _ _).mono
      (fun _ h c => ⟨by rw [(h c).1, (hagree c).1, (hagree c).2.1, (hagree c).2.2.1, (hagree c).2.2.2], (h c).2⟩)
      (Cert.CausalAttention.Ref.ref_run m' ρ')

theorem claim : Cert.Claim :=
  ⟨Cert.Kernel.Gen.facts, Cert.KernelIdeal.Gen.facts, Cert.ReferenceIdeal.Gen.facts, Cert.Pre_finite_inputs.Gen.facts,
    frame_word, frame_ideal, Cert.CausalAttention.Ref.ref_frame, preserves, algebraic⟩

end Cert.Proof

end
